-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v136_0)) (v1 : (c : Dev Cert.KernelIdeal.nD) → Buf (Elt Ideal) ((c.tc : Thread Cert.KernelIdeal.nD Cert.KernelIdeal.τ).loc Cert.KernelIdeal.main_v136_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v136_0) = v0 c
          ∧ r.2.mem ((c.tc : Thread Cert.KernelIdeal.nD Cert.KernelIdeal.τ).loc Cert.KernelIdeal.main_v136_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v199) = v0 c
          ∧ r.2.mem ((c.tc : Thread Cert.ReferenceIdeal.nD Cert.ReferenceIdeal.τ).loc Cert.ReferenceIdeal.main_v203) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x100 : Shape := ⟨2, ![50000, 100]⟩
abbrev S2x800000 : Shape := ⟨2, ![2, 800000]⟩
abbrev S50000 : Shape := ⟨1, ![50000]⟩
abbrev S5x100x200 : Shape := ⟨3, ![5, 100, 200]⟩
abbrev S5x200 : Shape := ⟨2, ![5, 200]⟩
abbrev S5x200x100 : Shape := ⟨3, ![5, 200, 100]⟩
abbrev S5x100 : Shape := ⟨2, ![5, 100]⟩
abbrev S5 : Shape := ⟨1, ![5]⟩
abbrev S100x100 : Shape := ⟨2, ![100, 100]⟩
abbrev S100 : Shape := ⟨1, ![100]⟩
abbrev S_ : Shape := ⟨0, ![]⟩

class Facts : Prop where
  bcast_S_S50000x100 : S_.BroadcastsInDim S50000x100 (![] : Fin 0 → Fin S50000x100.rank)
  reducesTo_S50000x100_S_d0_1 : S50000x100.ReducesTo [0, 1] S_
  h_S_ : 0 < S_.numel
  bcast_S_S5x100x200 : S_.BroadcastsInDim S5x100x200 (![] : Fin 0 → Fin S5x100x200.rank)
  reducesTo_S5x100x200_S_d0_1_2 : S5x100x200.ReducesTo [0, 1, 2] S_
  bcast_S_S5x200 : S_.BroadcastsInDim S5x200 (![] : Fin 0 → Fin S5x200.rank)
  reducesTo_S5x200_S_d0_1 : S5x200.ReducesTo [0, 1] S_
  bcast_S_S5x200x100 : S_.BroadcastsInDim S5x200x100 (![] : Fin 0 → Fin S5x200x100.rank)
  reducesTo_S5x200x100_S_d0_1_2 : S5x200x100.ReducesTo [0, 1, 2] S_
  bcast_S_S5x100 : S_.BroadcastsInDim S5x100 (![] : Fin 0 → Fin S5x100.rank)
  reducesTo_S5x100_S_d0_1 : S5x100.ReducesTo [0, 1] S_
  bcast_S_S5 : S_.BroadcastsInDim S5 (![] : Fin 0 → Fin S5.rank)
  reducesTo_S5_S_d0 : S5.ReducesTo [0] S_
  bcast_S_S100x100 : S_.BroadcastsInDim S100x100 (![] : Fin 0 → Fin S100x100.rank)
  reducesTo_S100x100_S_d0_1 : S100x100.ReducesTo [0, 1] S_
  bcast_S_S100 : S_.BroadcastsInDim S100 (![] : Fin 0 → Fin S100.rank)
  reducesTo_S100_S_d0 : S100.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S100 .f32) (main_arg14 : FVec F S100x100 .f32) (main_arg15 : FVec F S100 .f32) (main_v48 : IVec S_ 1) (main_v49 : FVec F S100x100 .f32) (main_v50 : FVec F S100x100 .f32) : IVec S_ 1 :=
  let main_v51 : IVec S100x100 1 := cmpf .olt main_v49 main_v50
  let main_c_19 : IVec S_ 1 := constantI S_ 1 1#1
  let main_v52 : IVec S_ 1 := (fun x v => Host.reduce IntOp.andi x v reducesTo_S100x100_S_d0_1 h_S_) main_v51 main_c_19
  let main_v53 : IVec S_ 1 := andi main_v48 main_v52
  let main_v54 : FVec F S100 .f32 := Host.absf main_arg13
  let main_cst_20 : FVec F S_ .f32 := constant S_ .f32 0x7F800000#32
  let main_v55 : FVec F S100 .f32 := broadcastInDim S100 ![] bcast_S_S100 main_cst_20
  let main_v56 : IVec S100 1 := cmpf .olt main_v54 main_v55
  let main_c_21 : IVec S_ 1 := constantI S_ 1 1#1
  let main_v57 : IVec S_ 1 := (fun x v => Host.reduce IntOp.andi x v reducesTo_S100_S_d0 h_S_) main_v56 main_c_21
  let main_v58 : IVec S_ 1 := andi main_v53 main_v57
  let main_v59 : FVec F S100x100 .f32 := Host.absf main_arg14
  let main_cst_22 : FVec F S_ .f32 := constant S_ .f32 0x7F800000#32
  let main_v60 : FVec F S100x100 .f32 := broadcastInDim S100x100 ![] bcast_S_S100x100 main_cst_22
  let main_v61 : IVec S100x100 1 := cmpf .olt main_v59 main_v60
  let main_c_23 : IVec S_ 1 := constantI S_ 1 1#1
  let main_v62 : IVec S_ 1 := (fun x v => Host.reduce IntOp.andi x v reducesTo_S100x100_S_d0_1 h_S_) main_v61 main_c_23
  let main_v63 : IVec S_ 1 := andi main_v58 main_v62
  let main_v64 : FVec F S100 .f32 := Host.absf main_arg15
  let main_cst_24 : FVec F S_ .f32 := constant S_ .f32 0x7F800000#32
  let main_v65 : FVec F S100 .f32 := broadcastInDim S100 ![] bcast_S_S100 main_cst_24
  let main_v66 : IVec S100 1 := cmpf .olt main_v64 main_v65
  let main_c_25 : IVec S_ 1 := constantI S_ 1 1#1
  let main_v67 : IVec S_ 1 := (fun x v => Host.reduce IntOp.andi x v reducesTo_S100_S_d0 h_S_) main_v66 main_c_25
  fn_part4 (F := F) main_v63 main_v67

def fn_part2 {F : FTy → Type} [FloatOps F] (main_arg9 : FVec F S100 .f32) (main_arg10 : FVec F S100x100 .f32) (main_arg11 : FVec F S100 .f32) (main_arg12 : FVec F S100x100 .f32) (main_arg13 : FVec F S100 .f32) (main_arg14 : FVec F S100x100 .f32) (main_arg15 : FVec F S100 .f32) (main_v33 : IVec S_ 1) : IVec S_ 1 :=
  let main_v34 : FVec F S100 .f32 := Host.absf main_arg9
  let main_cst_12 : FVec F S_ .f32 := constant S_ .f32 0x7F800000#32
  let main_v35 : FVec F S100 .f32 := broadcastInDim S100 ![] bcast_S_S100 main_cst_12
  let main_v36 : IVec S100 1 := cmpf .olt main_v34 main_v35
  let main_c_13 : IVec S_ 1 := constantI S_ 1 1#1
  let main_v37 : IVec S_ 1 := (fun x v => Host.reduce IntOp.andi x v reducesTo_S100_S_d0 h_S_) main_v36 main_c_13
  let main_v38 : IVec S_ 1 := andi main_v33 main_v37
  let main_v39 : FVec F S100x100 .f32 := Host.absf main_arg10
  let main_cst_14 : FVec F S_ .f32 := constant S_ .f32 0x7F800000#32
  let main_v40 : FVec F S100x100 .f32 := broadcastInDim S100x100 ![] bcast_S_S100x100 main_cst_14
  let main_v41 : IVec S100x100 1 := cmpf .olt main_v39 main_v40
  let main_c_15 : IVec S_ 1 := constantI S_ 1 1#1
  let main_v42 : IVec S_ 1 := (fun x v => Host.reduce IntOp.andi x v reducesTo_S100x100_S_d0_1 h_S_) main_v41 main_c_15
  let main_v43 : IVec S_ 1 := andi main_v38 main_v42
  let main_v44 : FVec F S100 .f32 := Host.absf main_arg11
  let main_cst_16 : FVec F S_ .f32 := constant S_ .f32 0x7F800000#32
  let main_v45 : FVec F S100 .f32 := broadcastInDim S100 ![] bcast_S_S100 main_cst_16
  let main_v46 : IVec S100 1 := cmpf .olt main_v44 main_v45
  let main_c_17 : IVec S_ 1 := constantI S_ 1 1#1
  let main_v47 : IVec S_ 1 := (fun x v => Host.reduce IntOp.andi x v reducesTo_S100_S_d0 h_S_) main_v46 main_c_17
  let main_v48 : IVec S_ 1 := andi main_v43 main_v47
  let main_v49 : FVec F S100x100 .f32 := Host.absf main_arg12
  let main_cst_18 : FVec F S_ .f32 := constant S_ .f32 0x7F800000#32
  let main_v50 : FVec F S100x100 .f32 := broadcastInDim S100x100 ![] bcast_S_S100x100 main_cst_18
  fn_part3 (F := F) main_arg13 main_arg14 main_arg15 main_v48 main_v49 main_v50

def fn_part1 {F : FTy → Type} [FloatOps F] (main_arg6 : FVec F S5x100 .f32) (main_arg7 : FVec F S5 .f32) (main_arg8 : FVec F S100x100 .f32) (main_arg9 : FVec F S100 .f32) (main_arg10 : FVec F S100x100 .f32) (main_arg11 : FVec F S100 .f32) (main_arg12 : FVec F S100x100 .f32) (main_arg13 : FVec F S100 .f32) (main_arg14 : FVec F S100x100 .f32) (main_arg15 : FVec F S100 .f32) (main_v13 : IVec S_ 1) (main_v16 : IVec S5x200x100 1) : IVec S_ 1 :=
  let main_c_5 : IVec S_ 1 := constantI S_ 1 1#1
  let main_v17 : IVec S_ 1 := (fun x v => Host.reduce IntOp.andi x v reducesTo_S5x200x100_S_d0_1_2 h_S_) main_v16 main_c_5
  let main_v18 : IVec S_ 1 := andi main_v13 main_v17
  let main_v19 : FVec F S5x100 .f32 := Host.absf main_arg6
  let main_cst_6 : FVec F S_ .f32 := constant S_ .f32 0x7F800000#32
  let main_v20 : FVec F S5x100 .f32 := broadcastInDim S5x100 ![] bcast_S_S5x100 main_cst_6
  let main_v21 : IVec S5x100 1 := cmpf .olt main_v19 main_v20
  let main_c_7 : IVec S_ 1 := constantI S_ 1 1#1
  let main_v22 : IVec S_ 1 := (fun x v => Host.reduce IntOp.andi x v reducesTo_S5x100_S_d0_1 h_S_) main_v21 main_c_7
  let main_v23 : IVec S_ 1 := andi main_v18 main_v22
  let main_v24 : FVec F S5 .f32 := Host.absf main_arg7
  let main_cst_8 : FVec F S_ .f32 := constant S_ .f32 0x7F800000#32
  let main_v25 : FVec F S5 .f32 := broadcastInDim S5 ![] bcast_S_S5 main_cst_8
  let main_v26 : IVec S5 1 := cmpf .olt main_v24 main_v25
  let main_c_9 : IVec S_ 1 := constantI S_ 1 1#1
  let main_v27 : IVec S_ 1 := (fun x v => Host.reduce IntOp.andi x v reducesTo_S5_S_d0 h_S_) main_v26 main_c_9
  let main_v28 : IVec S_ 1 := andi main_v23 main_v27
  let main_v29 : FVec F S100x100 .f32 := Host.absf main_arg8
  let main_cst_10 : FVec F S_ .f32 := constant S_ .f32 0x7F800000#32
  let main_v30 : FVec F S100x100 .f32 := broadcastInDim S100x100 ![] bcast_S_S100x100 main_cst_10
  let main_v31 : IVec S100x100 1 := cmpf .olt main_v29 main_v30
  let main_c_11 : IVec S_ 1 := constantI S_ 1 1#1
  let main_v32 : IVec S_ 1 := (fun x v => Host.reduce IntOp.andi x v reducesTo_S100x100_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x100 .f32) (main_arg1 : IVec S2x800000 32) (main_arg2 : IVec S50000 32) (main_arg3 : FVec F S5x100x200 .f32) (main_arg4 : FVec F S5x200 .f32) (main_arg5 : FVec F S5x200x100 .f32) (main_arg6 : FVec F S5x100 .f32) (main_arg7 : FVec F S5 .f32) (main_arg8 : FVec F S100x100 .f32) (main_arg9 : FVec F S100 .f32) (main_arg10 : FVec F S100x100 .f32) (main_arg11 : FVec F S100 .f32) (main_arg12 : FVec F S100x100 .f32) (main_arg13 : FVec F S100 .f32) (main_arg14 : FVec F S100x100 .f32) (main_arg15 : FVec F S100 .f32) : IVec S_ 1 :=
  let main_v0 : FVec F S50000x100 .f32 := Host.absf main_arg0
  let main_cst : FVec F S_ .f32 := constant S_ .f32 0x7F800000#32
  let main_v1 : FVec F S50000x100 .f32 := broadcastInDim S50000x100 ![] bcast_S_S50000x100 main_cst
  let main_v2 : IVec S50000x100 1 := cmpf .olt main_v0 main_v1
  let main_c : IVec S_ 1 := constantI S_ 1 1#1
  let main_v3 : IVec S_ 1 := (fun x v => Host.reduce IntOp.andi x v reducesTo_S50000x100_S_d0_1 h_S_) main_v2 main_c
  let main_v4 : FVec F S5x100x200 .f32 := Host.absf main_arg3
  let main_cst_0 : FVec F S_ .f32 := constant S_ .f32 0x7F800000#32
  let main_v5 : FVec F S5x100x200 .f32 := broadcastInDim S5x100x200 ![] bcast_S_S5x100x200 main_cst_0
  let main_v6 : IVec S5x100x200 1 := cmpf .olt main_v4 main_v5
  let main_c_1 : IVec S_ 1 := constantI S_ 1 1#1
  let main_v7 : IVec S_ 1 := (fun x v => Host.reduce IntOp.andi x v reducesTo_S5x100x200_S_d0_1_2 h_S_) main_v6 main_c_1
  let main_v8 : IVec S_ 1 := andi main_v3 main_v7
  let main_v9 : FVec F S5x200 .f32 := Host.absf main_arg4
  let main_cst_2 : FVec F S_ .f32 := constant S_ .f32 0x7F800000#32
  let main_v10 : FVec F S5x200 .f32 := broadcastInDim S5x200 ![] bcast_S_S5x200 main_cst_2
  let main_v11 : IVec S5x200 1 := cmpf .olt main_v9 main_v10
  let main_c_3 : IVec S_ 1 := constantI S_ 1 1#1
  let main_v12 : IVec S_ 1 := (fun x v => Host.reduce IntOp.andi x v reducesTo_S5x200_S_d0_1 h_S_) main_v11 main_c_3
  let main_v13 : IVec S_ 1 := andi main_v8 main_v12
  let main_v14 : FVec F S5x200x100 .f32 := Host.absf main_arg5
  let main_cst_4 : FVec F S_ .f32 := constant S_ .f32 0x7F800000#32
  let main_v15 : FVec F S5x200x100 .f32 := broadcastInDim S5x200x100 ![] bcast_S_S5x200x100 main_cst_4
  let main_v16 : IVec S5x200x100 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x100 : Shape := ⟨2, ![50000, 100]⟩
abbrev S2x800000 : Shape := ⟨2, ![2, 800000]⟩
abbrev S50000 : Shape := ⟨1, ![50000]⟩
abbrev S5x100x200 : Shape := ⟨3, ![5, 100, 200]⟩
abbrev S5x200 : Shape := ⟨2, ![5, 200]⟩
abbrev S5x200x100 : Shape := ⟨3, ![5, 200, 100]⟩
abbrev S5x100 : Shape := ⟨2, ![5, 100]⟩
abbrev S5 : Shape := ⟨1, ![5]⟩
abbrev S100x100 : Shape := ⟨2, ![100, 100]⟩
abbrev S100 : Shape := ⟨1, ![100]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x100 : Shape := ⟨2, ![800000, 100]⟩
abbrev S1 : Shape := ⟨1, ![1]⟩
abbrev S1x100x200 : Shape := ⟨3, ![1, 100, 200]⟩
abbrev S100x200 : Shape := ⟨2, ![100, 200]⟩
abbrev S1x200 : Shape := ⟨2, ![1, 200]⟩
abbrev S200 : Shape := ⟨1, ![200]⟩
abbrev S1x200x100 : Shape := ⟨3, ![1, 200, 100]⟩
abbrev S200x100 : Shape := ⟨2, ![200, 100]⟩
abbrev S1x100 : Shape := ⟨2, ![1, 100]⟩
abbrev S5000x100 : Shape := ⟨2, ![5000, 100]⟩
abbrev S5000x200 : Shape := ⟨2, ![5000, 200]⟩
abbrev S512x100 : Shape := ⟨2, ![512, 100]⟩
abbrev S50000x1 : Shape := ⟨2, ![50000, 1]⟩

abbrev nBuf : Space → Nat
  | .hbm => 177
  | .vmem => 58
  | .smem => 0
  | _ => 0

abbrev hbmTy0_0 (i : Nat) : BufTy := match i % 128 with
  | 0 => ⟨S50000x100, .f32⟩
  | 1 => ⟨S2x800000, .i32⟩
  | 2 => ⟨S50000, .i32⟩
  | 3 => ⟨S5x100x200, .f32⟩
  | 4 => ⟨S5x200, .f32⟩
  | 5 => ⟨S5x200x100, .f32⟩
  | 6 => ⟨S5x100, .f32⟩
  | 7 => ⟨S5, .f32⟩
  | 8 => ⟨S100x100, .f32⟩
  | 9 => ⟨S100, .f32⟩
  | 10 => ⟨S100x100, .f32⟩
  | 11 => ⟨S100, .f32⟩
  | 12 => ⟨S100x100, .f32⟩
  | 13 => ⟨S100, .f32⟩
  | 14 => ⟨S100x100, .f32⟩
  | 15 => ⟨S100, .f32⟩
  | 16 => ⟨S1x800000, .i32⟩
  | 17 => ⟨S800000, .i32⟩
  | 18 => ⟨S1x800000, .i32⟩
  | 19 => ⟨S800000, .i32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x100, .f32⟩
  | 29 => ⟨S_, .f32⟩
  | 30 => ⟨S50000x100, .f32⟩
  | 31 => ⟨S800000x1, .i32⟩
  | 32 => ⟨S50000x100, .f32⟩
  | 33 => ⟨S1, .f32⟩
  | 34 => ⟨S_, .f32⟩
  | 35 => ⟨S_, .f32⟩
  | 36 => ⟨S_, .f32⟩
  | 37 => ⟨S50000x100, .f32⟩
  | 38 => ⟨S50000x100, .f32⟩
  | 39 => ⟨S50000x100, .f32⟩
  | 40 => ⟨S1x100x200, .f32⟩
  | 41 => ⟨S100x200, .f32⟩
  | 42 => ⟨S1x200, .f32⟩
  | 43 => ⟨S200, .f32⟩
  | 44 => ⟨S1x200x100, .f32⟩
  | 45 => ⟨S200x100, .f32⟩
  | 46 => ⟨S1x100, .f32⟩
  | 47 => ⟨S100, .f32⟩
  | 48 => ⟨S50000x100, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x100, .f32⟩
  | 58 => ⟨S_, .f32⟩
  | 59 => ⟨S50000x100, .f32⟩
  | 60 => ⟨S800000x1, .i32⟩
  | 61 => ⟨S50000x100, .f32⟩
  | 62 => ⟨S1, .f32⟩
  | 63 => ⟨S_, .f32⟩
  | 64 => ⟨S_, .f32⟩
  | 65 => ⟨S_, .f32⟩
  | 66 => ⟨S50000x100, .f32⟩
  | 67 => ⟨S50000x100, .f32⟩
  | 68 => ⟨S50000x100, .f32⟩
  | 69 => ⟨S1x100x200, .f32⟩
  | 70 => ⟨S100x200, .f32⟩
  | 71 => ⟨S1x200, .f32⟩
  | 72 => ⟨S200, .f32⟩
  | 73 => ⟨S1x200x100, .f32⟩
  | 74 => ⟨S200x100, .f32⟩
  | 75 => ⟨S1x100, .f32⟩
  | 76 => ⟨S100, .f32⟩
  | 77 => ⟨S50000x100, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x100, .f32⟩
  | 87 => ⟨S_, .f32⟩
  | 88 => ⟨S50000x100, .f32⟩
  | 89 => ⟨S800000x1, .i32⟩
  | 90 => ⟨S50000x100, .f32⟩
  | 91 => ⟨S1, .f32⟩
  | 92 => ⟨S_, .f32⟩
  | 93 => ⟨S_, .f32⟩
  | 94 => ⟨S_, .f32⟩
  | 95 => ⟨S50000x100, .f32⟩
  | 96 => ⟨S50000x100, .f32⟩
  | 97 => ⟨S50000x100, .f32⟩
  | 98 => ⟨S1x100x200, .f32⟩
  | 99 => ⟨S100x200, .f32⟩
  | 100 => ⟨S1x200, .f32⟩
  | 101 => ⟨S200, .f32⟩
  | 102 => ⟨S1x200x100, .f32⟩
  | 103 => ⟨S200x100, .f32⟩
  | 104 => ⟨S1x100, .f32⟩
  | 105 => ⟨S100, .f32⟩
  | 106 => ⟨S50000x100, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x100, .f32⟩
  | 116 => ⟨S_, .f32⟩
  | 117 => ⟨S50000x100, .f32⟩
  | 118 => ⟨S800000x1, .i32⟩
  | 119 => ⟨S50000x100, .f32⟩
  | 120 => ⟨S1, .f32⟩
  | 121 => ⟨S_, .f32⟩
  | 122 => ⟨S_, .f32⟩
  | 123 => ⟨S_, .f32⟩
  | 124 => ⟨S50000x100, .f32⟩
  | 125 => ⟨S50000x100, .f32⟩
  | 126 => ⟨S50000x100, .f32⟩
  | 127 => ⟨S1x100x200, .f32⟩
  | _ => ⟨S50000x100, .f32⟩

abbrev hbmTy0_1 (i : Nat) : BufTy := match i % 128 with
  | 0 => ⟨S100x200, .f32⟩
  | 1 => ⟨S1x200, .f32⟩
  | 2 => ⟨S200, .f32⟩
  | 3 => ⟨S1x200x100, .f32⟩
  | 4 => ⟨S200x100, .f32⟩
  | 5 => ⟨S1x100, .f32⟩
  | 6 => ⟨S100, .f32⟩
  | 7 => ⟨S50000x100, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000x100, .f32⟩
  | 17 => ⟨S_, .f32⟩
  | 18 => ⟨S50000x100, .f32⟩
  | 19 => ⟨S800000x1, .i32⟩
  | 20 => ⟨S50000x100, .f32⟩
  | 21 => ⟨S1, .f32⟩
  | 22 => ⟨S_, .f32⟩
  | 23 => ⟨S_, .f32⟩
  | 24 => ⟨S_, .f32⟩
  | 25 => ⟨S50000x100, .f32⟩
  | 26 => ⟨S50000x100, .f32⟩
  | 27 => ⟨S50000x100, .f32⟩
  | 28 => ⟨S1x100x200, .f32⟩
  | 29 => ⟨S100x200, .f32⟩
  | 30 => ⟨S1x200, .f32⟩
  | 31 => ⟨S200, .f32⟩
  | 32 => ⟨S1x200x100, .f32⟩
  | 33 => ⟨S200x100, .f32⟩
  | 34 => ⟨S1x100, .f32⟩
  | 35 => ⟨S100, .f32⟩
  | 36 => ⟨S50000x100, .f32⟩
  | 37 => ⟨S50000x100, .f32⟩
  | 38 => ⟨S50000x100, .f32⟩
  | 39 => ⟨S_, .f32⟩
  | 40 => ⟨S512x100, .f32⟩
  | 41 => ⟨S50000x1, .i32⟩
  | 42 => ⟨S512x100, .f32⟩
  | 43 => ⟨S_, .f32⟩
  | 44 => ⟨S512x100, .f32⟩
  | 45 => ⟨S50000x1, .i32⟩
  | 46 => ⟨S512x100, .f32⟩
  | 47 => ⟨S512x100, .f32⟩
  | 48 => ⟨S512x100, .f32⟩
  | _ => ⟨S50000x100, .f32⟩

abbrev hbmTy (i : Nat) : BufTy := match i / 128 with
  | 0 => hbmTy0_0 i
  | 1 => hbmTy0_1 i
  | _ => ⟨S50000x100, .f32⟩

abbrev bufTy : (tb : Table) → Fin (tcTables nBuf tb) → BufTy
  | .hbm, ⟨i, _⟩ => hbmTy i
  | .local _ .vmem, ⟨0, _⟩ => ⟨S5000x100, .f32⟩
  | .local _ .vmem, ⟨1, _⟩ => ⟨S5000x100, .f32⟩
  | .local _ .vmem, ⟨2, _⟩ => ⟨S100x200, .f32⟩
  | .local _ .vmem, ⟨3, _⟩ => ⟨S200, .f32⟩
  | .local _ .vmem, ⟨4, _⟩ => ⟨S200x100, .f32⟩
  | .local _ .vmem, ⟨5, _⟩ => ⟨S100, .f32⟩
  | .local _ .vmem, ⟨6, _⟩ => ⟨S5000x100, .f32⟩
  | .local _ .vmem, ⟨7, _⟩ => ⟨S5000x100, .f32⟩
  | .local _ .vmem, ⟨8, _⟩ => ⟨S5000x100, .f32⟩
  | .local _ .vmem, ⟨9, _⟩ => ⟨S5000x100, .f32⟩
  | .local _ .vmem, ⟨10, _⟩ => ⟨S100x200, .f32⟩
  | .local _ .vmem, ⟨11, _⟩ => ⟨S200, .f32⟩
  | .local _ .vmem, ⟨12, _⟩ => ⟨S200x100, .f32⟩
  | .local _ .vmem, ⟨13, _⟩ => ⟨S100, .f32⟩
  | .local _ .vmem, ⟨14, _⟩ => ⟨S5000x100, .f32⟩
  | .local _ .vmem, ⟨15, _⟩ => ⟨S5000x100, .f32⟩
  | .local _ .vmem, ⟨16, _⟩ => ⟨S5000x100, .f32⟩
  | .local _ .vmem, ⟨17, _⟩ => ⟨S5000x100, .f32⟩
  | .local _ .vmem, ⟨18, _⟩ => ⟨S100x200, .f32⟩
  | .local _ .vmem, ⟨19, _⟩ => ⟨S200, .f32⟩
  | .local _ .vmem, ⟨20, _⟩ => ⟨S200x100, .f32⟩
  | .local _ .vmem, ⟨21, _⟩ => ⟨S100, .f32⟩
  | .local _ .vmem, ⟨22, _⟩ => ⟨S5000x100, .f32⟩
  | .local _ .vmem, ⟨23, _⟩ => ⟨S5000x100, .f32⟩
  | .local _ .vmem, ⟨24, _⟩ => ⟨S5000x100, .f32⟩
  | .local _ .vmem, ⟨25, _⟩ => ⟨S5000x100, .f32⟩
  | .local _ .vmem, ⟨26, _⟩ => ⟨S100x200, .f32⟩
  | .local _ .vmem, ⟨27, _⟩ => ⟨S200, .f32⟩
  | .local _ .vmem, ⟨28, _⟩ => ⟨S200x100, .f32⟩
  | .local _ .vmem, ⟨29, _⟩ => ⟨S100, .f32⟩
  | .local _ .vmem, ⟨30, _⟩ => ⟨S5000x100, .f32⟩
  | .local _ .vmem, ⟨31, _⟩ => ⟨S5000x100, .f32⟩
  | .local _ .vmem, ⟨32, _⟩ => ⟨S5000x100, .f32⟩
  | .local _ .vmem, ⟨33, _⟩ => ⟨S5000x100, .f32⟩
  | .local _ .vmem, ⟨34, _⟩ => ⟨S100x200, .f32⟩
  | .local _ .vmem, ⟨35, _⟩ => ⟨S200, .f32⟩
  | .local _ .vmem, ⟨36, _⟩ => ⟨S200x100, .f32⟩
  | .local _ .vmem, ⟨37, _⟩ => ⟨S100, .f32⟩
  | .local _ .vmem, ⟨38, _⟩ => ⟨S5000x100, .f32⟩
  | .local _ .vmem, ⟨39, _⟩ => ⟨S5000x100, .f32⟩
  | .local _ .vmem, ⟨40, _⟩ => ⟨S5000x100, .f32⟩
  | .local _ .vmem, ⟨41, _⟩ => ⟨S5000x100, .f32⟩
  | .local _ .vmem, ⟨42, _⟩ => ⟨S100x100, .f32⟩
  | .local _ .vmem, ⟨43, _⟩ => ⟨S100, .f32⟩
  | .local _ .vmem, ⟨44, _⟩ => ⟨S100x100, .f32⟩
  | .local _ .vmem, ⟨45, _⟩ => ⟨S100, .f32⟩
  | .local _ .vmem, ⟨46, _⟩ => ⟨S5000x100, .f32⟩
  | .local _ .vmem, ⟨47, _⟩ => ⟨S5000x100, .f32⟩
  | .local _ .vmem, ⟨48, _⟩ => ⟨S5000x100, .f32⟩
  | .local _ .vmem, ⟨49, _⟩ => ⟨S5000x100, .f32⟩
  | .local _ .vmem, ⟨50, _⟩ => ⟨S512x100, .f32⟩
  | .local _ .vmem, ⟨51, _⟩ => ⟨S100x100, .f32⟩
  | .local _ .vmem, ⟨52, _⟩ => ⟨S100, .f32⟩
  | .local _ .vmem, ⟨53, _⟩ => ⟨S512x100, .f32⟩
  | .local _ .vmem, ⟨54, _⟩ => ⟨S100x100, .f32⟩
  | .local _ .vmem, ⟨55, _⟩ => ⟨S100, .f32⟩
  | .local _ .vmem, ⟨56, _⟩ => ⟨S512x100, .f32⟩
  | .local _ .vmem, ⟨57, _⟩ => ⟨S512x100, .f32⟩
  | _, _ => ⟨S50000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_2 : Ref sig .tc := ⟨.hbm, 49, rfl⟩
abbrev main_v29 : Ref sig .tc := ⟨.hbm, 50, rfl⟩
abbrev main_v30 : Ref sig .tc := ⟨.hbm, 51, rfl⟩
abbrev main_c_3 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_4 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_5 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_6 : Ref sig .tc := ⟨.hbm, 78, rfl⟩
abbrev main_v54 : Ref sig .tc := ⟨.hbm, 79, rfl⟩
abbrev main_v55 : Ref sig .tc := ⟨.hbm, 80, rfl⟩
abbrev main_c_7 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_8 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_9 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_c_10 : Ref sig .tc := ⟨.hbm, 107, rfl⟩
abbrev main_v79 : Ref sig .tc := ⟨.hbm, 108, rfl⟩
abbrev main_v80 : Ref sig .tc := ⟨.hbm, 109, rfl⟩
abbrev main_c_11 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_12 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_13 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_c_14 : Ref sig .tc := ⟨.hbm, 136, rfl⟩
abbrev main_v104 : Ref sig .tc := ⟨.hbm, 137, rfl⟩
abbrev main_v105 : Ref sig .tc := ⟨.hbm, 138, rfl⟩
abbrev main_c_15 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_cst_16 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_cst_17 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129_0 : Ref sig .tc := ⟨.hbm, 165, rfl⟩
abbrev main_v129_1 : Ref sig .tc := ⟨.hbm, 166, rfl⟩
abbrev main_cst_18 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_cst_19 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136_0 : Ref sig .tc := ⟨.hbm, 175, rfl⟩
abbrev main_v136_1 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg5_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc5_stg6_0 : Ref sig .tc := ⟨.vmem, 48, rfl⟩
abbrev cc5_stg6_1 : Ref sig .tc := ⟨.vmem, 49, rfl⟩
abbrev cc6_stg0_0 : Ref sig .tc := ⟨.vmem, 50, rfl⟩
abbrev cc6_stg1_0 : Ref sig .tc := ⟨.vmem, 51, rfl⟩
abbrev cc6_stg2_0 : Ref sig .tc := ⟨.vmem, 52, rfl⟩
abbrev cc6_stg3_0 : Ref sig .tc := ⟨.vmem, 53, rfl⟩
abbrev cc6_stg4_0 : Ref sig .tc := ⟨.vmem, 54, rfl⟩
abbrev cc6_stg5_0 : Ref sig .tc := ⟨.vmem, 55, rfl⟩
abbrev cc6_stg6_0 : Ref sig .tc := ⟨.vmem, 56, rfl⟩
abbrev cc6_stg7_0 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem4_0 : DmaSem sig := 37
abbrev cc4_sem5_0 : DmaSem sig := 38
abbrev cc4_sem5_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc5_sem6_0 : DmaSem sig := 48
abbrev cc5_sem6_1 : DmaSem sig := 49
abbrev cc6_sem0_0 : DmaSem sig := 50
abbrev cc6_sem1_0 : DmaSem sig := 51
abbrev cc6_sem2_0 : DmaSem sig := 52
abbrev cc6_sem3_0 : DmaSem sig := 53
abbrev cc6_sem4_0 : DmaSem sig := 54
abbrev cc6_sem5_0 : DmaSem sig := 55
abbrev cc6_sem6_0 : DmaSem sig := 56
abbrev cc6_sem7_0 : DmaSem sig := 57

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x200 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S200x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x100 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S100x200 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S200 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S200x100 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S100 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x100 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x100 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S100x200 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S200 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S200x100 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S100 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x100 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x100 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S100x200 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S200 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S200x100 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S100 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x100 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x100 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S100x200 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S200 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S200x100 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S100 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x100 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x100 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S100x100 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S100 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S100x100 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S100 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x100 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S5000x100 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S512x100 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S100x100 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S100 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S512x100 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S100x100 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S100 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S512x100 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S512x100 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x100 : S_.BroadcastsInDim S50000x100 (![] : Fin 0 → Fin S50000x100.rank)
  slices_S5_S1_0 : S5.Slices ![0] S1
  shapeCasts_S1_S_ : S1.ShapeCasts S_
  slices_S5x100x200_S1x100x200_0_0_0 : S5x100x200.Slices ![0, 0, 0] S1x100x200
  shapeCasts_S1x100x200_S100x200 : S1x100x200.ShapeCasts S100x200
  slices_S5x200_S1x200_0_0 : S5x200.Slices ![0, 0] S1x200
  shapeCasts_S1x200_S200 : S1x200.ShapeCasts S200
  slices_S5x200x100_S1x200x100_0_0_0 : S5x200x100.Slices ![0, 0, 0] S1x200x100
  shapeCasts_S1x200x100_S200x100 : S1x200x100.ShapeCasts S200x100
  slices_S5x100_S1x100_0_0 : S5x100.Slices ![0, 0] S1x100
  shapeCasts_S1x100_S100 : S1x100.ShapeCasts S100
  inb_S5000x100_S5000x100_0_0 : ∀ a, (![0, 0] : Fin 2 → Nat) a + S5000x100.size a ≤ S5000x100.size a
  h_S5000x100 : 0 < S5000x100.numel
  shapeCasts_S5000x100_S5000x100 : S5000x100.ShapeCasts S5000x100
  bitsLt_bf16_f32 : FTy.bits .bf16 < FTy.bits .f32
  inb_S100x200_S100x200_0_0 : ∀ a, (![0, 0] : Fin 2 → Nat) a + S100x200.size a ≤ S100x200.size a
  h_S100x200 : 0 < S100x200.numel
  shapeCasts_S100x200_S100x200 : S100x200.ShapeCasts S100x200
  inb_S200_S200_0 : ∀ a, (![0] : Fin 1 → Nat) a + S200.size a ≤ S200.size a
  h_S200 : 0 < S200.numel
  shapeCasts_S200_S200 : S200.ShapeCasts S200
  shapeCasts_S200_S1x200 : S200.ShapeCasts S1x200
  broadcasts_S1x200_S5000x200 : S1x200.Broadcasts S5000x200
  inb_S200x100_S200x100_0_0 : ∀ a, (![0, 0] : Fin 2 → Nat) a + S200x100.size a ≤ S200x100.size a
  h_S200x100 : 0 < S200x100.numel
  shapeCasts_S200x100_S200x100 : S200x100.ShapeCasts S200x100
  inb_S100_S100_0 : ∀ a, (![0] : Fin 1 → Nat) a + S100.size a ≤ S100.size a
  h_S100 : 0 < S100.numel
  shapeCasts_S100_S100 : S100.ShapeCasts S100
  shapeCasts_S100_S1x100 : S100.ShapeCasts S1x100
  broadcasts_S1x100_S5000x100 : S1x100.Broadcasts S5000x100
  slices_S5_S1_1 : S5.Slices ![1] S1
  slices_S5x100x200_S1x100x200_1_0_0 : S5x100x200.Slices ![1, 0, 0] S1x100x200
  slices_S5x200_S1x200_1_0 : S5x200.Slices ![1, 0] S1x200
  slices_S5x200x100_S1x200x100_1_0_0 : S5x200x100.Slices ![1, 0, 0] S1x200x100
  slices_S5x100_S1x100_1_0 : S5x100.Slices ![1, 0] S1x100
  slices_S5_S1_2 : S5.Slices ![2] S1
  slices_S5x100x200_S1x100x200_2_0_0 : S5x100x200.Slices ![2, 0, 0] S1x100x200
  slices_S5x200_S1x200_2_0 : S5x200.Slices ![2, 0] S1x200
  slices_S5x200x100_S1x200x100_2_0_0 : S5x200x100.Slices ![2, 0, 0] S1x200x100
  slices_S5x100_S1x100_2_0 : S5x100.Slices ![2, 0] S1x100
  slices_S5_S1_3 : S5.Slices ![3] S1
  slices_S5x100x200_S1x100x200_3_0_0 : S5x100x200.Slices ![3, 0, 0] S1x100x200
  slices_S5x200_S1x200_3_0 : S5x200.Slices ![3, 0] S1x200
  slices_S5x200x100_S1x200x100_3_0_0 : S5x200x100.Slices ![3, 0, 0] S1x200x100
  slices_S5x100_S1x100_3_0 : S5x100.Slices ![3, 0] S1x100
  slices_S5_S1_4 : S5.Slices ![4] S1
  slices_S5x100x200_S1x100x200_4_0_0 : S5x100x200.Slices ![4, 0, 0] S1x100x200
  slices_S5x200_S1x200_4_0 : S5x200.Slices ![4, 0] S1x200
  slices_S5x200x100_S1x200x100_4_0_0 : S5x200x100.Slices ![4, 0, 0] S1x200x100
  slices_S5x100_S1x100_4_0 : S5x100.Slices ![4, 0] S1x100
  inb_S100x100_S100x100_0_0 : ∀ a, (![0, 0] : Fin 2 → Nat) a + S100x100.size a ≤ S100x100.size a
  h_S100x100 : 0 < S100x100.numel
  bcast_S_S512x100 : S_.BroadcastsInDim S512x100 (![] : Fin 0 → Fin S512x100.rank)
  bcast_S50000_S50000x1_0 : S50000.BroadcastsInDim S50000x1 (![0] : Fin 1 → Fin S50000x1.rank)
  inb_S512x100_S512x100_0_0 : ∀ a, (![0, 0] : Fin 2 → Nat) a + S512x100.size a ≤ S512x100.size a
  h_S512x100 : 0 < S512x100.numel
  shapeCasts_S512x100_S512x100 : S512x100.ShapeCasts S512x100
  broadcasts_S1x100_S512x100 : S1x100.Broadcasts S512x100
  gather_S50000x100_S800000x1_S800000x100_1_0_n_n_0_1_1100_wf : GatherDims.WF S50000x100 S800000x1 S800000x100 [1] [0] [] [0] [] 1 ![1, 100]
  scatter_S50000x100_S800000x1_S800000x100_1_0_0_1_wf : ScatterDims.WF S50000x100 S800000x1 S800000x100 [1] [0] [0] 1
  dot_S5000x100_S100x200_S5000x200_1_0_0_1_n_n_wf : DotDims.WF S5000x100 S100x200 S5000x200 [1] [0] [0] [1] [] []
  dot_S5000x200_S200x100_S5000x100_1_0_0_1_n_n_wf : DotDims.WF S5000x200 S200x100 S5000x100 [1] [0] [0] [1] [] []
  dot_S5000x100_S100x100_S5000x100_1_0_0_1_n_n_wf : DotDims.WF S5000x100 S100x100 S5000x100 [1] [0] [0] [1] [] []
  scatter_S512x100_S50000x1_S50000x100_1_0_0_1_wf : ScatterDims.WF S512x100 S50000x1 S50000x100 [1] [0] [0] 1
  dot_S512x100_S100x100_S512x100_1_0_0_1_n_n_wf : DotDims.WF S512x100 S100x100 S512x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x100.size a ≤ S50000x100.size a
  hwx0_0 : ∀ i : grid0.Coords, EltTy.bits .f32 = 32 ∨ (Rect.block (s := S50000x100) S5000x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x200.size a ≤ S100x200.size a
  hwx0_1 : ∀ i : grid0.Coords, EltTy.bits .f32 = 32 ∨ (Rect.block (s := S100x200) S100x200.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S200.size a ≤ S200.size a
  hwx0_2 : ∀ i : grid0.Coords, EltTy.bits .f32 = 32 ∨ (Rect.block (s := S200) S200.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S200x100.size a ≤ S200x100.size a
  hwx0_3 : ∀ i : grid0.Coords, EltTy.bits .f32 = 32 ∨ (Rect.block (s := S200x100) S200x100.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S100.size a ≤ S100.size a
  hwx0_4 : ∀ i : grid0.Coords, EltTy.bits .f32 = 32 ∨ (Rect.block (s := S100) S100.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x100.size a ≤ S50000x100.size a
  hwx0_5 : ∀ i : grid0.Coords, EltTy.bits .f32 = 32 ∨ (Rect.block (s := S50000x100) S5000x100.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x100.size a ≤ S50000x100.size a
  hwx1_0 : ∀ i : grid1.Coords, EltTy.bits .f32 = 32 ∨ (Rect.block (s := S50000x100) S5000x100.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S100x200.size a ≤ S100x200.size a
  hwx1_1 : ∀ i : grid1.Coords, EltTy.bits .f32 = 32 ∨ (Rect.block (s := S100x200) S100x200.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S200.size a ≤ S200.size a
  hwx1_2 : ∀ i : grid1.Coords, EltTy.bits .f32 = 32 ∨ (Rect.block (s := S200) S200.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S200x100.size a ≤ S200x100.size a
  hwx1_3 : ∀ i : grid1.Coords, EltTy.bits .f32 = 32 ∨ (Rect.block (s := S200x100) S200x100.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S100.size a ≤ S100.size a
  hwx1_4 : ∀ i : grid1.Coords, EltTy.bits .f32 = 32 ∨ (Rect.block (s := S100) S100.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x100.size a ≤ S50000x100.size a
  hwx1_5 : ∀ i : grid1.Coords, EltTy.bits .f32 = 32 ∨ (Rect.block (s := S50000x100) S5000x100.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x100.size a ≤ S50000x100.size a
  hwx2_0 : ∀ i : grid2.Coords, EltTy.bits .f32 = 32 ∨ (Rect.block (s := S50000x100) S5000x100.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S100x200.size a ≤ S100x200.size a
  hwx2_1 : ∀ i : grid2.Coords, EltTy.bits .f32 = 32 ∨ (Rect.block (s := S100x200) S100x200.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S200.size a ≤ S200.size a
  hwx2_2 : ∀ i : grid2.Coords, EltTy.bits .f32 = 32 ∨ (Rect.block (s := S200) S200.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S200x100.size a ≤ S200x100.size a
  hwx2_3 : ∀ i : grid2.Coords, EltTy.bits .f32 = 32 ∨ (Rect.block (s := S200x100) S200x100.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S100.size a ≤ S100.size a
  hwx2_4 : ∀ i : grid2.Coords, EltTy.bits .f32 = 32 ∨ (Rect.block (s := S100) S100.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x100.size a ≤ S50000x100.size a
  hwx2_5 : ∀ i : grid2.Coords, EltTy.bits .f32 = 32 ∨ (Rect.block (s := S50000x100) S5000x100.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x100.size a ≤ S50000x100.size a
  hwx3_0 : ∀ i : grid3.Coords, EltTy.bits .f32 = 32 ∨ (Rect.block (s := S50000x100) S5000x100.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S100x200.size a ≤ S100x200.size a
  hwx3_1 : ∀ i : grid3.Coords, EltTy.bits .f32 = 32 ∨ (Rect.block (s := S100x200) S100x200.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S200.size a ≤ S200.size a
  hwx3_2 : ∀ i : grid3.Coords, EltTy.bits .f32 = 32 ∨ (Rect.block (s := S200) S200.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S200x100.size a ≤ S200x100.size a
  hwx3_3 : ∀ i : grid3.Coords, EltTy.bits .f32 = 32 ∨ (Rect.block (s := S200x100) S200x100.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S100.size a ≤ S100.size a
  hwx3_4 : ∀ i : grid3.Coords, EltTy.bits .f32 = 32 ∨ (Rect.block (s := S100) S100.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x100.size a ≤ S50000x100.size a
  hwx3_5 : ∀ i : grid3.Coords, EltTy.bits .f32 = 32 ∨ (Rect.block (s := S50000x100) S5000x100.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x100.size a ≤ S50000x100.size a
  hwx4_0 : ∀ i : grid4.Coords, EltTy.bits .f32 = 32 ∨ (Rect.block (s := S50000x100) S5000x100.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S100x200.size a ≤ S100x200.size a
  hwx4_1 : ∀ i : grid4.Coords, EltTy.bits .f32 = 32 ∨ (Rect.block (s := S100x200) S100x200.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S200.size a ≤ S200.size a
  hwx4_2 : ∀ i : grid4.Coords, EltTy.bits .f32 = 32 ∨ (Rect.block (s := S200) S200.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S200x100.size a ≤ S200x100.size a
  hwx4_3 : ∀ i : grid4.Coords, EltTy.bits .f32 = 32 ∨ (Rect.block (s := S200x100) S200x100.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S100.size a ≤ S100.size a
  hwx4_4 : ∀ i : grid4.Coords, EltTy.bits .f32 = 32 ∨ (Rect.block (s := S100) S100.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x100.size a ≤ S50000x100.size a
  hwx4_5 : ∀ i : grid4.Coords, EltTy.bits .f32 = 32 ∨ (Rect.block (s := S50000x100) S5000x100.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x100.size a ≤ S50000x100.size a
  hwx5_0 : ∀ i : grid5.Coords, EltTy.bits .f32 = 32 ∨ (Rect.block (s := S50000x100) S5000x100.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S100x100.size a ≤ S100x100.size a
  hwx5_1 : ∀ i : grid5.Coords, EltTy.bits .f32 = 32 ∨ (Rect.block (s := S100x100) S100x100.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S100.size a ≤ S100.size a
  hwx5_2 : ∀ i : grid5.Coords, EltTy.bits .f32 = 32 ∨ (Rect.block (s := S100) S100.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S100x100.size a ≤ S100x100.size a
  hwx5_3 : ∀ i : grid5.Coords, EltTy.bits .f32 = 32 ∨ (Rect.block (s := S100x100) S100x100.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S100.size a ≤ S100.size a
  hwx5_4 : ∀ i : grid5.Coords, EltTy.bits .f32 = 32 ∨ (Rect.block (s := S100) S100.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x100.size a ≤ S50000x100.size a
  hwx5_5 : ∀ i : grid5.Coords, EltTy.bits .f32 = 32 ∨ (Rect.block (s := S50000x100) S5000x100.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x100.size a ≤ S50000x100.size a
  hwx5_6 : ∀ i : grid5.Coords, EltTy.bits .f32 = 32 ∨ (Rect.block (s := S50000x100) S5000x100.size (cc5_transform_6 i) (hinb5_6 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x100.size a ≤ S512x100.size a
  hwx6_0 : ∀ i : grid6.Coords, EltTy.bits .f32 = 32 ∨ (Rect.block (s := S512x100) S512x100.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S100x100.size a ≤ S100x100.size a
  hwx6_1 : ∀ i : grid6.Coords, EltTy.bits .f32 = 32 ∨ (Rect.block (s := S100x100) S100x100.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S100.size a ≤ S100.size a
  hwx6_2 : ∀ i : grid6.Coords, EltTy.bits .f32 = 32 ∨ (Rect.block (s := S100) S100.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S512x100.size a ≤ S512x100.size a
  hwx6_3 : ∀ i : grid6.Coords, EltTy.bits .f32 = 32 ∨ (Rect.block (s := S512x100) S512x100.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S100x100.size a ≤ S100x100.size a
  hwx6_4 : ∀ i : grid6.Coords, EltTy.bits .f32 = 32 ∨ (Rect.block (s := S100x100) S100x100.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S100.size a ≤ S100.size a
  hwx6_5 : ∀ i : grid6.Coords, EltTy.bits .f32 = 32 ∨ (Rect.block (s := S100) S100.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S512x100.size a ≤ S512x100.size a
  hwx6_6 : ∀ i : grid6.Coords, EltTy.bits .f32 = 32 ∨ (Rect.block (s := S512x100) S512x100.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S512x100.size a ≤ S512x100.size a
  hwx6_7 : ∀ i : grid6.Coords, EltTy.bits .f32 = 32 ∨ (Rect.block (s := S512x100) S512x100.size (cc6_transform_7 i) (hinb6_7 i)).WholeWords (EltTy.packing .f32)

variable [Facts₀]

def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf
def dot_S5000x100_S100x200_S5000x200_1_0_0_1_n_n : DotDims S5000x100 S100x200 S5000x200 where
  lhsContracting := [1]
  rhsContracting := [0]
  lhsNonContracting := [0]
  rhsNonContracting := [1]
  lhsBatch := []
  rhsBatch := []
  wf := dot_S5000x100_S100x200_S5000x200_1_0_0_1_n_n_wf
def dot_S5000x200_S200x100_S5000x100_1_0_0_1_n_n : DotDims S5000x200 S200x100 S5000x100 where
  lhsContracting := [1]
  rhsContracting := [0]
  lhsNonContracting := [0]
  rhsNonContracting := [1]
  lhsBatch := []
  rhsBatch := []
  wf := dot_S5000x200_S200x100_S5000x100_1_0_0_1_n_n_wf
def dot_S5000x100_S100x100_S5000x100_1_0_0_1_n_n : DotDims S5000x100 S100x100 S5000x100 where
  lhsContracting := [1]
  rhsContracting := [0]
  lhsNonContracting := [0]
  rhsNonContracting := [1]
  lhsBatch := []
  rhsBatch := []
  wf := dot_S5000x100_S100x100_S5000x100_1_0_0_1_n_n_wf
def scatter_S512x100_S50000x1_S50000x100_1_0_0_1 : ScatterDims S512x100 S50000x1 S50000x100 where
  updateWindowDims := [1]
  insertedWindowDims := [0]
  scatterDimsToOperandDims := [0]
  indexVectorDim := 1
  wf := scatter_S512x100_S50000x1_S50000x100_1_0_0_1_wf
def dot_S512x100_S100x100_S512x100_1_0_0_1_n_n : DotDims S512x100 S100x100 S512x100 where
  lhsContracting := [1]
  rhsContracting := [0]
  lhsNonContracting := [0]
  rhsNonContracting := [1]
  lhsBatch := []
  rhsBatch := []
  wf := dot_S512x100_S100x100_S512x100_1_0_0_1_n_n_wf

abbrev win0_0 : Pipeline.Window sig grid0 :=
  Pipeline.Window.ofSpec (Memref.whole main_v19) S5000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S100x200.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S200.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S200x100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S100.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x100.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S5000x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S100x200.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S200.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S200x100.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S100.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S5000x100.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v69) S5000x100.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v71) S100x200.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v73) S200.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v75) S200x100.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v77) S100.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v78) S5000x100.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v94) S5000x100.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v96) S100x200.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v98) S200.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v100) S200x100.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v102) S100.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v103) S5000x100.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v119) S5000x100.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v121) S100x200.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v123) S200.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v125) S200x100.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v127) S100.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v128) S5000x100.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v128) S5000x100.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S100x100.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg9) S100.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg10) S100x100.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg11) S100.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v129_0) S5000x100.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v129_1) S5000x100.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v132) S512x100.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg12) S100x100.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg13) S100.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v135) S512x100.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg14) S100x100.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg15) S100.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v136_0) S512x100.size cc6_transform_6 reads6_6 true true 1 stage6_6 sem6_6
    hrank6 hreads6_6 hinb6_6 nbuf6_6 (Memref.isWhole_whole _) hwx6_6 hstage6_6

abbrev win6_7 : Pipeline.Window sig grid6 :=
  Pipeline.Window.ofSpec (Memref.whole main_v136_1) S512x100.size cc6_transform_7 reads6_7 true true 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S50000x100 : Shape := ⟨2, ![50000, 100]⟩
abbrev S2x800000 : Shape := ⟨2, ![2, 800000]⟩
abbrev S50000 : Shape := ⟨1, ![50000]⟩
abbrev S5x100x200 : Shape := ⟨3, ![5, 100, 200]⟩
abbrev S5x200 : Shape := ⟨2, ![5, 200]⟩
abbrev S5x200x100 : Shape := ⟨3, ![5, 200, 100]⟩
abbrev S5x100 : Shape := ⟨2, ![5, 100]⟩
abbrev S5 : Shape := ⟨1, ![5]⟩
abbrev S100x100 : Shape := ⟨2, ![100, 100]⟩
abbrev S100 : Shape := ⟨1, ![100]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x100 : Shape := ⟨2, ![800000, 100]⟩
abbrev S1 : Shape := ⟨1, ![1]⟩
abbrev S1x100x200 : Shape := ⟨3, ![1, 100, 200]⟩
abbrev S100x200 : Shape := ⟨2, ![100, 200]⟩
abbrev S50000x200 : Shape := ⟨2, ![50000, 200]⟩
abbrev S1x200 : Shape := ⟨2, ![1, 200]⟩
abbrev S200 : Shape := ⟨1, ![200]⟩
abbrev S1x200x100 : Shape := ⟨3, ![1, 200, 100]⟩
abbrev S200x100 : Shape := ⟨2, ![200, 100]⟩
abbrev S1x100 : Shape := ⟨2, ![1, 100]⟩
abbrev S512x100 : Shape := ⟨2, ![512, 100]⟩
abbrev S50000x1 : Shape := ⟨2, ![50000, 1]⟩

abbrev nBuf : Space → Nat
  | .hbm => 251
  | .vmem => 0
  | .smem => 0
  | _ => 0

abbrev hbmTy0_0 (i : Nat) : BufTy := match i % 128 with
  | 0 => ⟨S50000x100, .f32⟩
  | 1 => ⟨S2x800000, .i32⟩
  | 2 => ⟨S50000, .i32⟩
  | 3 => ⟨S5x100x200, .f32⟩
  | 4 => ⟨S5x200, .f32⟩
  | 5 => ⟨S5x200x100, .f32⟩
  | 6 => ⟨S5x100, .f32⟩
  | 7 => ⟨S5, .f32⟩
  | 8 => ⟨S100x100, .f32⟩
  | 9 => ⟨S100, .f32⟩
  | 10 => ⟨S100x100, .f32⟩
  | 11 => ⟨S100, .f32⟩
  | 12 => ⟨S100x100, .f32⟩
  | 13 => ⟨S100, .f32⟩
  | 14 => ⟨S100x100, .f32⟩
  | 15 => ⟨S100, .f32⟩
  | 16 => ⟨S1x800000, .i32⟩
  | 17 => ⟨S800000, .i32⟩
  | 18 => ⟨S1x800000, .i32⟩
  | 19 => ⟨S800000, .i32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x100, .f32⟩
  | 29 => ⟨S_, .f32⟩
  | 30 => ⟨S50000x100, .f32⟩
  | 31 => ⟨S800000x1, .i32⟩
  | 32 => ⟨S50000x100, .f32⟩
  | 33 => ⟨S1, .f32⟩
  | 34 => ⟨S_, .f32⟩
  | 35 => ⟨S_, .f32⟩
  | 36 => ⟨S_, .f32⟩
  | 37 => ⟨S50000x100, .f32⟩
  | 38 => ⟨S50000x100, .f32⟩
  | 39 => ⟨S50000x100, .f32⟩
  | 40 => ⟨S1x100x200, .f32⟩
  | 41 => ⟨S100x200, .f32⟩
  | 42 => ⟨S50000x200, .f32⟩
  | 43 => ⟨S1x200, .f32⟩
  | 44 => ⟨S200, .f32⟩
  | 45 => ⟨S1x200, .f32⟩
  | 46 => ⟨S50000x200, .f32⟩
  | 47 => ⟨S50000x200, .f32⟩
  | 48 => ⟨S_, .f32⟩
  | 49 => ⟨S50000x200, .f32⟩
  | 50 => ⟨S50000x200, .f32⟩
  | 51 => ⟨S1x200x100, .f32⟩
  | 52 => ⟨S200x100, .f32⟩
  | 53 => ⟨S50000x100, .f32⟩
  | 54 => ⟨S1x100, .f32⟩
  | 55 => ⟨S100, .f32⟩
  | 56 => ⟨S1x100, .f32⟩
  | 57 => ⟨S50000x100, .f32⟩
  | 58 => ⟨S50000x100, .f32⟩
  | 59 => ⟨S_, .f32⟩
  | 60 => ⟨S50000x100, .f32⟩
  | 61 => ⟨S50000x100, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x100, .f32⟩
  | 71 => ⟨S_, .f32⟩
  | 72 => ⟨S50000x100, .f32⟩
  | 73 => ⟨S800000x1, .i32⟩
  | 74 => ⟨S50000x100, .f32⟩
  | 75 => ⟨S1, .f32⟩
  | 76 => ⟨S_, .f32⟩
  | 77 => ⟨S_, .f32⟩
  | 78 => ⟨S_, .f32⟩
  | 79 => ⟨S50000x100, .f32⟩
  | 80 => ⟨S50000x100, .f32⟩
  | 81 => ⟨S50000x100, .f32⟩
  | 82 => ⟨S1x100x200, .f32⟩
  | 83 => ⟨S100x200, .f32⟩
  | 84 => ⟨S50000x200, .f32⟩
  | 85 => ⟨S1x200, .f32⟩
  | 86 => ⟨S200, .f32⟩
  | 87 => ⟨S1x200, .f32⟩
  | 88 => ⟨S50000x200, .f32⟩
  | 89 => ⟨S50000x200, .f32⟩
  | 90 => ⟨S_, .f32⟩
  | 91 => ⟨S50000x200, .f32⟩
  | 92 => ⟨S50000x200, .f32⟩
  | 93 => ⟨S1x200x100, .f32⟩
  | 94 => ⟨S200x100, .f32⟩
  | 95 => ⟨S50000x100, .f32⟩
  | 96 => ⟨S1x100, .f32⟩
  | 97 => ⟨S100, .f32⟩
  | 98 => ⟨S1x100, .f32⟩
  | 99 => ⟨S50000x100, .f32⟩
  | 100 => ⟨S50000x100, .f32⟩
  | 101 => ⟨S_, .f32⟩
  | 102 => ⟨S50000x100, .f32⟩
  | 103 => ⟨S50000x100, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x100, .f32⟩
  | 113 => ⟨S_, .f32⟩
  | 114 => ⟨S50000x100, .f32⟩
  | 115 => ⟨S800000x1, .i32⟩
  | 116 => ⟨S50000x100, .f32⟩
  | 117 => ⟨S1, .f32⟩
  | 118 => ⟨S_, .f32⟩
  | 119 => ⟨S_, .f32⟩
  | 120 => ⟨S_, .f32⟩
  | 121 => ⟨S50000x100, .f32⟩
  | 122 => ⟨S50000x100, .f32⟩
  | 123 => ⟨S50000x100, .f32⟩
  | 124 => ⟨S1x100x200, .f32⟩
  | 125 => ⟨S100x200, .f32⟩
  | 126 => ⟨S50000x200, .f32⟩
  | 127 => ⟨S1x200, .f32⟩
  | _ => ⟨S50000x100, .f32⟩

abbrev hbmTy0_1 (i : Nat) : BufTy := match i % 128 with
  | 0 => ⟨S200, .f32⟩
  | 1 => ⟨S1x200, .f32⟩
  | 2 => ⟨S50000x200, .f32⟩
  | 3 => ⟨S50000x200, .f32⟩
  | 4 => ⟨S_, .f32⟩
  | 5 => ⟨S50000x200, .f32⟩
  | 6 => ⟨S50000x200, .f32⟩
  | 7 => ⟨S1x200x100, .f32⟩
  | 8 => ⟨S200x100, .f32⟩
  | 9 => ⟨S50000x100, .f32⟩
  | 10 => ⟨S1x100, .f32⟩
  | 11 => ⟨S100, .f32⟩
  | 12 => ⟨S1x100, .f32⟩
  | 13 => ⟨S50000x100, .f32⟩
  | 14 => ⟨S50000x100, .f32⟩
  | 15 => ⟨S_, .f32⟩
  | 16 => ⟨S50000x100, .f32⟩
  | 17 => ⟨S50000x100, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x100, .f32⟩
  | 27 => ⟨S_, .f32⟩
  | 28 => ⟨S50000x100, .f32⟩
  | 29 => ⟨S800000x1, .i32⟩
  | 30 => ⟨S50000x100, .f32⟩
  | 31 => ⟨S1, .f32⟩
  | 32 => ⟨S_, .f32⟩
  | 33 => ⟨S_, .f32⟩
  | 34 => ⟨S_, .f32⟩
  | 35 => ⟨S50000x100, .f32⟩
  | 36 => ⟨S50000x100, .f32⟩
  | 37 => ⟨S50000x100, .f32⟩
  | 38 => ⟨S1x100x200, .f32⟩
  | 39 => ⟨S100x200, .f32⟩
  | 40 => ⟨S50000x200, .f32⟩
  | 41 => ⟨S1x200, .f32⟩
  | 42 => ⟨S200, .f32⟩
  | 43 => ⟨S1x200, .f32⟩
  | 44 => ⟨S50000x200, .f32⟩
  | 45 => ⟨S50000x200, .f32⟩
  | 46 => ⟨S_, .f32⟩
  | 47 => ⟨S50000x200, .f32⟩
  | 48 => ⟨S50000x200, .f32⟩
  | 49 => ⟨S1x200x100, .f32⟩
  | 50 => ⟨S200x100, .f32⟩
  | 51 => ⟨S50000x100, .f32⟩
  | 52 => ⟨S1x100, .f32⟩
  | 53 => ⟨S100, .f32⟩
  | 54 => ⟨S1x100, .f32⟩
  | 55 => ⟨S50000x100, .f32⟩
  | 56 => ⟨S50000x100, .f32⟩
  | 57 => ⟨S_, .f32⟩
  | 58 => ⟨S50000x100, .f32⟩
  | 59 => ⟨S50000x100, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x100, .f32⟩
  | 69 => ⟨S_, .f32⟩
  | 70 => ⟨S50000x100, .f32⟩
  | 71 => ⟨S800000x1, .i32⟩
  | 72 => ⟨S50000x100, .f32⟩
  | 73 => ⟨S1, .f32⟩
  | 74 => ⟨S_, .f32⟩
  | 75 => ⟨S_, .f32⟩
  | 76 => ⟨S_, .f32⟩
  | 77 => ⟨S50000x100, .f32⟩
  | 78 => ⟨S50000x100, .f32⟩
  | 79 => ⟨S50000x100, .f32⟩
  | 80 => ⟨S1x100x200, .f32⟩
  | 81 => ⟨S100x200, .f32⟩
  | 82 => ⟨S50000x200, .f32⟩
  | 83 => ⟨S1x200, .f32⟩
  | 84 => ⟨S200, .f32⟩
  | 85 => ⟨S1x200, .f32⟩
  | 86 => ⟨S50000x200, .f32⟩
  | 87 => ⟨S50000x200, .f32⟩
  | 88 => ⟨S_, .f32⟩
  | 89 => ⟨S50000x200, .f32⟩
  | 90 => ⟨S50000x200, .f32⟩
  | 91 => ⟨S1x200x100, .f32⟩
  | 92 => ⟨S200x100, .f32⟩
  | 93 => ⟨S50000x100, .f32⟩
  | 94 => ⟨S1x100, .f32⟩
  | 95 => ⟨S100, .f32⟩
  | 96 => ⟨S1x100, .f32⟩
  | 97 => ⟨S50000x100, .f32⟩
  | 98 => ⟨S50000x100, .f32⟩
  | 99 => ⟨S50000x100, .f32⟩
  | 100 => ⟨S1x100, .f32⟩
  | 101 => ⟨S50000x100, .f32⟩
  | 102 => ⟨S50000x100, .f32⟩
  | 103 => ⟨S50000x100, .f32⟩
  | 104 => ⟨S1x100, .f32⟩
  | 105 => ⟨S50000x100, .f32⟩
  | 106 => ⟨S50000x100, .f32⟩
  | 107 => ⟨S_, .f32⟩
  | 108 => ⟨S512x100, .f32⟩
  | 109 => ⟨S50000x1, .i32⟩
  | 110 => ⟨S512x100, .f32⟩
  | 111 => ⟨S_, .f32⟩
  | 112 => ⟨S512x100, .f32⟩
  | 113 => ⟨S50000x1, .i32⟩
  | 114 => ⟨S512x100, .f32⟩
  | 115 => ⟨S512x100, .f32⟩
  | 116 => ⟨S1x100, .f32⟩
  | 117 => ⟨S512x100, .f32⟩
  | 118 => ⟨S512x100, .f32⟩
  | 119 => ⟨S512x100, .f32⟩
  | 120 => ⟨S1x100, .f32⟩
  | 121 => ⟨S512x100, .f32⟩
  | 122 => ⟨S512x100, .f32⟩
  | _ => ⟨S50000x100, .f32⟩

abbrev hbmTy (i : Nat) : BufTy := match i / 128 with
  | 0 => hbmTy0_0 i
  | 1 => hbmTy0_1 i
  | _ => ⟨S50000x100, .f32⟩

abbrev bufTy : (tb : Table) → Fin (tcTables nBuf tb) → BufTy
  | .hbm, ⟨i, _⟩ => hbmTy i
  | _, _ => ⟨S50000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_2 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_3 : Ref sig .tc := ⟨.hbm, 59, rfl⟩
abbrev main_v38 : Ref sig .tc := ⟨.hbm, 60, rfl⟩
abbrev main_v39 : Ref sig .tc := ⟨.hbm, 61, rfl⟩
abbrev main_c_4 : Ref sig .tc := ⟨.hbm, 62, rfl⟩
abbrev main_v40 : Ref sig .tc := ⟨.hbm, 63, rfl⟩
abbrev main_v41 : Ref sig .tc := ⟨.hbm, 64, rfl⟩
abbrev main_c_5 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_6 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_7 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_8 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_9 : Ref sig .tc := ⟨.hbm, 101, rfl⟩
abbrev main_v74 : Ref sig .tc := ⟨.hbm, 102, rfl⟩
abbrev main_v75 : Ref sig .tc := ⟨.hbm, 103, rfl⟩
abbrev main_c_10 : Ref sig .tc := ⟨.hbm, 104, rfl⟩
abbrev main_v76 : Ref sig .tc := ⟨.hbm, 105, rfl⟩
abbrev main_v77 : Ref sig .tc := ⟨.hbm, 106, rfl⟩
abbrev main_c_11 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_12 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_13 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_14 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_cst_15 : Ref sig .tc := ⟨.hbm, 143, rfl⟩
abbrev main_v110 : Ref sig .tc := ⟨.hbm, 144, rfl⟩
abbrev main_v111 : Ref sig .tc := ⟨.hbm, 145, rfl⟩
abbrev main_c_16 : Ref sig .tc := ⟨.hbm, 146, rfl⟩
abbrev main_v112 : Ref sig .tc := ⟨.hbm, 147, rfl⟩
abbrev main_v113 : Ref sig .tc := ⟨.hbm, 148, rfl⟩
abbrev main_c_17 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_cst_18 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_cst_19 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_cst_20 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_cst_21 : Ref sig .tc := ⟨.hbm, 185, rfl⟩
abbrev main_v146 : Ref sig .tc := ⟨.hbm, 186, rfl⟩
abbrev main_v147 : Ref sig .tc := ⟨.hbm, 187, rfl⟩
abbrev main_c_22 : Ref sig .tc := ⟨.hbm, 188, rfl⟩
abbrev main_v148 : Ref sig .tc := ⟨.hbm, 189, rfl⟩
abbrev main_v149 : Ref sig .tc := ⟨.hbm, 190, rfl⟩
abbrev main_c_23 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_cst_24 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_cst_25 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_cst_26 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_cst_27 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_cst_28 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x100 : S_.BroadcastsInDim S50000x100 (![] : Fin 0 → Fin S50000x100.rank)
  slices_S5_S1_0 : S5.Slices ![0] S1
  shapeCasts_S1_S_ : S1.ShapeCasts S_
  slices_S5x100x200_S1x100x200_0_0_0 : S5x100x200.Slices ![0, 0, 0] S1x100x200
  shapeCasts_S1x100x200_S100x200 : S1x100x200.ShapeCasts S100x200
  slices_S5x200_S1x200_0_0 : S5x200.Slices ![0, 0] S1x200
  shapeCasts_S1x200_S200 : S1x200.ShapeCasts S200
  bcast_S200_S1x200_1 : S200.BroadcastsInDim S1x200 (![1] : Fin 1 → Fin S1x200.rank)
  bcast_S1x200_S50000x200_0_1 : S1x200.BroadcastsInDim S50000x200 (![0, 1] : Fin 2 → Fin S50000x200.rank)
  bcast_S_S50000x200 : S_.BroadcastsInDim S50000x200 (![] : Fin 0 → Fin S50000x200.rank)
  slices_S5x200x100_S1x200x100_0_0_0 : S5x200x100.Slices ![0, 0, 0] S1x200x100
  shapeCasts_S1x200x100_S200x100 : S1x200x100.ShapeCasts S200x100
  slices_S5x100_S1x100_0_0 : S5x100.Slices ![0, 0] S1x100
  shapeCasts_S1x100_S100 : S1x100.ShapeCasts S100
  bcast_S100_S1x100_1 : S100.BroadcastsInDim S1x100 (![1] : Fin 1 → Fin S1x100.rank)
  bcast_S1x100_S50000x100_0_1 : S1x100.BroadcastsInDim S50000x100 (![0, 1] : Fin 2 → Fin S50000x100.rank)
  slices_S5_S1_1 : S5.Slices ![1] S1
  slices_S5x100x200_S1x100x200_1_0_0 : S5x100x200.Slices ![1, 0, 0] S1x100x200
  slices_S5x200_S1x200_1_0 : S5x200.Slices ![1, 0] S1x200
  slices_S5x200x100_S1x200x100_1_0_0 : S5x200x100.Slices ![1, 0, 0] S1x200x100
  slices_S5x100_S1x100_1_0 : S5x100.Slices ![1, 0] S1x100
  slices_S5_S1_2 : S5.Slices ![2] S1
  slices_S5x100x200_S1x100x200_2_0_0 : S5x100x200.Slices ![2, 0, 0] S1x100x200
  slices_S5x200_S1x200_2_0 : S5x200.Slices ![2, 0] S1x200
  slices_S5x200x100_S1x200x100_2_0_0 : S5x200x100.Slices ![2, 0, 0] S1x200x100
  slices_S5x100_S1x100_2_0 : S5x100.Slices ![2, 0] S1x100
  slices_S5_S1_3 : S5.Slices ![3] S1
  slices_S5x100x200_S1x100x200_3_0_0 : S5x100x200.Slices ![3, 0, 0] S1x100x200
  slices_S5x200_S1x200_3_0 : S5x200.Slices ![3, 0] S1x200
  slices_S5x200x100_S1x200x100_3_0_0 : S5x200x100.Slices ![3, 0, 0] S1x200x100
  slices_S5x100_S1x100_3_0 : S5x100.Slices ![3, 0] S1x100
  slices_S5_S1_4 : S5.Slices ![4] S1
  slices_S5x100x200_S1x100x200_4_0_0 : S5x100x200.Slices ![4, 0, 0] S1x100x200
  slices_S5x200_S1x200_4_0 : S5x200.Slices ![4, 0] S1x200
  slices_S5x200x100_S1x200x100_4_0_0 : S5x200x100.Slices ![4, 0, 0] S1x200x100
  slices_S5x100_S1x100_4_0 : S5x100.Slices ![4, 0] S1x100
  bcast_S_S512x100 : S_.BroadcastsInDim S512x100 (![] : Fin 0 → Fin S512x100.rank)
  bcast_S50000_S50000x1_0 : S50000.BroadcastsInDim S50000x1 (![0] : Fin 1 → Fin S50000x1.rank)
  bcast_S1x100_S512x100_0_1 : S1x100.BroadcastsInDim S512x100 (![0, 1] : Fin 2 → Fin S512x100.rank)
  gather_S50000x100_S800000x1_S800000x100_1_0_n_n_0_1_1100_wf : GatherDims.WF S50000x100 S800000x1 S800000x100 [1] [0] [] [0] [] 1 ![1, 100]
  scatter_S50000x100_S800000x1_S800000x100_1_0_0_1_wf : ScatterDims.WF S50000x100 S800000x1 S800000x100 [1] [0] [0] 1
  dot_S50000x100_S100x200_S50000x200_1_0_0_1_n_n_wf : DotDims.WF S50000x100 S100x200 S50000x200 [1] [0] [0] [1] [] []
  dot_S50000x200_S200x100_S50000x100_1_0_0_1_n_n_wf : DotDims.WF S50000x200 S200x100 S50000x100 [1] [0] [0] [1] [] []
  dot_S50000x100_S100x100_S50000x100_1_0_0_1_n_n_wf : DotDims.WF S50000x100 S100x100 S50000x100 [1] [0] [0] [1] [] []
  scatter_S512x100_S50000x1_S50000x100_1_0_0_1_wf : ScatterDims.WF S512x100 S50000x1 S50000x100 [1] [0] [0] 1
  dot_S512x100_S100x100_S512x100_1_0_0_1_n_n_wf : DotDims.WF S512x100 S100x100 S512x100 [1] [0] [0] [1] [] []

variable [Facts₀]

def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf
def dot_S50000x100_S100x200_S50000x200_1_0_0_1_n_n : DotDims S50000x100 S100x200 S50000x200 where
  lhsContracting := [1]
  rhsContracting := [0]
  lhsNonContracting := [0]
  rhsNonContracting := [1]
  lhsBatch := []
  rhsBatch := []
  wf := dot_S50000x100_S100x200_S50000x200_1_0_0_1_n_n_wf
def dot_S50000x200_S200x100_S50000x100_1_0_0_1_n_n : DotDims S50000x200 S200x100 S50000x100 where
  lhsContracting := [1]
  rhsContracting := [0]
  lhsNonContracting := [0]
  rhsNonContracting := [1]
  lhsBatch := []
  rhsBatch := []
  wf := dot_S50000x200_S200x100_S50000x100_1_0_0_1_n_n_wf
def dot_S50000x100_S100x100_S50000x100_1_0_0_1_n_n : DotDims S50000x100 S100x100 S50000x100 where
  lhsContracting := [1]
  rhsContracting := [0]
  lhsNonContracting := [0]
  rhsNonContracting := [1]
  lhsBatch := []
  rhsBatch := []
  wf := dot_S50000x100_S100x100_S50000x100_1_0_0_1_n_n_wf
def scatter_S512x100_S50000x1_S50000x100_1_0_0_1 : ScatterDims S512x100 S50000x1 S50000x100 where
  updateWindowDims := [1]
  insertedWindowDims := [0]
  scatterDimsToOperandDims := [0]
  indexVectorDim := 1
  wf := scatter_S512x100_S50000x1_S50000x100_1_0_0_1_wf
def dot_S512x100_S100x100_S512x100_1_0_0_1_n_n : DotDims S512x100 S100x100 S512x100 where
  lhsContracting := [1]
  rhsContracting := [0]
  lhsNonContracting := [0]
  rhsNonContracting := [1]
  lhsBatch := []
  rhsBatch := []
  wf := dot_S512x100_S100x100_S512x100_1_0_0_1_n_n_wf

class Facts : Prop extends Facts₀ where

variable [Facts]
-- ==== Proof.Model.lean ====
/-
  The two programs share one mathematical model: a five-layer graph network on 50000 nodes with 100 features.
  Each layer adds to (1 + eps) * h the sum, over the edges arriving at a node, of the source nodes' rows, and passes
  every row through relu(row * W1 + b1) * W2 + b2 (followed by a relu except in the last layer); two linear heads, a
  sum of the node rows of each graph, and a last linear map per head give the two results. The functions below name
  those stages once, in the host operations of the reference program, so that both programs' results can be stated as
  the same term.
-/
import proofs.«148857_j62225486184607_1_alg».proof.Proof.Gen.ReferenceIdeal

noncomputable section

namespace Cert.Model

open Idealize.ShloMosaic Cert.ReferenceIdeal Cert.ReferenceIdeal.Facts₀ Cert.ReferenceIdeal.Facts

variable {F : FTy → Type} [FloatOps F]

/-- The edges' source nodes: row 0 of the edge list. -/
def v1Of (a1 : (⟨S2x800000, .i32⟩ : BufTy).Contents (Elt F)) : (⟨S800000, .i32⟩ : BufTy).Contents (Elt F) :=
  shapeCast S800000 (extractStridedSlice S1x800000 ![0, 0] a1 slices_S2x800000_S1x800000_0_0) shapeCasts_S1x800000_S800000

/-- The edges' target nodes: row 1 of the edge list. -/
def v3Of (a1 : (⟨S2x800000, .i32⟩ : BufTy).Contents (Elt F)) : (⟨S800000, .i32⟩ : BufTy).Contents (Elt F) :=
  shapeCast S800000 (extractStridedSlice S1x800000 ![1, 0] a1 slices_S2x800000_S1x800000_1_0) shapeCasts_S1x800000_S800000

/-- The gather's index column: a negative source index counts from the end. -/
def srcIdx (v1 : (⟨S800000, .i32⟩ : BufTy).Contents (Elt F)) : (⟨S800000x1, .i32⟩ : BufTy).Contents (Elt F) :=
  broadcastInDim S800000x1 ![0] bcast_S800000_S800000x1_0 (select (cmpi .slt v1 (broadcastInDim S800000 ![] bcast_S_S800000 (constantI S_ 32 0#32))) (addi v1 (broadcastInDim S800000 ![] bcast_S_S800000 (constantI S_ 32 50000#32))) v1)

/-- The scatter's index column. -/
def dstIdx (v3 : (⟨S800000, .i32⟩ : BufTy).Contents (Elt F)) : (⟨S800000x1, .i32⟩ : BufTy).Contents (Elt F) :=
  broadcastInDim S800000x1 ![0] bcast_S800000_S800000x1_0 v3

/-- A layer's input: (1 + eps) * h plus, at each node, the sum of h's rows at the sources of its incoming edges. -/
def pre (e : (⟨S_, .f32⟩ : BufTy).Contents (Elt F)) (h : (⟨S50000x100, .f32⟩ : BufTy).Contents (Elt F)) (v1 v3 : (⟨S800000, .i32⟩ : BufTy).Contents (Elt F)) : (⟨S50000x100, .f32⟩ : BufTy).Contents (Elt F) :=
  addf (mulf (broadcastInDim S50000x100 ![] bcast_S_S50000x100 (addf (constant S_ .f32 0x3F800000#32) e)) h) (Host.scatterAdd scatter_S50000x100_S800000x1_S800000x100_1_0_0_1 (broadcastInDim S50000x100 ![] bcast_S_S50000x100 (constant S_ .f32 0x00000000#32)) (dstIdx v3) (Host.gather gather_S50000x100_S800000x1_S800000x100_1_0_n_n_0_1_1100 h (srcIdx v1)))

/-- The hidden activations relu(z * W1 + b1). -/
def hidden (z : (⟨S50000x100, .f32⟩ : BufTy).Contents (Elt F)) (w1 : (⟨S100x200, .f32⟩ : BufTy).Contents (Elt F)) (b1 : (⟨S200, .f32⟩ : BufTy).Contents (Elt F)) : (⟨S50000x200, .f32⟩ : BufTy).Contents (Elt F) :=
  maximumf (addf (Host.dotGeneral dot_S50000x100_S100x200_S50000x200_1_0_0_1_n_n none z w1) (broadcastInDim S50000x200 ![0, 1] bcast_S1x200_S50000x200_0_1 (broadcastInDim S1x200 ![1] bcast_S200_S1x200_1 b1))) (broadcastInDim S50000x200 ![] bcast_S_S50000x200 (constant S_ .f32 0x00000000#32))

/-- A layer's rows: relu(z * W1 + b1) * W2 + b2. -/
def mlp (z : (⟨S50000x100, .f32⟩ : BufTy).Contents (Elt F)) (w1 : (⟨S100x200, .f32⟩ : BufTy).Contents (Elt F)) (b1 : (⟨S200, .f32⟩ : BufTy).Contents (Elt F)) (w2 : (⟨S200x100, .f32⟩ : BufTy).Contents (Elt F)) (b2 : (⟨S100, .f32⟩ : BufTy).Contents (Elt F)) : (⟨S50000x100, .f32⟩ : BufTy).Contents (Elt F) :=
  addf (Host.dotGeneral dot_S50000x200_S200x100_S50000x100_1_0_0_1_n_n none (hidden z w1 b1) w2) (broadcastInDim S50000x100 ![0, 1] bcast_S1x100_S50000x100_0_1 (broadcastInDim S1x100 ![1] bcast_S100_S1x100_1 b2))

/-- The relu between layers. -/
def relu (x : (⟨S50000x100, .f32⟩ : BufTy).Contents (Elt F)) : (⟨S50000x100, .f32⟩ : BufTy).Contents (Elt F) :=
  maximumf x (broadcastInDim S50000x100 ![] bcast_S_S50000x100 (constant S_ .f32 0x00000000#32))

/-- A node head: h * W + b. -/
def head (h : (⟨S50000x100, .f32⟩ : BufTy).Contents (Elt F)) (w : (⟨S100x100, .f32⟩ : BufTy).Contents (Elt F)) (b : (⟨S100, .f32⟩ : BufTy).Contents (Elt F)) : (⟨S50000x100, .f32⟩ : BufTy).Contents (Elt F) :=
  addf (Host.dotGeneral dot_S50000x100_S100x100_S50000x100_1_0_0_1_n_n none h w) (broadcastInDim S50000x100 ![0, 1] bcast_S1x100_S50000x100_0_1 (broadcastInDim S1x100 ![1] bcast_S100_S1x100_1 b))

/-- The sum of the node rows of each graph. -/
def pool (a2 : (⟨S50000, .i32⟩ : BufTy).Contents (Elt F)) (x : (⟨S50000x100, .f32⟩ : BufTy).Contents (Elt F)) : (⟨S512x100, .f32⟩ : BufTy).Contents (Elt F) :=
  Host.scatterAdd scatter_S512x100_S50000x1_S50000x100_1_0_0_1 (broadcastInDim S512x100 ![] bcast_S_S512x100 (constant S_ .f32 0x00000000#32)) (broadcastInDim S50000x1 ![0] bcast_S50000_S50000x1_0 a2) x

/-- A graph head: g * W + b. -/
def glin (g : (⟨S512x100, .f32⟩ : BufTy).Contents (Elt F)) (w : (⟨S100x100, .f32⟩ : BufTy).Contents (Elt F)) (b : (⟨S100, .f32⟩ : BufTy).Contents (Elt F)) : (⟨S512x100, .f32⟩ : BufTy).Contents (Elt F) :=
  addf (Host.dotGeneral dot_S512x100_S100x100_S512x100_1_0_0_1_n_n none g w) (broadcastInDim S512x100 ![0, 1] bcast_S1x100_S512x100_0_1 (broadcastInDim S1x100 ![1] bcast_S100_S1x100_1 b))

/-! ## Layer l's parameters: slice l of each stacked array -/

def eps0 (a7 : (⟨S5, .f32⟩ : BufTy).Contents (Elt F)) : (⟨S_, .f32⟩ : BufTy).Contents (Elt F) :=
  shapeCast S_ (extractStridedSlice S1 ![0] a7 slices_S5_S1_0) shapeCasts_S1_S_
def w1_0 (a3 : (⟨S5x100x200, .f32⟩ : BufTy).Contents (Elt F)) : (⟨S100x200, .f32⟩ : BufTy).Contents (Elt F) :=
  shapeCast S100x200 (extractStridedSlice S1x100x200 ![0, 0, 0] a3 slices_S5x100x200_S1x100x200_0_0_0) shapeCasts_S1x100x200_S100x200
def b1_0 (a4 : (⟨S5x200, .f32⟩ : BufTy).Contents (Elt F)) : (⟨S200, .f32⟩ : BufTy).Contents (Elt F) :=
  shapeCast S200 (extractStridedSlice S1x200 ![0, 0] a4 slices_S5x200_S1x200_0_0) shapeCasts_S1x200_S200
def w2_0 (a5 : (⟨S5x200x100, .f32⟩ : BufTy).Contents (Elt F)) : (⟨S200x100, .f32⟩ : BufTy).Contents (Elt F) :=
  shapeCast S200x100 (extractStridedSlice S1x200x100 ![0, 0, 0] a5 slices_S5x200x100_S1x200x100_0_0_0) shapeCasts_S1x200x100_S200x100
def b2_0 (a6 : (⟨S5x100, .f32⟩ : BufTy).Contents (Elt F)) : (⟨S100, .f32⟩ : BufTy).Contents (Elt F) :=
  shapeCast S100 (extractStridedSlice S1x100 ![0, 0] a6 slices_S5x100_S1x100_0_0) shapeCasts_S1x100_S100

def eps1 (a7 : (⟨S5, .f32⟩ : BufTy).Contents (Elt F)) : (⟨S_, .f32⟩ : BufTy).Contents (Elt F) :=
  shapeCast S_ (extractStridedSlice S1 ![1] a7 slices_S5_S1_1) shapeCasts_S1_S_
def w1_1 (a3 : (⟨S5x100x200, .f32⟩ : BufTy).Contents (Elt F)) : (⟨S100x200, .f32⟩ : BufTy).Contents (Elt F) :=
  shapeCast S100x200 (extractStridedSlice S1x100x200 ![1, 0, 0] a3 slices_S5x100x200_S1x100x200_1_0_0) shapeCasts_S1x100x200_S100x200
def b1_1 (a4 : (⟨S5x200, .f32⟩ : BufTy).Contents (Elt F)) : (⟨S200, .f32⟩ : BufTy).Contents (Elt F) :=
  shapeCast S200 (extractStridedSlice S1x200 ![1, 0] a4 slices_S5x200_S1x200_1_0) shapeCasts_S1x200_S200
def w2_1 (a5 : (⟨S5x200x100, .f32⟩ : BufTy).Contents (Elt F)) : (⟨S200x100, .f32⟩ : BufTy).Contents (Elt F) :=
  shapeCast S200x100 (extractStridedSlice S1x200x100 ![1, 0, 0] a5 slices_S5x200x100_S1x200x100_1_0_0) shapeCasts_S1x200x100_S200x100
def b2_1 (a6 : (⟨S5x100, .f32⟩ : BufTy).Contents (Elt F)) : (⟨S100, .f32⟩ : BufTy).Contents (Elt F) :=
  shapeCast S100 (extractStridedSlice S1x100 ![1, 0] a6 slices_S5x100_S1x100_1_0) shapeCasts_S1x100_S100

def eps2 (a7 : (⟨S5, .f32⟩ : BufTy).Contents (Elt F)) : (⟨S_, .f32⟩ : BufTy).Contents (Elt F) :=
  shapeCast S_ (extractStridedSlice S1 ![2] a7 slices_S5_S1_2) shapeCasts_S1_S_
def w1_2 (a3 : (⟨S5x100x200, .f32⟩ : BufTy).Contents (Elt F)) : (⟨S100x200, .f32⟩ : BufTy).Contents (Elt F) :=
  shapeCast S100x200 (extractStridedSlice S1x100x200 ![2, 0, 0] a3 slices_S5x100x200_S1x100x200_2_0_0) shapeCasts_S1x100x200_S100x200
def b1_2 (a4 : (⟨S5x200, .f32⟩ : BufTy).Contents (Elt F)) : (⟨S200, .f32⟩ : BufTy).Contents (Elt F) :=
  shapeCast S200 (extractStridedSlice S1x200 ![2, 0] a4 slices_S5x200_S1x200_2_0) shapeCasts_S1x200_S200
def w2_2 (a5 : (⟨S5x200x100, .f32⟩ : BufTy).Contents (Elt F)) : (⟨S200x100, .f32⟩ : BufTy).Contents (Elt F) :=
  shapeCast S200x100 (extractStridedSlice S1x200x100 ![2, 0, 0] a5 slices_S5x200x100_S1x200x100_2_0_0) shapeCasts_S1x200x100_S200x100
def b2_2 (a6 : (⟨S5x100, .f32⟩ : BufTy).Contents (Elt F)) : (⟨S100, .f32⟩ : BufTy).Contents (Elt F) :=
  shapeCast S100 (extractStridedSlice S1x100 ![2, 0] a6 slices_S5x100_S1x100_2_0) shapeCasts_S1x100_S100

def eps3 (a7 : (⟨S5, .f32⟩ : BufTy).Contents (Elt F)) : (⟨S_, .f32⟩ : BufTy).Contents (Elt F) :=
  shapeCast S_ (extractStridedSlice S1 ![3] a7 slices_S5_S1_3) shapeCasts_S1_S_
def w1_3 (a3 : (⟨S5x100x200, .f32⟩ : BufTy).Contents (Elt F)) : (⟨S100x200, .f32⟩ : BufTy).Contents (Elt F) :=
  shapeCast S100x200 (extractStridedSlice S1x100x200 ![3, 0, 0] a3 slices_S5x100x200_S1x100x200_3_0_0) shapeCasts_S1x100x200_S100x200
def b1_3 (a4 : (⟨S5x200, .f32⟩ : BufTy).Contents (Elt F)) : (⟨S200, .f32⟩ : BufTy).Contents (Elt F) :=
  shapeCast S200 (extractStridedSlice S1x200 ![3, 0] a4 slices_S5x200_S1x200_3_0) shapeCasts_S1x200_S200
def w2_3 (a5 : (⟨S5x200x100, .f32⟩ : BufTy).Contents (Elt F)) : (⟨S200x100, .f32⟩ : BufTy).Contents (Elt F) :=
  shapeCast S200x100 (extractStridedSlice S1x200x100 ![3, 0, 0] a5 slices_S5x200x100_S1x200x100_3_0_0) shapeCasts_S1x200x100_S200x100
def b2_3 (a6 : (⟨S5x100, .f32⟩ : BufTy).Contents (Elt F)) : (⟨S100, .f32⟩ : BufTy).Contents (Elt F) :=
  shapeCast S100 (extractStridedSlice S1x100 ![3, 0] a6 slices_S5x100_S1x100_3_0) shapeCasts_S1x100_S100

def eps4 (a7 : (⟨S5, .f32⟩ : BufTy).Contents (Elt F)) : (⟨S_, .f32⟩ : BufTy).Contents (Elt F) :=
  shapeCast S_ (extractStridedSlice S1 ![4] a7 slices_S5_S1_4) shapeCasts_S1_S_
def w1_4 (a3 : (⟨S5x100x200, .f32⟩ : BufTy).Contents (Elt F)) : (⟨S100x200, .f32⟩ : BufTy).Contents (Elt F) :=
  shapeCast S100x200 (extractStridedSlice S1x100x200 ![4, 0, 0] a3 slices_S5x100x200_S1x100x200_4_0_0) shapeCasts_S1x100x200_S100x200
def b1_4 (a4 : (⟨S5x200, .f32⟩ : BufTy).Contents (Elt F)) : (⟨S200, .f32⟩ : BufTy).Contents (Elt F) :=
  shapeCast S200 (extractStridedSlice S1x200 ![4, 0] a4 slices_S5x200_S1x200_4_0) shapeCasts_S1x200_S200
def w2_4 (a5 : (⟨S5x200x100, .f32⟩ : BufTy).Contents (Elt F)) : (⟨S200x100, .f32⟩ : BufTy).Contents (Elt F) :=
  shapeCast S200x100 (extractStridedSlice S1x200x100 ![4, 0, 0] a5 slices_S5x200x100_S1x200x100_4_0_0) shapeCasts_S1x200x100_S200x100
def b2_4 (a6 : (⟨S5x100, .f32⟩ : BufTy).Contents (Elt F)) : (⟨S100, .f32⟩ : BufTy).Contents (Elt F) :=
  shapeCast S100 (extractStridedSlice S1x100 ![4, 0] a6 slices_S5x100_S1x100_4_0) shapeCasts_S1x100_S100

/-! ## The layers chained -/

/-- The node rows after layer 0. -/
def h1 (a0 : (⟨S50000x100, .f32⟩ : BufTy).Contents (Elt F)) (a1 : (⟨S2x800000, .i32⟩ : BufTy).Contents (Elt F)) (a3 : (⟨S5x100x200, .f32⟩ : BufTy).Contents (Elt F)) (a4 : (⟨S5x200, .f32⟩ : BufTy).Contents (Elt F)) (a5 : (⟨S5x200x100, .f32⟩ : BufTy).Contents (Elt F)) (a6 : (⟨S5x100, .f32⟩ : BufTy).Contents (Elt F)) (a7 : (⟨S5, .f32⟩ : BufTy).Contents (Elt F)) : (⟨S50000x100, .f32⟩ : BufTy).Contents (Elt F) :=
  relu (mlp (pre (eps0 a7) a0 (v1Of a1) (v3Of a1)) (w1_0 a3) (b1_0 a4) (w2_0 a5) (b2_0 a6))

/-- The node rows after layer 1. -/
def h2 (a0 : (⟨S50000x100, .f32⟩ : BufTy).Contents (Elt F)) (a1 : (⟨S2x800000, .i32⟩ : BufTy).Contents (Elt F)) (a3 : (⟨S5x100x200, .f32⟩ : BufTy).Contents (Elt F)) (a4 : (⟨S5x200, .f32⟩ : BufTy).Contents (Elt F)) (a5 : (⟨S5x200x100, .f32⟩ : BufTy).Contents (Elt F)) (a6 : (⟨S5x100, .f32⟩ : BufTy).Contents (Elt F)) (a7 : (⟨S5, .f32⟩ : BufTy).Contents (Elt F)) : (⟨S50000x100, .f32⟩ : BufTy).Contents (Elt F) :=
  relu (mlp (pre (eps1 a7) (h1 a0 a1 a3 a4 a5 a6 a7) (v1Of a1) (v3Of a1)) (w1_1 a3) (b1_1 a4) (w2_1 a5) (b2_1 a6))

/-- The node rows after layer 2. -/
def h3 (a0 : (⟨S50000x100, .f32⟩ : BufTy).Contents (Elt F)) (a1 : (⟨S2x800000, .i32⟩ : BufTy).Contents (Elt F)) (a3 : (⟨S5x100x200, .f32⟩ : BufTy).Contents (Elt F)) (a4 : (⟨S5x200, .f32⟩ : BufTy).Contents (Elt F)) (a5 : (⟨S5x200x100, .f32⟩ : BufTy).Contents (Elt F)) (a6 : (⟨S5x100, .f32⟩ : BufTy).Contents (Elt F)) (a7 : (⟨S5, .f32⟩ : BufTy).Contents (Elt F)) : (⟨S50000x100, .f32⟩ : BufTy).Contents (Elt F) :=
  relu (mlp (pre (eps2 a7) (h2 a0 a1 a3 a4 a5 a6 a7) (v1Of a1) (v3Of a1)) (w1_2 a3) (b1_2 a4) (w2_2 a5) (b2_2 a6))

/-- The node rows after layer 3. -/
def h4 (a0 : (⟨S50000x100, .f32⟩ : BufTy).Contents (Elt F)) (a1 : (⟨S2x800000, .i32⟩ : BufTy).Contents (Elt F)) (a3 : (⟨S5x100x200, .f32⟩ : BufTy).Contents (Elt F)) (a4 : (⟨S5x200, .f32⟩ : BufTy).Contents (Elt F)) (a5 : (⟨S5x200x100, .f32⟩ : BufTy).Contents (Elt F)) (a6 : (⟨S5x100, .f32⟩ : BufTy).Contents (Elt F)) (a7 : (⟨S5, .f32⟩ : BufTy).Contents (Elt F)) : (⟨S50000x100, .f32⟩ : BufTy).Contents (Elt F) :=
  relu (mlp (pre (eps3 a7) (h3 a0 a1 a3 a4 a5 a6 a7) (v1Of a1) (v3Of a1)) (w1_3 a3) (b1_3 a4) (w2_3 a5) (b2_3 a6))

/-- The node rows after the last layer (no relu). -/
def h5 (a0 : (⟨S50000x100, .f32⟩ : BufTy).Contents (Elt F)) (a1 : (⟨S2x800000, .i32⟩ : BufTy).Contents (Elt F)) (a3 : (⟨S5x100x200, .f32⟩ : BufTy).Contents (Elt F)) (a4 : (⟨S5x200, .f32⟩ : BufTy).Contents (Elt F)) (a5 : (⟨S5x200x100, .f32⟩ : BufTy).Contents (Elt F)) (a6 : (⟨S5x100, .f32⟩ : BufTy).Contents (Elt F)) (a7 : (⟨S5, .f32⟩ : BufTy).Contents (Elt F)) : (⟨S50000x100, .f32⟩ : BufTy).Contents (Elt F) :=
  mlp (pre (eps4 a7) (h4 a0 a1 a3 a4 a5 a6 a7) (v1Of a1) (v3Of a1)) (w1_4 a3) (b1_4 a4) (w2_4 a5) (b2_4 a6)

/-- A result: the node head of the last rows, summed per graph, through the graph head. -/
def result (h : (⟨S50000x100, .f32⟩ : BufTy).Contents (Elt F)) (a2 : (⟨S50000, .i32⟩ : BufTy).Contents (Elt F)) (wh : (⟨S100x100, .f32⟩ : BufTy).Contents (Elt F)) (bh : (⟨S100, .f32⟩ : BufTy).Contents (Elt F)) (wp : (⟨S100x100, .f32⟩ : BufTy).Contents (Elt F)) (bp : (⟨S100, .f32⟩ : BufTy).Contents (Elt F)) : (⟨S512x100, .f32⟩ : BufTy).Contents (Elt F) :=
  glin (pool a2 (head h wh bh)) wp bp

end Cert.Model

end
-- ==== Proof.Host.lean ====
/-
  The host operations between the kernels, read as the model's stages.

  Between two kernels the host gathers the previous layer's rows along the edges, sums them at the edges' targets, adds
  (1 + eps) times the previous rows, and slices the next layer's weights and biases out of the stacked arrays. Each
  buffer a kernel consumes is therefore a stage of the model applied to the buffers the stretch starts from, whatever
  those hold; and a stretch changes only the buffers it writes.
-/
import proofs.«148857_j62225486184607_1_alg».proof.Proof.Gen.KernelIdeal.Launch
import proofs.«148857_j62225486184607_1_alg».proof.Proof.Model
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen

variable {F : FTy → Type} [FloatOps F]

/-- The buffers stretch 0 writes. -/
abbrev written0 : List (Ref sig .tc) := [main_v0, main_v1, main_v2, main_v3, main_c, main_v4, main_v5, main_c_0, main_v6, main_v7, main_v8, main_v9, main_v10, main_cst, main_v11, main_v12, main_v13, main_v14, main_v15, main_cst_1, main_v16, main_v17, main_v18, main_v19, main_v20, main_v21, main_v22, main_v23, main_v24, main_v25, main_v26, main_v27]

theorem writes0 : (hostOps0 : List (HloOp τ sig (Elt F))).Forall fun op => op.writes ⊆ (written0.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- A buffer stretch 0 does not write keeps its contents through it. -/
theorem keep0 (W : Valuation τ sig (Elt F)) (r : Ref sig .tc) (h : r ∉ written0) :
    after hostOps0 W (Proc.devRef .tc r) = W (Proc.devRef .tc r) :=
  after_of_writes_sub hostOps0 _ writes0 h

/-- The buffers stretch 1 writes. -/
abbrev written1 : List (Ref sig .tc) := [main_c_2, main_v29, main_v30, main_c_3, main_v31, main_v32, main_v33, main_v34, main_v35, main_cst_4, main_v36, main_v37, main_v38, main_v39, main_v40, main_cst_5, main_v41, main_v42, main_v43, main_v44, main_v45, main_v46, main_v47, main_v48, main_v49, main_v50, main_v51, main_v52]

theorem writes1 : (hostOps1 : List (HloOp τ sig (Elt F))).Forall fun op => op.writes ⊆ (written1.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- A buffer stretch 1 does not write keeps its contents through it. -/
theorem keep1 (W : Valuation τ sig (Elt F)) (r : Ref sig .tc) (h : r ∉ written1) :
    after hostOps1 W (Proc.devRef .tc r) = W (Proc.devRef .tc r) :=
  after_of_writes_sub hostOps1 _ writes1 h

/-- The buffers stretch 2 writes. -/
abbrev written2 : List (Ref sig .tc) := [main_c_6, main_v54, main_v55, main_c_7, main_v56, main_v57, main_v58, main_v59, main_v60, main_cst_8, main_v61, main_v62, main_v63, main_v64, main_v65, main_cst_9, main_v66, main_v67, main_v68, main_v69, main_v70, main_v71, main_v72, main_v73, main_v74, main_v75, main_v76, main_v77]

theorem writes2 : (hostOps2 : List (HloOp τ sig (Elt F))).Forall fun op => op.writes ⊆ (written2.map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- A buffer stretch 2 does not write keeps its contents through it. -/
theorem keep2 (W : Valuation τ sig (Elt F)) (r : Ref sig .tc) (h : r ∉ written2) :
    after hostOps2 W (Proc.devRef .tc r) = W (Proc.devRef .tc r) :=
  after_of_writes_sub hostOps2 _ writes2 h

/-- The buffers stretch 3 writes. -/
abbrev written3 : List (Ref sig .tc) := [main_c_10, main_v79, main_v80, main_c_11, main_v81, main_v82, main_v83, main_v84, main_v85, main_cst_12, main_v86, main_v87, main_v88, main_v89, main_v90, main_cst_13, main_v91, main_v92, main_v93, main_v94, main_v95, main_v96, main_v97, main_v98, main_v99, main_v100, main_v101, main_v102]

theorem writes3 : (hostOps3 : List (HloOp τ sig (Elt F))).Forall fun op => op.writes ⊆ (written3.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- A buffer stretch 3 does not write keeps its contents through it. -/
theorem keep3 (W : Valuation τ sig (Elt F)) (r : Ref sig .tc) (h : r ∉ written3) :
    after hostOps3 W (Proc.devRef .tc r) = W (Proc.devRef .tc r) :=
  after_of_writes_sub hostOps3 _ writes3 h

/-- The buffers stretch 4 writes. -/
abbrev written4 : List (Ref sig .tc) := [main_c_14, main_v104, main_v105, main_c_15, main_v106, main_v107, main_v108, main_v109, main_v110, main_cst_16, main_v111, main_v112, main_v113, main_v114, main_v115, main_cst_17, main_v116, main_v117, main_v118, main_v119, main_v120, main_v121, main_v122, main_v123, main_v124, main_v125, main_v126, main_v127]

theorem writes4 : (hostOps4 : List (HloOp τ sig (Elt F))).Forall fun op => op.writes ⊆ (written4.map (Proc.devRef (τ := τ) .tc)).toFinset := by
  simp only [hostOps4, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- A buffer stretch 4 does not write keeps its contents through it. -/
theorem keep4 (W : Valuation τ sig (Elt F)) (r : Ref sig .tc) (h : r ∉ written4) :
    after hostOps4 W (Proc.devRef .tc r) = W (Proc.devRef .tc r) :=
  after_of_writes_sub hostOps4 _ writes4 h

/-- The buffers stretch 6 writes. -/
abbrev written6 : List (Ref sig .tc) := [main_cst_18, main_v130, main_v131, main_v132, main_cst_19, main_v133, main_v134, main_v135]

theorem writes6 : (hostOps6 : List (HloOp τ sig (Elt F))).Forall fun op => op.writes ⊆ (written6.map (Proc.devRef (τ := τ) .tc)).toFinset := by
  simp only [hostOps6, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- A buffer stretch 6 does not write keeps its contents through it. -/
theorem keep6 (W : Valuation τ sig (Elt F)) (r : Ref sig .tc) (h : r ∉ written6) :
    after hostOps6 W (Proc.devRef .tc r) = W (Proc.devRef .tc r) :=
  after_of_writes_sub hostOps6 _ writes6 h

/-! ## Stretch 0: the edge lists, and layer 0's input and parameters -/

set_option maxHeartbeats 2000000 in
theorem s0_v1 (W : Valuation τ sig (Elt F)) :
    after hostOps0 W (Proc.devRef .tc main_v1) = Model.v1Of (W (Proc.devRef .tc main_arg1)) := by
  simp only [hostOps0]
  after_results_simp
  rfl

set_option maxHeartbeats 2000000 in
theorem s0_v3 (W : Valuation τ sig (Elt F)) :
    after hostOps0 W (Proc.devRef .tc main_v3) = Model.v3Of (W (Proc.devRef .tc main_arg1)) := by
  simp only [hostOps0]
  after_results_simp
  rfl

set_option maxHeartbeats 2000000 in
theorem s0_v19 (W : Valuation τ sig (Elt F)) :
    after hostOps0 W (Proc.devRef .tc main_v19) = Model.pre (Model.eps0 (W (Proc.devRef .tc main_arg7))) (W (Proc.devRef .tc main_arg0)) (Model.v1Of (W (Proc.devRef .tc main_arg1))) (Model.v3Of (W (Proc.devRef .tc main_arg1))) := by
  simp only [hostOps0]
  after_results_simp
  rfl

set_option maxHeartbeats 2000000 in
theorem s0_v21 (W : Valuation τ sig (Elt F)) :
    after hostOps0 W (Proc.devRef .tc main_v21) = Model.w1_0 (W (Proc.devRef .tc main_arg3)) := by
  simp only [hostOps0]
  after_results_simp
  rfl

set_option maxHeartbeats 2000000 in
theorem s0_v23 (W : Valuation τ sig (Elt F)) :
    after hostOps0 W (Proc.devRef .tc main_v23) = Model.b1_0 (W (Proc.devRef .tc main_arg4)) := by
  simp only [hostOps0]
  after_results_simp
  rfl

set_option maxHeartbeats 2000000 in
theorem s0_v25 (W : Valuation τ sig (Elt F)) :
    after hostOps0 W (Proc.devRef .tc main_v25) = Model.w2_0 (W (Proc.devRef .tc main_arg5)) := by
  simp only [hostOps0]
  after_results_simp
  rfl

set_option maxHeartbeats 2000000 in
theorem s0_v27 (W : Valuation τ sig (Elt F)) :
    after hostOps0 W (Proc.devRef .tc main_v27) = Model.b2_0 (W (Proc.devRef .tc main_arg6)) := by
  simp only [hostOps0]
  after_results_simp
  rfl

/-! ## Stretch 1: layer 1's input and parameters -/

set_option maxHeartbeats 2000000 in
theorem s1_v44 (W : Valuation τ sig (Elt F)) :
    after hostOps1 W (Proc.devRef .tc main_v44) = Model.pre (Model.eps1 (W (Proc.devRef .tc main_arg7))) (W (Proc.devRef .tc main_v28)) (W (Proc.devRef .tc main_v1)) (W (Proc.devRef .tc main_v3)) := by
  simp only [hostOps1]
  after_results_simp
  rfl

set_option maxHeartbeats 2000000 in
theorem s1_v46 (W : Valuation τ sig (Elt F)) :
    after hostOps1 W (Proc.devRef .tc main_v46) = Model.w1_1 (W (Proc.devRef .tc main_arg3)) := by
  simp only [hostOps1]
  after_results_simp
  rfl

set_option maxHeartbeats 2000000 in
theorem s1_v48 (W : Valuation τ sig (Elt F)) :
    after hostOps1 W (Proc.devRef .tc main_v48) = Model.b1_1 (W (Proc.devRef .tc main_arg4)) := by
  simp only [hostOps1]
  after_results_simp
  rfl

set_option maxHeartbeats 2000000 in
theorem s1_v50 (W : Valuation τ sig (Elt F)) :
    after hostOps1 W (Proc.devRef .tc main_v50) = Model.w2_1 (W (Proc.devRef .tc main_arg5)) := by
  simp only [hostOps1]
  after_results_simp
  rfl

set_option maxHeartbeats 2000000 in
theorem s1_v52 (W : Valuation τ sig (Elt F)) :
    after hostOps1 W (Proc.devRef .tc main_v52) = Model.b2_1 (W (Proc.devRef .tc main_arg6)) := by
  simp only [hostOps1]
  after_results_simp
  rfl

/-! ## Stretch 2: layer 2's input and parameters -/

set_option maxHeartbeats 2000000 in
theorem s2_v69 (W : Valuation τ sig (Elt F)) :
    after hostOps2 W (Proc.devRef .tc main_v69) = Model.pre (Model.eps2 (W (Proc.devRef .tc main_arg7))) (W (Proc.devRef .tc main_v53)) (W (Proc.devRef .tc main_v1)) (W (Proc.devRef .tc main_v3)) := by
  simp only [hostOps2]
  after_results_simp
  rfl

set_option maxHeartbeats 2000000 in
theorem s2_v71 (W : Valuation τ sig (Elt F)) :
    after hostOps2 W (Proc.devRef .tc main_v71) = Model.w1_2 (W (Proc.devRef .tc main_arg3)) := by
  simp only [hostOps2]
  after_results_simp
  rfl

set_option maxHeartbeats 2000000 in
theorem s2_v73 (W : Valuation τ sig (Elt F)) :
    after hostOps2 W (Proc.devRef .tc main_v73) = Model.b1_2 (W (Proc.devRef .tc main_arg4)) := by
  simp only [hostOps2]
  after_results_simp
  rfl

set_option maxHeartbeats 2000000 in
theorem s2_v75 (W : Valuation τ sig (Elt F)) :
    after hostOps2 W (Proc.devRef .tc main_v75) = Model.w2_2 (W (Proc.devRef .tc main_arg5)) := by
  simp only [hostOps2]
  after_results_simp
  rfl

set_option maxHeartbeats 2000000 in
theorem s2_v77 (W : Valuation τ sig (Elt F)) :
    after hostOps2 W (Proc.devRef .tc main_v77) = Model.b2_2 (W (Proc.devRef .tc main_arg6)) := by
  simp only [hostOps2]
  after_results_simp
  rfl

/-! ## Stretch 3: layer 3's input and parameters -/

set_option maxHeartbeats 2000000 in
theorem s3_v94 (W : Valuation τ sig (Elt F)) :
    after hostOps3 W (Proc.devRef .tc main_v94) = Model.pre (Model.eps3 (W (Proc.devRef .tc main_arg7))) (W (Proc.devRef .tc main_v78)) (W (Proc.devRef .tc main_v1)) (W (Proc.devRef .tc main_v3)) := by
  simp only [hostOps3]
  after_results_simp
  rfl

set_option maxHeartbeats 2000000 in
theorem s3_v96 (W : Valuation τ sig (Elt F)) :
    after hostOps3 W (Proc.devRef .tc main_v96) = Model.w1_3 (W (Proc.devRef .tc main_arg3)) := by
  simp only [hostOps3]
  after_results_simp
  rfl

set_option maxHeartbeats 2000000 in
theorem s3_v98 (W : Valuation τ sig (Elt F)) :
    after hostOps3 W (Proc.devRef .tc main_v98) = Model.b1_3 (W (Proc.devRef .tc main_arg4)) := by
  simp only [hostOps3]
  after_results_simp
  rfl

set_option maxHeartbeats 2000000 in
theorem s3_v100 (W : Valuation τ sig (Elt F)) :
    after hostOps3 W (Proc.devRef .tc main_v100) = Model.w2_3 (W (Proc.devRef .tc main_arg5)) := by
  simp only [hostOps3]
  after_results_simp
  rfl

set_option maxHeartbeats 2000000 in
theorem s3_v102 (W : Valuation τ sig (Elt F)) :
    after hostOps3 W (Proc.devRef .tc main_v102) = Model.b2_3 (W (Proc.devRef .tc main_arg6)) := by
  simp only [hostOps3]
  after_results_simp
  rfl

/-! ## Stretch 4: layer 4's input and parameters -/

set_option maxHeartbeats 2000000 in
theorem s4_v119 (W : Valuation τ sig (Elt F)) :
    after hostOps4 W (Proc.devRef .tc main_v119) = Model.pre (Model.eps4 (W (Proc.devRef .tc main_arg7))) (W (Proc.devRef .tc main_v103)) (W (Proc.devRef .tc main_v1)) (W (Proc.devRef .tc main_v3)) := by
  simp only [hostOps4]
  after_results_simp
  rfl

set_option maxHeartbeats 2000000 in
theorem s4_v121 (W : Valuation τ sig (Elt F)) :
    after hostOps4 W (Proc.devRef .tc main_v121) = Model.w1_4 (W (Proc.devRef .tc main_arg3)) := by
  simp only [hostOps4]
  after_results_simp
  rfl

set_option maxHeartbeats 2000000 in
theorem s4_v123 (W : Valuation τ sig (Elt F)) :
    after hostOps4 W (Proc.devRef .tc main_v123) = Model.b1_4 (W (Proc.devRef .tc main_arg4)) := by
  simp only [hostOps4]
  after_results_simp
  rfl

set_option maxHeartbeats 2000000 in
theorem s4_v125 (W : Valuation τ sig (Elt F)) :
    after hostOps4 W (Proc.devRef .tc main_v125) = Model.w2_4 (W (Proc.devRef .tc main_arg5)) := by
  simp only [hostOps4]
  after_results_simp
  rfl

set_option maxHeartbeats 2000000 in
theorem s4_v127 (W : Valuation τ sig (Elt F)) :
    after hostOps4 W (Proc.devRef .tc main_v127) = Model.b2_4 (W (Proc.devRef .tc main_arg6)) := by
  simp only [hostOps4]
  after_results_simp
  rfl

/-! ## Stretch 6: the two heads' rows summed per graph -/

set_option maxHeartbeats 2000000 in
theorem s6_v132 (W : Valuation τ sig (Elt F)) :
    after hostOps6 W (Proc.devRef .tc main_v132) = Model.pool (W (Proc.devRef .tc main_arg2)) (W (Proc.devRef .tc main_v129_0)) := by
  simp only [hostOps6]
  after_results_simp
  rfl

set_option maxHeartbeats 2000000 in
theorem s6_v135 (W : Valuation τ sig (Elt F)) :
    after hostOps6 W (Proc.devRef .tc main_v135) = Model.pool (W (Proc.devRef .tc main_arg2)) (W (Proc.devRef .tc main_v129_1)) := by
  simp only [hostOps6]
  after_results_simp
  rfl

end Cert.KernelIdeal.Host

end
-- ==== Proof.LibPlainDot.lean ====
/-
  A plain matrix product read one entry at a time, over the extended reals.

  For an M×K array l and a K×N array r, the product's entry (p, q) is the sum over k of l(p, k) * r(k, q). This holds
  of the accelerator's matrix unit started from a zero accumulator and of the host's general dot product alike: both
  are exact sums at the ideal values, and a sum over the one contracted axis is re-indexed by that axis's coordinate.
  Adding a bias row b(q) to every row gives the linear layer's entry, `linRow`: it depends on the left operand only
  through its row p. That is the whole reason a product computed on blocks of rows agrees with the product computed
  on all rows at once.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibPlainDot

open Idealize.ShloMosaic Idealize.ShloMosaic.ValueIdx

/-- The plain product contracts one axis … -/
theorem plain_rank (M K N : ℕ) : (DotDims.plain M K N).contr.rank = 1 := rfl

/-- … of extent K. -/
theorem plain_size (M K N : ℕ) : (DotDims.plain M K N).contr.size ⟨0, by rw [plain_rank]; exact Nat.one_pos⟩ = K := rfl

/-- The contraction positions of a plain product are the K coordinates of the contracted axis. -/
abbrev plainEquiv (M K N : ℕ) : (DotDims.plain M K N).contr.Idx ≃ Fin K :=
  contrEquiv1 (DotDims.plain M K N) K (plain_rank M K N) (plain_size M K N)

/-- At output entry (p, q) and contraction coordinate k the left operand is read at (p, k). -/
theorem plain_lhsIdx (M K N : ℕ) (p : Fin M) (q : Fin N) (k : Fin K) :
    (DotDims.plain M K N).lhsIdx (ix2 p q) ((plainEquiv M K N).symm k) = ix2 p k := by
  funext a
  match a with
  | ⟨0, _⟩ => exact Fin.ext rfl
  | ⟨1, _⟩ =>
    exact Fin.ext ((DotDims.lhsIdx_val_of_single (DotDims.plain M K N) (cl := 1) rfl _ _).trans (contrEquiv1_symm_val _ _ _ _ k))

/-- At output entry (p, q) and contraction coordinate k the right operand is read at (k, q). -/
theorem plain_rhsIdx (M K N : ℕ) (p : Fin M) (q : Fin N) (k : Fin K) :
    (DotDims.plain M K N).rhsIdx (ix2 p q) ((plainEquiv M K N).symm k) = ix2 k q := by
  funext a
  match a with
  | ⟨1, _⟩ => exact Fin.ext rfl
  | ⟨0, _⟩ =>
    exact Fin.ext ((DotDims.rhsIdx_val_of_single (DotDims.plain M K N) (cr := 0) rfl _ _).trans (contrEquiv1_symm_val _ _ _ _ k))

/-- The product's sum over contraction positions is the sum over k of l(p, k) * r(k, q). -/
theorem plain_sum (M K N : ℕ) (l : (⟨2, ![M, K]⟩ : Shape).Idx → EReal) (r : (⟨2, ![K, N]⟩ : Shape).Idx → EReal) (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (plainEquiv M K N).symm]
  exact Finset.sum_congr rfl fun k _ => by rw [plain_lhsIdx, plain_rhsIdx]

/-- The matrix unit from a zero accumulator, at entry (p, q). -/
theorem plain_matmul {φ₁ φ₂ : FTy} (M K N : ℕ) (l : FVec Ideal ⟨2, ![M, K]⟩ φ₁) (r : FVec Ideal ⟨2, ![K, N]⟩ φ₂) (p : Fin M) (q : Fin N) :
    FloatOps.matmul (DotDims.plain M K N) none l r (constant _ .f32 0x00000000#32) (ix2 p q) = ∑ k : Fin K, l (ix2 p k) * r (ix2 k q) := by
  rw [Ideal.matmul_constant_zero_apply]; exact plain_sum M K N l r p q

/-- The host's general dot product, at entry (p, q). -/
theorem plain_dotGeneral {φ₁ φ₂ : FTy} (M K N : ℕ) (sched : HostSchedule) (l : FVec Ideal ⟨2, ![M, K]⟩ φ₁) (r : FVec Ideal ⟨2, ![K, N]⟩ φ₂) (p : Fin M) (q : Fin N) :
    FloatOps.dotGeneral (DotDims.plain M K N) none sched l r (ix2 p q) = ∑ k : Fin K, l (ix2 p k) * r (ix2 k q) := by
  rw [Ideal.dotGeneral_apply]; exact plain_sum M K N l r p q

/-- One entry of a linear layer: the row x times column c of w, plus the bias at c. -/
def linRow {K C : ℕ} (x : Fin K → EReal) (w : (⟨2, ![K, C]⟩ : Shape).Idx → EReal) (b : (⟨1, ![C]⟩ : Shape).Idx → EReal) (c : Fin C) : EReal :=
  (∑ k : Fin K, x k * w (ix2 k c)) + b (ix1 c)

/-- A bias vector given a leading unit axis and repeated down the rows reads b(q) at (p, q). -/
theorem biasRows_apply {α : Type} {M N : ℕ} (b : (⟨1, ![N]⟩ : Shape).Idx → α) (h : (⟨1, ![N]⟩ : Shape).ShapeCasts ⟨2, ![1, N]⟩)
    (h' : (⟨2, ![1, N]⟩ : Shape).Broadcasts ⟨2, ![M, N]⟩) (p : Fin M) (q : Fin N) :
    broadcastTo ⟨2, ![M, N]⟩ (shapeCast ⟨2, ![1, N]⟩ b h) h' (ix2 p q) = b (ix1 q) := by
  rw [broadcastTo_1b_ab_apply, shapeCast_a_1a_apply]

/-- The host's spelling of the same: the vector laid along axis 1 of a one-row array, that row laid along both axes. -/
theorem biasRowsInDim_apply {α : Type} {M N : ℕ} (b : (⟨1, ![N]⟩ : Shape).Idx → α)
    (h : (⟨1, ![N]⟩ : Shape).BroadcastsInDim ⟨2, ![1, N]⟩ ![1]) (h' : (⟨2, ![1, N]⟩ : Shape).BroadcastsInDim ⟨2, ![M, N]⟩ ![0, 1])
    (p : Fin M) (q : Fin N) :
    broadcastInDim ⟨2, ![M, N]⟩ ![0, 1] h' (broadcastInDim ⟨2, ![1, N]⟩ ![1] h b) (ix2 p q) = b (ix1 q) := by
  rw [broadcastInDim_apply ![0, 1] h' _ (ix2 p q) (ix2 (0 : Fin 1) q) (fun a => by
        match a with
        | ⟨0, _⟩ => rfl
        | ⟨1, _⟩ =>
          show q.val = if N = 1 then 0 else q.val
          split
          · have := q.isLt; omega
          · rfl),
      broadcastInDim_apply ![1] h b (ix2 (0 : Fin 1) q) (ix1 q) (fun a => by
        match a with
        | ⟨0, _⟩ =>
          show q.val = if N = 1 then 0 else q.val
          split
          · have := q.isLt; omega
          · rfl)]

/-- THE KERNEL'S LINEAR LAYER at entry (p, q): the matrix unit from zero plus the bias rows is the row's `linRow`. -/
theorem matmul_bias_at {φ₁ φ₂ : FTy} (M K N : ℕ) (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (b : FVec Ideal ⟨1, ![N]⟩ .f32)
    (h : (⟨1, ![N]⟩ : Shape).ShapeCasts ⟨2, ![1, N]⟩) (h' : (⟨2, ![1, N]⟩ : Shape).Broadcasts ⟨2, ![M, N]⟩) (p : Fin M) (q : Fin N) :
    addf (matmul d none l r (constant ⟨2, ![M, N]⟩ .f32 0x00000000#32)) (broadcastTo ⟨2, ![M, N]⟩ (shapeCast ⟨2, ![1, N]⟩ b h) h') (ix2 p q)
      = linRow (fun k => l (ix2 p k)) r b q := by
  subst hd
  rw [addf_apply, biasRows_apply]
  exact congrArg (· + b (ix1 q)) (plain_matmul M K N l r p q)

/-- THE HOST'S LINEAR LAYER at entry (p, q): the general dot product plus the bias rows is the same `linRow`. -/
theorem dot_bias_at {φ₁ φ₂ : FTy} (M K N : ℕ) (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (b : FVec Ideal ⟨1, ![N]⟩ .f32)
    (h : (⟨1, ![N]⟩ : Shape).BroadcastsInDim ⟨2, ![1, N]⟩ ![1]) (h' : (⟨2, ![1, N]⟩ : Shape).BroadcastsInDim ⟨2, ![M, N]⟩ ![0, 1]) (p : Fin M) (q : Fin N) :
    addf (Host.dotGeneral d none l r) (broadcastInDim ⟨2, ![M, N]⟩ ![0, 1] h' (broadcastInDim ⟨2, ![1, N]⟩ ![1] h b)) (ix2 p q)
      = linRow (fun k => l (ix2 p k)) r b q := by
  subst hd
  rw [addf_apply, biasRowsInDim_apply]
  exact congrArg (· + b (ix1 q)) (plain_dotGeneral M K N _ l r p q)

/-- Two rows that agree entry by entry, through weights and biases that agree, give the same layer entry. -/
theorem linRow_congr {K C : ℕ} {x x' : Fin K → EReal} {w w' : (⟨2, ![K, C]⟩ : Shape).Idx → EReal} {b b' : (⟨1, ![C]⟩ : Shape).Idx → EReal}
    (hx : ∀ k, x k = x' k) (hw : w = w') (hb : b = b') (c : Fin C) : linRow x w b c = linRow x' w' b' c := by
  subst hw; subst hb
  exact congrArg (· + b (ix1 c)) (Finset.sum_congr rfl fun k _ => by rw [hx k])

end Cert.LibPlainDot

end
-- ==== Proof.PayAt.lean ====
/-
  What each kernel body stores, read one entry at a time at the ideal values.

  A body loads a block of rows and the whole weight and bias arrays, and stores one value per entry of the block.
  Rounding the operands of the matrix unit to a narrower format changes nothing at the ideal values, and a cast of an
  array to its own shape is the identity, so entry (p, q) of a multilayer body is
  max(Σ_k max(Σ_j x(p, j)·W1(j, k) + b1(k), 0)·W2(k, q) + b2(q), 0) (without the outer max in the last layer), and of a
  head body Σ_j x(p, j)·W(j, q) + b(q): `linRow` of row p of the loaded block.
-/
import proofs.«148857_j62225486184607_1_alg».proof.Proof.Gen.KernelIdeal.Skeleton
import proofs.«148857_j62225486184607_1_alg».proof.Proof.LibPlainDot

noncomputable section

namespace Cert.KernelIdeal.PayAt

open Idealize.ShloMosaic Idealize.ShloMosaic.ValueIdx Cert.KernelIdeal Cert.KernelIdeal.Gen Cert.LibPlainDot

/-- Layer 0's body at entry (p, q) of its block. -/
theorem pay0_at (x0 : Vec Ideal S5000x100 .f32) (x1 : Vec Ideal S100x200 .f32) (x2 : Vec Ideal S200 .f32) (x3 : Vec Ideal S200x100 .f32) (x4 : Vec Ideal S100 .f32) (p : Fin 5000) (q : Fin 100) :
    k0_pay1 (F := Ideal) x0 x1 x2 x3 x4 (ix2 p q)
      = max (linRow (fun k => max (linRow (fun j => x0 (ix2 p j)) x1 x2 k) (Ideal.ofBits .f32 0x00000000#32)) x3 x4 q) (Ideal.ofBits .f32 0x00000000#32) := by
  unfold k0_pay1
  try dsimp only
  simp only [shapeCast_self]
  rw [maximumf_apply]
  refine congrArg₂ max ?_ rfl
  refine (matmul_bias_at 5000 200 100 _ rfl _ _ _ _ _ p q).trans ?_
  refine linRow_congr (fun k => ?_) rfl rfl q
  show max (addf (matmul (F := Ideal) _ none _ _ _) _ (ix2 p k)) _ = _
  exact congrArg₂ max (matmul_bias_at 5000 100 200 _ rfl _ _ _ _ _ p k) rfl

/-- Layer 1's body at entry (p, q) of its block. -/
theorem pay1_at (x0 : Vec Ideal S5000x100 .f32) (x1 : Vec Ideal S100x200 .f32) (x2 : Vec Ideal S200 .f32) (x3 : Vec Ideal S200x100 .f32) (x4 : Vec Ideal S100 .f32) (p : Fin 5000) (q : Fin 100) :
    k1_pay1 (F := Ideal) x0 x1 x2 x3 x4 (ix2 p q)
      = max (linRow (fun k => max (linRow (fun j => x0 (ix2 p j)) x1 x2 k) (Ideal.ofBits .f32 0x00000000#32)) x3 x4 q) (Ideal.ofBits .f32 0x00000000#32) := by
  unfold k1_pay1
  try dsimp only
  simp only [shapeCast_self]
  rw [maximumf_apply]
  refine congrArg₂ max ?_ rfl
  refine (matmul_bias_at 5000 200 100 _ rfl _ _ _ _ _ p q).trans ?_
  refine linRow_congr (fun k => ?_) rfl rfl q
  show max (addf (matmul (F := Ideal) _ none _ _ _) _ (ix2 p k)) _ = _
  exact congrArg₂ max (matmul_bias_at 5000 100 200 _ rfl _ _ _ _ _ p k) rfl

/-- Layer 2's body at entry (p, q) of its block. -/
theorem pay2_at (x0 : Vec Ideal S5000x100 .f32) (x1 : Vec Ideal S100x200 .f32) (x2 : Vec Ideal S200 .f32) (x3 : Vec Ideal S200x100 .f32) (x4 : Vec Ideal S100 .f32) (p : Fin 5000) (q : Fin 100) :
    k2_pay1 (F := Ideal) x0 x1 x2 x3 x4 (ix2 p q)
      = max (linRow (fun k => max (linRow (fun j => x0 (ix2 p j)) x1 x2 k) (Ideal.ofBits .f32 0x00000000#32)) x3 x4 q) (Ideal.ofBits .f32 0x00000000#32) := by
  unfold k2_pay1
  try dsimp only
  simp only [shapeCast_self]
  rw [maximumf_apply]
  refine congrArg₂ max ?_ rfl
  refine (matmul_bias_at 5000 200 100 _ rfl _ _ _ _ _ p q).trans ?_
  refine linRow_congr (fun k => ?_) rfl rfl q
  show max (addf (matmul (F := Ideal) _ none _ _ _) _ (ix2 p k)) _ = _
  exact congrArg₂ max (matmul_bias_at 5000 100 200 _ rfl _ _ _ _ _ p k) rfl

/-- Layer 3's body at entry (p, q) of its block. -/
theorem pay3_at (x0 : Vec Ideal S5000x100 .f32) (x1 : Vec Ideal S100x200 .f32) (x2 : Vec Ideal S200 .f32) (x3 : Vec Ideal S200x100 .f32) (x4 : Vec Ideal S100 .f32) (p : Fin 5000) (q : Fin 100) :
    k3_pay1 (F := Ideal) x0 x1 x2 x3 x4 (ix2 p q)
      = max (linRow (fun k => max (linRow (fun j => x0 (ix2 p j)) x1 x2 k) (Ideal.ofBits .f32 0x00000000#32)) x3 x4 q) (Ideal.ofBits .f32 0x00000000#32) := by
  unfold k3_pay1
  try dsimp only
  simp only [shapeCast_self]
  rw [maximumf_apply]
  refine congrArg₂ max ?_ rfl
  refine (matmul_bias_at 5000 200 100 _ rfl _ _ _ _ _ p q).trans ?_
  refine linRow_congr (fun k => ?_) rfl rfl q
  show max (addf (matmul (F := Ideal) _ none _ _ _) _ (ix2 p k)) _ = _
  exact congrArg₂ max (matmul_bias_at 5000 100 200 _ rfl _ _ _ _ _ p k) rfl

/-- The last layer's body at entry (p, q) of its block: no outer max. -/
theorem pay4_at (x0 : Vec Ideal S5000x100 .f32) (x1 : Vec Ideal S100x200 .f32) (x2 : Vec Ideal S200 .f32) (x3 : Vec Ideal S200x100 .f32) (x4 : Vec Ideal S100 .f32) (p : Fin 5000) (q : Fin 100) :
    k4_pay1 (F := Ideal) x0 x1 x2 x3 x4 (ix2 p q)
      = linRow (fun k => max (linRow (fun j => x0 (ix2 p j)) x1 x2 k) (Ideal.ofBits .f32 0x00000000#32)) x3 x4 q := by
  unfold k4_pay1
  try dsimp only
  simp only [shapeCast_self]
  refine (matmul_bias_at 5000 200 100 _ rfl _ _ _ _ _ p q).trans ?_
  refine linRow_congr (fun k => ?_) rfl rfl q
  show max (addf (matmul (F := Ideal) _ none _ _ _) _ (ix2 p k)) _ = _
  exact congrArg₂ max (matmul_bias_at 5000 100 200 _ rfl _ _ _ _ _ p k) rfl

/-- The first node head's body at entry (p, q) of its block. -/
theorem pay5a_at (x0 : Vec Ideal S5000x100 .f32) (x1 : Vec Ideal S100x100 .f32) (x2 : Vec Ideal S100 .f32) (p : Fin 5000) (q : Fin 100) :
    k5_pay2 (F := Ideal) x0 x1 x2 (ix2 p q) = linRow (fun j => x0 (ix2 p j)) x1 x2 q := by
  unfold k5_pay2 k5_pay1
  try dsimp only
  simp only [shapeCast_self]
  exact matmul_bias_at 5000 100 100 _ rfl _ _ _ _ _ p q

/-- The second node head's body at entry (p, q) of its block. -/
theorem pay5b_at (x0 : Vec Ideal S5000x100 .f32) (x3 : Vec Ideal S100x100 .f32) (x4 : Vec Ideal S100 .f32) (p : Fin 5000) (q : Fin 100) :
    k5_pay3 (F := Ideal) x0 x3 x4 (ix2 p q) = linRow (fun j => x0 (ix2 p j)) x3 x4 q := by
  unfold k5_pay3 k5_pay1
  try dsimp only
  simp only [shapeCast_self]
  exact matmul_bias_at 5000 100 100 _ rfl _ _ _ _ _ p q

/-- The first graph head's body at entry (p, q). -/
theorem pay6a_at (x0 : Vec Ideal S512x100 .f32) (x1 : Vec Ideal S100x100 .f32) (x2 : Vec Ideal S100 .f32) (p : Fin 512) (q : Fin 100) :
    k6_pay1 (F := Ideal) x0 x1 x2 (ix2 p q) = linRow (fun j => x0 (ix2 p j)) x1 x2 q := by
  unfold k6_pay1
  try dsimp only
  simp only [shapeCast_self]
  exact matmul_bias_at 512 100 100 _ rfl _ _ _ _ _ p q

/-- The second graph head's body at entry (p, q). -/
theorem pay6b_at (x3 : Vec Ideal S512x100 .f32) (x4 : Vec Ideal S100x100 .f32) (x5 : Vec Ideal S100 .f32) (p : Fin 512) (q : Fin 100) :
    k6_pay2 (F := Ideal) x3 x4 x5 (ix2 p q) = linRow (fun j => x3 (ix2 p j)) x4 x5 q := by
  unfold k6_pay2
  try dsimp only
  simp only [shapeCast_self]
  exact matmul_bias_at 512 100 100 _ rfl _ _ _ _ _ p q

end Cert.KernelIdeal.PayAt

end
-- ==== Proof.ModelAt.lean ====
/-
  The model's dense stages read one entry at a time, at the ideal values.

  Every dense stage of the model is a linear layer, so its entry (r, q) is `linRow` of row r of its input: the hidden
  activations are max(row · W1 + b1, 0), a layer's output row is hidden · W2 + b2, and the node and graph heads are one
  linear layer each. Nothing here depends on any row but r.
-/
import proofs.«148857_j62225486184607_1_alg».proof.Proof.Model
import proofs.«148857_j62225486184607_1_alg».proof.Proof.LibPlainDot

noncomputable section

namespace Cert.ModelAt

open Idealize.ShloMosaic Idealize.ShloMosaic.ValueIdx Cert.ReferenceIdeal Cert.LibPlainDot

/-- Hidden activation (r, k): max(row r of z · column k of W1 + b1(k), 0). -/
theorem hidden_at (z : (⟨S50000x100, .f32⟩ : BufTy).Contents (Elt Ideal)) (w1 : (⟨S100x200, .f32⟩ : BufTy).Contents (Elt Ideal)) (b1 : (⟨S200, .f32⟩ : BufTy).Contents (Elt Ideal)) (r : Fin 50000) (k : Fin 200) :
    Model.hidden (F := Ideal) z w1 b1 (ix2 r k) = max (linRow (fun j => z (ix2 r j)) w1 b1 k) (Ideal.ofBits .f32 0x00000000#32) := by
  unfold Model.hidden
  rw [maximumf_apply]
  exact congrArg₂ max (dot_bias_at 50000 100 200 _ rfl z w1 b1 _ _ r k) rfl

/-- A layer's output (r, q): the hidden row r · column q of W2 + b2(q). -/
theorem mlp_at (z : (⟨S50000x100, .f32⟩ : BufTy).Contents (Elt Ideal)) (w1 : (⟨S100x200, .f32⟩ : BufTy).Contents (Elt Ideal)) (b1 : (⟨S200, .f32⟩ : BufTy).Contents (Elt Ideal)) (w2 : (⟨S200x100, .f32⟩ : BufTy).Contents (Elt Ideal)) (b2 : (⟨S100, .f32⟩ : BufTy).Contents (Elt Ideal)) (r : Fin 50000) (q : Fin 100) :
    Model.mlp (F := Ideal) z w1 b1 w2 b2 (ix2 r q)
      = linRow (fun k => max (linRow (fun j => z (ix2 r j)) w1 b1 k) (Ideal.ofBits .f32 0x00000000#32)) w2 b2 q := by
  unfold Model.mlp
  refine (dot_bias_at 50000 200 100 _ rfl (Model.hidden z w1 b1) w2 b2 _ _ r q).trans ?_
  exact linRow_congr (fun k => hidden_at z w1 b1 r k) rfl rfl q

/-- The relu between layers, entry by entry. -/
theorem relu_at (x : (⟨S50000x100, .f32⟩ : BufTy).Contents (Elt Ideal)) (i : S50000x100.Idx) :
    Model.relu (F := Ideal) x i = max (x i) (Ideal.ofBits .f32 0x00000000#32) := rfl

/-- A node head's entry (r, q). -/
theorem head_at (h : (⟨S50000x100, .f32⟩ : BufTy).Contents (Elt Ideal)) (w : (⟨S100x100, .f32⟩ : BufTy).Contents (Elt Ideal)) (b : (⟨S100, .f32⟩ : BufTy).Contents (Elt Ideal)) (r : Fin 50000) (q : Fin 100) :
    Model.head (F := Ideal) h w b (ix2 r q) = linRow (fun j => h (ix2 r j)) w b q := by
  unfold Model.head
  exact dot_bias_at 50000 100 100 _ rfl h w b _ _ r q

/-- A graph head's entry (r, q). -/
theorem glin_at (g : (⟨S512x100, .f32⟩ : BufTy).Contents (Elt Ideal)) (w : (⟨S100x100, .f32⟩ : BufTy).Contents (Elt Ideal)) (b : (⟨S100, .f32⟩ : BufTy).Contents (Elt Ideal)) (r : Fin 512) (q : Fin 100) :
    Model.glin (F := Ideal) g w b (ix2 r q) = linRow (fun j => g (ix2 r j)) w b q := by
  unfold Model.glin
  exact dot_bias_at 512 100 100 _ rfl g w b _ _ r q

end Cert.ModelAt

end
-- ==== Proof.Region0.lean ====
/-
  Region 0 (layer 0's rows): the output array after the grid.

  The grid has ten points; point t loads rows 5000·t … 5000·t + 4999 of the layer's input together with the whole weight
  and bias arrays, and writes the same rows of the output. Because an output row depends only on the same input row, the
  block point t writes is the restriction to its rows of the layer applied to the whole input; the ten blocks tile the
  50000 rows, so the output array ends as the layer of the arrays the region was entered with.
-/
import proofs.«148857_j62225486184607_1_alg».proof.Proof.Gen.KernelIdeal.Frame
import proofs.«148857_j62225486184607_1_alg».proof.Proof.PayAt
import proofs.«148857_j62225486184607_1_alg».proof.Proof.ModelAt

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibPlainDot

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the row-block windows move with the point, the weight and bias windows stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Point t's output block sits at rows 5000·t + p. -/
theorem emb_out (t : Fin cfg0.N) (p : Fin 5000) (q : Fin 100) (h : t.val * 5000 + p.val < 50000) :
    ((cfg0.win 5).blk t).view.emb (ix2 p q) = ix2 (⟨t.val * 5000 + p.val, h⟩ : Fin 50000) q := by
  obtain ⟨-, -, -, -, -, -, -, -, e8, e9⟩ := idx_facts t
  funext a; apply Fin.ext
  match a with
  | ⟨0, _⟩ => show win0_5.index t (0 : Fin 2) * 5000 + 1 * p.val = t.val * 5000 + p.val; omega
  | ⟨1, _⟩ => show win0_5.index t (1 : Fin 2) * 100 + 1 * q.val = q.val; omega

/-- WHAT POINT t WRITES BACK: its rows of the layer of the arrays the region finds. -/
theorem flushed_eq (c : Dev nD) (t : Fin cfg0.N) :
    (dat0 V c).flushed 5 t = ((cfg0.win 5).blk t).view.read (Elt Ideal) (Model.relu (Model.mlp (V c main_v19) (V c main_v21) (V c main_v23) (V c main_v25) (V c main_v27))) := by
  show (cfg0.win 5).cut (grid0.coords t) ((dat0 V c).after 5 t) = _
  rw [after0_5]
  unfold out0_5
  rw [View.canon_unit_zero hz2]
  simp only [View.ld_unit_zero (S := S5000x100) hz2, View.ld_unit_zero (S := S100x200) hz2, View.ld_unit_zero (S := S200) hz1,
    View.ld_unit_zero (S := S200x100) hz2, View.ld_unit_zero (S := S100) hz1]
  obtain ⟨e0, e1, e2, e3, e4, e5, e6, e7, e8, e9⟩ := idx_facts t
  have ht : t.val < 10 := by have h1 : t.val < cfg0.N := t.isLt; have h2 : cfg0.N = 10 := N_0; omega
  funext y
  obtain ⟨p, q, rfl⟩ : ∃ (p : Fin 5000) (q : Fin 100), y = ix2 p q := ⟨y 0, y 1, eq_ix2 y⟩
  have hp : p.val < 5000 := p.isLt
  have hrow : t.val * 5000 + p.val < 50000 := by omega
  show k0_pay1 (iblk0 V c 0 t) (iblk0 V c 1 t) (iblk0 V c 2 t) (iblk0 V c 3 t) (iblk0 V c 4 t) (ix2 p q)
      = (Model.relu (Model.mlp (V c main_v19) (V c main_v21) (V c main_v23) (V c main_v25) (V c main_v27))) (((cfg0.win 5).blk t).view.emb (ix2 p q))
  rw [emb_out t p q hrow]
  refine (PayAt.pay0_at (iblk0 V c 0 t) (iblk0 V c 1 t) (iblk0 V c 2 t) (iblk0 V c 3 t) (iblk0 V c 4 t) p q).trans ?_
  rw [ModelAt.relu_at, ModelAt.mlp_at]
  refine congrArg₂ max (linRow_congr (fun k => congrArg₂ max (linRow_congr (fun j => ?_) ?_ ?_ k) rfl) ?_ ?_ q) rfl
  · show V c main_v19 (((cfg0.win 0).blk t).view.emb (ix2 p j)) = V c main_v19 (ix2 (⟨t.val * 5000 + p.val, hrow⟩ : Fin 50000) j)
    refine congrArg (V c main_v19) (funext fun a => Fin.ext ?_)
    match a with
    | ⟨0, _⟩ => show win0_0.index t (0 : Fin 2) * 5000 + 1 * p.val = t.val * 5000 + p.val; omega
    | ⟨1, _⟩ => show win0_0.index t (1 : Fin 2) * 100 + 1 * j.val = j.val; omega
  · funext i
    show V c main_v21 (((cfg0.win 1).blk t).view.emb i) = V c main_v21 i
    refine congrArg (V c main_v21) (funext fun a => Fin.ext ?_)
    match a with
    | ⟨0, _⟩ => show win0_1.index t (0 : Fin 2) * 100 + 1 * (i 0).val = (i 0).val; omega
    | ⟨1, _⟩ => show win0_1.index t (1 : Fin 2) * 200 + 1 * (i 1).val = (i 1).val; omega
  · funext i
    show V c main_v23 (((cfg0.win 2).blk t).view.emb i) = V c main_v23 i
    refine congrArg (V c main_v23) (funext fun a => Fin.ext ?_)
    match a with
    | ⟨0, _⟩ => show win0_2.index t (0 : Fin 1) * 200 + 1 * (i 0).val = (i 0).val; omega
  · funext i
    show V c main_v25 (((cfg0.win 3).blk t).view.emb i) = V c main_v25 i
    refine congrArg (V c main_v25) (funext fun a => Fin.ext ?_)
    match a with
    | ⟨0, _⟩ => show win0_3.index t (0 : Fin 2) * 200 + 1 * (i 0).val = (i 0).val; omega
    | ⟨1, _⟩ => show win0_3.index t (1 : Fin 2) * 100 + 1 * (i 1).val = (i 1).val; omega
  · funext i
    show V c main_v27 (((cfg0.win 4).blk t).view.emb i) = V c main_v27 i
    refine congrArg (V c main_v27) (funext fun a => Fin.ext ?_)
    match a with
    | ⟨0, _⟩ => show win0_4.index t (0 : Fin 1) * 100 + 1 * (i 0).val = (i 0).val; omega

/-- An index of the output array is in point t's block iff its row is among the block's rows. -/
theorem mem_blk (t : Fin cfg0.N) (i : S50000x100.Idx) :
    i ∈ ((cfg0.win 5).blk t).view.set ↔ ∀ a : Fin 2, win0_5.index t a * S5000x100.size a ≤ (i a).val ∧ (i a).val < win0_5.index t a * S5000x100.size a + S5000x100.size a := by
  show i ∈ ((View.whole main_v28).slice (win0_5.rect t)).set ↔ _
  rw [View.set_slice_whole, Rect.mem_set_unit]
  exact Iff.rfl

/-- The ten blocks tile the rows: row r is in the block of point r / 5000. -/
theorem cover (i : S50000x100.Idx) : ∃ t : Fin cfg0.N, (cfg0.win 5).flush t = true ∧ i ∈ ((cfg0.win 5).blk t).view.set := by
  have hi0 : (i 0).val < 50000 := (i 0).isLt
  have hi1 : (i 1).val < 100 := (i 1).isLt
  have hN : cfg0.N = 10 := N_0
  let t : Fin cfg0.N := ⟨(i 0).val / 5000, by rw [hN]; omega⟩
  have htv : t.val = (i 0).val / 5000 := rfl
  obtain ⟨-, -, -, -, -, -, -, -, e8, e9⟩ := idx_facts t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 100 ≤ (i 1).val ∧ (i 1).val < win0_5.index t (1 : Fin 2) * 100 + 100; omega

/-- THE OUTPUT ARRAY after the grid: the layer of the arrays the region was entered with. -/
theorem value (c : Dev nD) :
    (dat0 V c).arrAt 5 cfg0.N = Model.relu (Model.mlp (V c main_v19) (V c main_v21) (V c main_v23) (V c main_v25) (V c main_v27)) :=
  (dat0 V c).arrAt_eq_of_cover 5 _ (fun t _ => flushed_eq V c t) cover

end Cert.KernelIdeal.Region0

end
-- ==== Proof.Region1.lean ====
/-
  Region 1 (layer 1's rows): the output array after the grid.

  The grid has ten points; point t loads rows 5000·t … 5000·t + 4999 of the layer's input together with the whole weight
  and bias arrays, and writes the same rows of the output. Because an output row depends only on the same input row, the
  block point t writes is the restriction to its rows of the layer applied to the whole input; the ten blocks tile the
  50000 rows, so the output array ends as the layer of the arrays the region was entered with.
-/
import proofs.«148857_j62225486184607_1_alg».proof.Proof.Gen.KernelIdeal.Frame
import proofs.«148857_j62225486184607_1_alg».proof.Proof.PayAt
import proofs.«148857_j62225486184607_1_alg».proof.Proof.ModelAt

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibPlainDot

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the row-block windows move with the point, the weight and bias windows stay. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Point t's output block sits at rows 5000·t + p. -/
theorem emb_out (t : Fin cfg1.N) (p : Fin 5000) (q : Fin 100) (h : t.val * 5000 + p.val < 50000) :
    ((cfg1.win 5).blk t).view.emb (ix2 p q) = ix2 (⟨t.val * 5000 + p.val, h⟩ : Fin 50000) q := by
  obtain ⟨-, -, -, -, -, -, -, -, e8, e9⟩ := idx_facts t
  funext a; apply Fin.ext
  match a with
  | ⟨0, _⟩ => show win1_5.index t (0 : Fin 2) * 5000 + 1 * p.val = t.val * 5000 + p.val; omega
  | ⟨1, _⟩ => show win1_5.index t (1 : Fin 2) * 100 + 1 * q.val = q.val; omega

/-- WHAT POINT t WRITES BACK: its rows of the layer of the arrays the region finds. -/
theorem flushed_eq (c : Dev nD) (t : Fin cfg1.N) :
    (dat1 V c).flushed 5 t = ((cfg1.win 5).blk t).view.read (Elt Ideal) (Model.relu (Model.mlp (V c main_v44) (V c main_v46) (V c main_v48) (V c main_v50) (V c main_v52))) := by
  show (cfg1.win 5).cut (grid1.coords t) ((dat1 V c).after 5 t) = _
  rw [after1_5]
  unfold out1_5
  rw [View.canon_unit_zero hz2]
  simp only [View.ld_unit_zero (S := S5000x100) hz2, View.ld_unit_zero (S := S100x200) hz2, View.ld_unit_zero (S := S200) hz1,
    View.ld_unit_zero (S := S200x100) hz2, View.ld_unit_zero (S := S100) hz1]
  obtain ⟨e0, e1, e2, e3, e4, e5, e6, e7, e8, e9⟩ := idx_facts t
  have ht : t.val < 10 := by have h1 : t.val < cfg1.N := t.isLt; have h2 : cfg1.N = 10 := N_1; omega
  funext y
  obtain ⟨p, q, rfl⟩ : ∃ (p : Fin 5000) (q : Fin 100), y = ix2 p q := ⟨y 0, y 1, eq_ix2 y⟩
  have hp : p.val < 5000 := p.isLt
  have hrow : t.val * 5000 + p.val < 50000 := by omega
  show k1_pay1 (iblk1 V c 0 t) (iblk1 V c 1 t) (iblk1 V c 2 t) (iblk1 V c 3 t) (iblk1 V c 4 t) (ix2 p q)
      = (Model.relu (Model.mlp (V c main_v44) (V c main_v46) (V c main_v48) (V c main_v50) (V c main_v52))) (((cfg1.win 5).blk t).view.emb (ix2 p q))
  rw [emb_out t p q hrow]
  refine (PayAt.pay1_at (iblk1 V c 0 t) (iblk1 V c 1 t) (iblk1 V c 2 t) (iblk1 V c 3 t) (iblk1 V c 4 t) p q).trans ?_
  rw [ModelAt.relu_at, ModelAt.mlp_at]
  refine congrArg₂ max (linRow_congr (fun k => congrArg₂ max (linRow_congr (fun j => ?_) ?_ ?_ k) rfl) ?_ ?_ q) rfl
  · show V c main_v44 (((cfg1.win 0).blk t).view.emb (ix2 p j)) = V c main_v44 (ix2 (⟨t.val * 5000 + p.val, hrow⟩ : Fin 50000) j)
    refine congrArg (V c main_v44) (funext fun a => Fin.ext ?_)
    match a with
    | ⟨0, _⟩ => show win1_0.index t (0 : Fin 2) * 5000 + 1 * p.val = t.val * 5000 + p.val; omega
    | ⟨1, _⟩ => show win1_0.index t (1 : Fin 2) * 100 + 1 * j.val = j.val; omega
  · funext i
    show V c main_v46 (((cfg1.win 1).blk t).view.emb i) = V c main_v46 i
    refine congrArg (V c main_v46) (funext fun a => Fin.ext ?_)
    match a with
    | ⟨0, _⟩ => show win1_1.index t (0 : Fin 2) * 100 + 1 * (i 0).val = (i 0).val; omega
    | ⟨1, _⟩ => show win1_1.index t (1 : Fin 2) * 200 + 1 * (i 1).val = (i 1).val; omega
  · funext i
    show V c main_v48 (((cfg1.win 2).blk t).view.emb i) = V c main_v48 i
    refine congrArg (V c main_v48) (funext fun a => Fin.ext ?_)
    match a with
    | ⟨0, _⟩ => show win1_2.index t (0 : Fin 1) * 200 + 1 * (i 0).val = (i 0).val; omega
  · funext i
    show V c main_v50 (((cfg1.win 3).blk t).view.emb i) = V c main_v50 i
    refine congrArg (V c main_v50) (funext fun a => Fin.ext ?_)
    match a with
    | ⟨0, _⟩ => show win1_3.index t (0 : Fin 2) * 200 + 1 * (i 0).val = (i 0).val; omega
    | ⟨1, _⟩ => show win1_3.index t (1 : Fin 2) * 100 + 1 * (i 1).val = (i 1).val; omega
  · funext i
    show V c main_v52 (((cfg1.win 4).blk t).view.emb i) = V c main_v52 i
    refine congrArg (V c main_v52) (funext fun a => Fin.ext ?_)
    match a with
    | ⟨0, _⟩ => show win1_4.index t (0 : Fin 1) * 100 + 1 * (i 0).val = (i 0).val; omega

/-- An index of the output array is in point t's block iff its row is among the block's rows. -/
theorem mem_blk (t : Fin cfg1.N) (i : S50000x100.Idx) :
    i ∈ ((cfg1.win 5).blk t).view.set ↔ ∀ a : Fin 2, win1_5.index t a * S5000x100.size a ≤ (i a).val ∧ (i a).val < win1_5.index t a * S5000x100.size a + S5000x100.size a := by
  show i ∈ ((View.whole main_v53).slice (win1_5.rect t)).set ↔ _
  rw [View.set_slice_whole, Rect.mem_set_unit]
  exact Iff.rfl

/-- The ten blocks tile the rows: row r is in the block of point r / 5000. -/
theorem cover (i : S50000x100.Idx) : ∃ t : Fin cfg1.N, (cfg1.win 5).flush t = true ∧ i ∈ ((cfg1.win 5).blk t).view.set := by
  have hi0 : (i 0).val < 50000 := (i 0).isLt
  have hi1 : (i 1).val < 100 := (i 1).isLt
  have hN : cfg1.N = 10 := N_1
  let t : Fin cfg1.N := ⟨(i 0).val / 5000, by rw [hN]; omega⟩
  have htv : t.val = (i 0).val / 5000 := rfl
  obtain ⟨-, -, -, -, -, -, -, -, e8, e9⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 100 ≤ (i 1).val ∧ (i 1).val < win1_5.index t (1 : Fin 2) * 100 + 100; omega

/-- THE OUTPUT ARRAY after the grid: the layer of the arrays the region was entered with. -/
theorem value (c : Dev nD) :
    (dat1 V c).arrAt 5 cfg1.N = Model.relu (Model.mlp (V c main_v44) (V c main_v46) (V c main_v48) (V c main_v50) (V c main_v52)) :=
  (dat1 V c).arrAt_eq_of_cover 5 _ (fun t _ => flushed_eq V c t) cover

end Cert.KernelIdeal.Region1

end
-- ==== Proof.Region2.lean ====
/-
  Region 2 (layer 2's rows): the output array after the grid.

  The grid has ten points; point t loads rows 5000·t … 5000·t + 4999 of the layer's input together with the whole weight
  and bias arrays, and writes the same rows of the output. Because an output row depends only on the same input row, the
  block point t writes is the restriction to its rows of the layer applied to the whole input; the ten blocks tile the
  50000 rows, so the output array ends as the layer of the arrays the region was entered with.
-/
import proofs.«148857_j62225486184607_1_alg».proof.Proof.Gen.KernelIdeal.Frame
import proofs.«148857_j62225486184607_1_alg».proof.Proof.PayAt
import proofs.«148857_j62225486184607_1_alg».proof.Proof.ModelAt

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibPlainDot

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the row-block windows move with the point, the weight and bias windows stay. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- Point t's output block sits at rows 5000·t + p. -/
theorem emb_out (t : Fin cfg2.N) (p : Fin 5000) (q : Fin 100) (h : t.val * 5000 + p.val < 50000) :
    ((cfg2.win 5).blk t).view.emb (ix2 p q) = ix2 (⟨t.val * 5000 + p.val, h⟩ : Fin 50000) q := by
  obtain ⟨-, -, -, -, -, -, -, -, e8, e9⟩ := idx_facts t
  funext a; apply Fin.ext
  match a with
  | ⟨0, _⟩ => show win2_5.index t (0 : Fin 2) * 5000 + 1 * p.val = t.val * 5000 + p.val; omega
  | ⟨1, _⟩ => show win2_5.index t (1 : Fin 2) * 100 + 1 * q.val = q.val; omega

/-- WHAT POINT t WRITES BACK: its rows of the layer of the arrays the region finds. -/
theorem flushed_eq (c : Dev nD) (t : Fin cfg2.N) :
    (dat2 V c).flushed 5 t = ((cfg2.win 5).blk t).view.read (Elt Ideal) (Model.relu (Model.mlp (V c main_v69) (V c main_v71) (V c main_v73) (V c main_v75) (V c main_v77))) := by
  show (cfg2.win 5).cut (grid2.coords t) ((dat2 V c).after 5 t) = _
  rw [after2_5]
  unfold out2_5
  rw [View.canon_unit_zero hz2]
  simp only [View.ld_unit_zero (S := S5000x100) hz2, View.ld_unit_zero (S := S100x200) hz2, View.ld_unit_zero (S := S200) hz1,
    View.ld_unit_zero (S := S200x100) hz2, View.ld_unit_zero (S := S100) hz1]
  obtain ⟨e0, e1, e2, e3, e4, e5, e6, e7, e8, e9⟩ := idx_facts t
  have ht : t.val < 10 := by have h1 : t.val < cfg2.N := t.isLt; have h2 : cfg2.N = 10 := N_2; omega
  funext y
  obtain ⟨p, q, rfl⟩ : ∃ (p : Fin 5000) (q : Fin 100), y = ix2 p q := ⟨y 0, y 1, eq_ix2 y⟩
  have hp : p.val < 5000 := p.isLt
  have hrow : t.val * 5000 + p.val < 50000 := by omega
  show k2_pay1 (iblk2 V c 0 t) (iblk2 V c 1 t) (iblk2 V c 2 t) (iblk2 V c 3 t) (iblk2 V c 4 t) (ix2 p q)
      = (Model.relu (Model.mlp (V c main_v69) (V c main_v71) (V c main_v73) (V c main_v75) (V c main_v77))) (((cfg2.win 5).blk t).view.emb (ix2 p q))
  rw [emb_out t p q hrow]
  refine (PayAt.pay2_at (iblk2 V c 0 t) (iblk2 V c 1 t) (iblk2 V c 2 t) (iblk2 V c 3 t) (iblk2 V c 4 t) p q).trans ?_
  rw [ModelAt.relu_at, ModelAt.mlp_at]
  refine congrArg₂ max (linRow_congr (fun k => congrArg₂ max (linRow_congr (fun j => ?_) ?_ ?_ k) rfl) ?_ ?_ q) rfl
  · show V c main_v69 (((cfg2.win 0).blk t).view.emb (ix2 p j)) = V c main_v69 (ix2 (⟨t.val * 5000 + p.val, hrow⟩ : Fin 50000) j)
    refine congrArg (V c main_v69) (funext fun a => Fin.ext ?_)
    match a with
    | ⟨0, _⟩ => show win2_0.index t (0 : Fin 2) * 5000 + 1 * p.val = t.val * 5000 + p.val; omega
    | ⟨1, _⟩ => show win2_0.index t (1 : Fin 2) * 100 + 1 * j.val = j.val; omega
  · funext i
    show V c main_v71 (((cfg2.win 1).blk t).view.emb i) = V c main_v71 i
    refine congrArg (V c main_v71) (funext fun a => Fin.ext ?_)
    match a with
    | ⟨0, _⟩ => show win2_1.index t (0 : Fin 2) * 100 + 1 * (i 0).val = (i 0).val; omega
    | ⟨1, _⟩ => show win2_1.index t (1 : Fin 2) * 200 + 1 * (i 1).val = (i 1).val; omega
  · funext i
    show V c main_v73 (((cfg2.win 2).blk t).view.emb i) = V c main_v73 i
    refine congrArg (V c main_v73) (funext fun a => Fin.ext ?_)
    match a with
    | ⟨0, _⟩ => show win2_2.index t (0 : Fin 1) * 200 + 1 * (i 0).val = (i 0).val; omega
  · funext i
    show V c main_v75 (((cfg2.win 3).blk t).view.emb i) = V c main_v75 i
    refine congrArg (V c main_v75) (funext fun a => Fin.ext ?_)
    match a with
    | ⟨0, _⟩ => show win2_3.index t (0 : Fin 2) * 200 + 1 * (i 0).val = (i 0).val; omega
    | ⟨1, _⟩ => show win2_3.index t (1 : Fin 2) * 100 + 1 * (i 1).val = (i 1).val; omega
  · funext i
    show V c main_v77 (((cfg2.win 4).blk t).view.emb i) = V c main_v77 i
    refine congrArg (V c main_v77) (funext fun a => Fin.ext ?_)
    match a with
    | ⟨0, _⟩ => show win2_4.index t (0 : Fin 1) * 100 + 1 * (i 0).val = (i 0).val; omega

/-- An index of the output array is in point t's block iff its row is among the block's rows. -/
theorem mem_blk (t : Fin cfg2.N) (i : S50000x100.Idx) :
    i ∈ ((cfg2.win 5).blk t).view.set ↔ ∀ a : Fin 2, win2_5.index t a * S5000x100.size a ≤ (i a).val ∧ (i a).val < win2_5.index t a * S5000x100.size a + S5000x100.size a := by
  show i ∈ ((View.whole main_v78).slice (win2_5.rect t)).set ↔ _
  rw [View.set_slice_whole, Rect.mem_set_unit]
  exact Iff.rfl

/-- The ten blocks tile the rows: row r is in the block of point r / 5000. -/
theorem cover (i : S50000x100.Idx) : ∃ t : Fin cfg2.N, (cfg2.win 5).flush t = true ∧ i ∈ ((cfg2.win 5).blk t).view.set := by
  have hi0 : (i 0).val < 50000 := (i 0).isLt
  have hi1 : (i 1).val < 100 := (i 1).isLt
  have hN : cfg2.N = 10 := N_2
  let t : Fin cfg2.N := ⟨(i 0).val / 5000, by rw [hN]; omega⟩
  have htv : t.val = (i 0).val / 5000 := rfl
  obtain ⟨-, -, -, -, -, -, -, -, e8, e9⟩ := idx_facts t
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 100 ≤ (i 1).val ∧ (i 1).val < win2_5.index t (1 : Fin 2) * 100 + 100; omega

/-- THE OUTPUT ARRAY after the grid: the layer of the arrays the region was entered with. -/
theorem value (c : Dev nD) :
    (dat2 V c).arrAt 5 cfg2.N = Model.relu (Model.mlp (V c main_v69) (V c main_v71) (V c main_v73) (V c main_v75) (V c main_v77)) :=
  (dat2 V c).arrAt_eq_of_cover 5 _ (fun t _ => flushed_eq V c t) cover

end Cert.KernelIdeal.Region2

end
-- ==== Proof.Region3.lean ====
/-
  Region 3 (layer 3's rows): the output array after the grid.

  The grid has ten points; point t loads rows 5000·t … 5000·t + 4999 of the layer's input together with the whole weight
  and bias arrays, and writes the same rows of the output. Because an output row depends only on the same input row, the
  block point t writes is the restriction to its rows of the layer applied to the whole input; the ten blocks tile the
  50000 rows, so the output array ends as the layer of the arrays the region was entered with.
-/
import proofs.«148857_j62225486184607_1_alg».proof.Proof.Gen.KernelIdeal.Frame
import proofs.«148857_j62225486184607_1_alg».proof.Proof.PayAt
import proofs.«148857_j62225486184607_1_alg».proof.Proof.ModelAt

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibPlainDot

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the row-block windows move with the point, the weight and bias windows stay. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0
    ∧ win3_4.index t (0 : Fin 1) = 0
    ∧ win3_5.index t (0 : Fin 2) = t.val ∧ win3_5.index t (1 : Fin 2) = 0 :=
  (by decide +kernel : ∀ t : Fin grid3.N, _)

/-- Point t's output block sits at rows 5000·t + p. -/
theorem emb_out (t : Fin cfg3.N) (p : Fin 5000) (q : Fin 100) (h : t.val * 5000 + p.val < 50000) :
    ((cfg3.win 5).blk t).view.emb (ix2 p q) = ix2 (⟨t.val * 5000 + p.val, h⟩ : Fin 50000) q := by
  obtain ⟨-, -, -, -, -, -, -, -, e8, e9⟩ := idx_facts t
  funext a; apply Fin.ext
  match a with
  | ⟨0, _⟩ => show win3_5.index t (0 : Fin 2) * 5000 + 1 * p.val = t.val * 5000 + p.val; omega
  | ⟨1, _⟩ => show win3_5.index t (1 : Fin 2) * 100 + 1 * q.val = q.val; omega

/-- WHAT POINT t WRITES BACK: its rows of the layer of the arrays the region finds. -/
theorem flushed_eq (c : Dev nD) (t : Fin cfg3.N) :
    (dat3 V c).flushed 5 t = ((cfg3.win 5).blk t).view.read (Elt Ideal) (Model.relu (Model.mlp (V c main_v94) (V c main_v96) (V c main_v98) (V c main_v100) (V c main_v102))) := by
  show (cfg3.win 5).cut (grid3.coords t) ((dat3 V c).after 5 t) = _
  rw [after3_5]
  unfold out3_5
  rw [View.canon_unit_zero hz2]
  simp only [View.ld_unit_zero (S := S5000x100) hz2, View.ld_unit_zero (S := S100x200) hz2, View.ld_unit_zero (S := S200) hz1,
    View.ld_unit_zero (S := S200x100) hz2, View.ld_unit_zero (S := S100) hz1]
  obtain ⟨e0, e1, e2, e3, e4, e5, e6, e7, e8, e9⟩ := idx_facts t
  have ht : t.val < 10 := by have h1 : t.val < cfg3.N := t.isLt; have h2 : cfg3.N = 10 := N_3; omega
  funext y
  obtain ⟨p, q, rfl⟩ : ∃ (p : Fin 5000) (q : Fin 100), y = ix2 p q := ⟨y 0, y 1, eq_ix2 y⟩
  have hp : p.val < 5000 := p.isLt
  have hrow : t.val * 5000 + p.val < 50000 := by omega
  show k3_pay1 (iblk3 V c 0 t) (iblk3 V c 1 t) (iblk3 V c 2 t) (iblk3 V c 3 t) (iblk3 V c 4 t) (ix2 p q)
      = (Model.relu (Model.mlp (V c main_v94) (V c main_v96) (V c main_v98) (V c main_v100) (V c main_v102))) (((cfg3.win 5).blk t).view.emb (ix2 p q))
  rw [emb_out t p q hrow]
  refine (PayAt.pay3_at (iblk3 V c 0 t) (iblk3 V c 1 t) (iblk3 V c 2 t) (iblk3 V c 3 t) (iblk3 V c 4 t) p q).trans ?_
  rw [ModelAt.relu_at, ModelAt.mlp_at]
  refine congrArg₂ max (linRow_congr (fun k => congrArg₂ max (linRow_congr (fun j => ?_) ?_ ?_ k) rfl) ?_ ?_ q) rfl
  · show V c main_v94 (((cfg3.win 0).blk t).view.emb (ix2 p j)) = V c main_v94 (ix2 (⟨t.val * 5000 + p.val, hrow⟩ : Fin 50000) j)
    refine congrArg (V c main_v94) (funext fun a => Fin.ext ?_)
    match a with
    | ⟨0, _⟩ => show win3_0.index t (0 : Fin 2) * 5000 + 1 * p.val = t.val * 5000 + p.val; omega
    | ⟨1, _⟩ => show win3_0.index t (1 : Fin 2) * 100 + 1 * j.val = j.val; omega
  · funext i
    show V c main_v96 (((cfg3.win 1).blk t).view.emb i) = V c main_v96 i
    refine congrArg (V c main_v96) (funext fun a => Fin.ext ?_)
    match a with
    | ⟨0, _⟩ => show win3_1.index t (0 : Fin 2) * 100 + 1 * (i 0).val = (i 0).val; omega
    | ⟨1, _⟩ => show win3_1.index t (1 : Fin 2) * 200 + 1 * (i 1).val = (i 1).val; omega
  · funext i
    show V c main_v98 (((cfg3.win 2).blk t).view.emb i) = V c main_v98 i
    refine congrArg (V c main_v98) (funext fun a => Fin.ext ?_)
    match a with
    | ⟨0, _⟩ => show win3_2.index t (0 : Fin 1) * 200 + 1 * (i 0).val = (i 0).val; omega
  · funext i
    show V c main_v100 (((cfg3.win 3).blk t).view.emb i) = V c main_v100 i
    refine congrArg (V c main_v100) (funext fun a => Fin.ext ?_)
    match a with
    | ⟨0, _⟩ => show win3_3.index t (0 : Fin 2) * 200 + 1 * (i 0).val = (i 0).val; omega
    | ⟨1, _⟩ => show win3_3.index t (1 : Fin 2) * 100 + 1 * (i 1).val = (i 1).val; omega
  · funext i
    show V c main_v102 (((cfg3.win 4).blk t).view.emb i) = V c main_v102 i
    refine congrArg (V c main_v102) (funext fun a => Fin.ext ?_)
    match a with
    | ⟨0, _⟩ => show win3_4.index t (0 : Fin 1) * 100 + 1 * (i 0).val = (i 0).val; omega

/-- An index of the output array is in point t's block iff its row is among the block's rows. -/
theorem mem_blk (t : Fin cfg3.N) (i : S50000x100.Idx) :
    i ∈ ((cfg3.win 5).blk t).view.set ↔ ∀ a : Fin 2, win3_5.index t a * S5000x100.size a ≤ (i a).val ∧ (i a).val < win3_5.index t a * S5000x100.size a + S5000x100.size a := by
  show i ∈ ((View.whole main_v103).slice (win3_5.rect t)).set ↔ _
  rw [View.set_slice_whole, Rect.mem_set_unit]
  exact Iff.rfl

/-- The ten blocks tile the rows: row r is in the block of point r / 5000. -/
theorem cover (i : S50000x100.Idx) : ∃ t : Fin cfg3.N, (cfg3.win 5).flush t = true ∧ i ∈ ((cfg3.win 5).blk t).view.set := by
  have hi0 : (i 0).val < 50000 := (i 0).isLt
  have hi1 : (i 1).val < 100 := (i 1).isLt
  have hN : cfg3.N = 10 := N_3
  let t : Fin cfg3.N := ⟨(i 0).val / 5000, by rw [hN]; omega⟩
  have htv : t.val = (i 0).val / 5000 := rfl
  obtain ⟨-, -, -, -, -, -, -, -, e8, e9⟩ := idx_facts t
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 100 ≤ (i 1).val ∧ (i 1).val < win3_5.index t (1 : Fin 2) * 100 + 100; omega

/-- THE OUTPUT ARRAY after the grid: the layer of the arrays the region was entered with. -/
theorem value (c : Dev nD) :
    (dat3 V c).arrAt 5 cfg3.N = Model.relu (Model.mlp (V c main_v94) (V c main_v96) (V c main_v98) (V c main_v100) (V c main_v102)) :=
  (dat3 V c).arrAt_eq_of_cover 5 _ (fun t _ => flushed_eq V c t) cover

end Cert.KernelIdeal.Region3

end
-- ==== Proof.Region4.lean ====
/-
  Region 4 (layer 4's rows): the output array after the grid.

  The grid has ten points; point t loads rows 5000·t … 5000·t + 4999 of the layer's input together with the whole weight
  and bias arrays, and writes the same rows of the output. Because an output row depends only on the same input row, the
  block point t writes is the restriction to its rows of the layer applied to the whole input; the ten blocks tile the
  50000 rows, so the output array ends as the layer of the arrays the region was entered with.
-/
import proofs.«148857_j62225486184607_1_alg».proof.Proof.Gen.KernelIdeal.Frame
import proofs.«148857_j62225486184607_1_alg».proof.Proof.PayAt
import proofs.«148857_j62225486184607_1_alg».proof.Proof.ModelAt

set_option maxRecDepth 16384

noncomputable section

namespace Cert.KernelIdeal.Region4

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibPlainDot

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the row-block windows move with the point, the weight and bias windows stay. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = 0 ∧ win4_3.index t (1 : Fin 2) = 0
    ∧ win4_4.index t (0 : Fin 1) = 0
    ∧ win4_5.index t (0 : Fin 2) = t.val ∧ win4_5.index t (1 : Fin 2) = 0 :=
  (by decide +kernel : ∀ t : Fin grid4.N, _)

/-- Point t's output block sits at rows 5000·t + p. -/
theorem emb_out (t : Fin cfg4.N) (p : Fin 5000) (q : Fin 100) (h : t.val * 5000 + p.val < 50000) :
    ((cfg4.win 5).blk t).view.emb (ix2 p q) = ix2 (⟨t.val * 5000 + p.val, h⟩ : Fin 50000) q := by
  obtain ⟨-, -, -, -, -, -, -, -, e8, e9⟩ := idx_facts t
  funext a; apply Fin.ext
  match a with
  | ⟨0, _⟩ => show win4_5.index t (0 : Fin 2) * 5000 + 1 * p.val = t.val * 5000 + p.val; omega
  | ⟨1, _⟩ => show win4_5.index t (1 : Fin 2) * 100 + 1 * q.val = q.val; omega

/-- WHAT POINT t WRITES BACK: its rows of the layer of the arrays the region finds. -/
theorem flushed_eq (c : Dev nD) (t : Fin cfg4.N) :
    (dat4 V c).flushed 5 t = ((cfg4.win 5).blk t).view.read (Elt Ideal) (Model.mlp (V c main_v119) (V c main_v121) (V c main_v123) (V c main_v125) (V c main_v127)) := by
  show (cfg4.win 5).cut (grid4.coords t) ((dat4 V c).after 5 t) = _
  rw [after4_5]
  unfold out4_5
  rw [View.canon_unit_zero hz2]
  simp only [View.ld_unit_zero (S := S5000x100) hz2, View.ld_unit_zero (S := S100x200) hz2, View.ld_unit_zero (S := S200) hz1,
    View.ld_unit_zero (S := S200x100) hz2, View.ld_unit_zero (S := S100) hz1]
  obtain ⟨e0, e1, e2, e3, e4, e5, e6, e7, e8, e9⟩ := idx_facts t
  have ht : t.val < 10 := by have h1 : t.val < cfg4.N := t.isLt; have h2 : cfg4.N = 10 := N_4; omega
  funext y
  obtain ⟨p, q, rfl⟩ : ∃ (p : Fin 5000) (q : Fin 100), y = ix2 p q := ⟨y 0, y 1, eq_ix2 y⟩
  have hp : p.val < 5000 := p.isLt
  have hrow : t.val * 5000 + p.val < 50000 := by omega
  show k4_pay1 (iblk4 V c 0 t) (iblk4 V c 1 t) (iblk4 V c 2 t) (iblk4 V c 3 t) (iblk4 V c 4 t) (ix2 p q)
      = (Model.mlp (V c main_v119) (V c main_v121) (V c main_v123) (V c main_v125) (V c main_v127)) (((cfg4.win 5).blk t).view.emb (ix2 p q))
  rw [emb_out t p q hrow]
  refine (PayAt.pay4_at (iblk4 V c 0 t) (iblk4 V c 1 t) (iblk4 V c 2 t) (iblk4 V c 3 t) (iblk4 V c 4 t) p q).trans ?_
  rw [ModelAt.mlp_at]
  refine (linRow_congr (fun k => congrArg₂ max (linRow_congr (fun j => ?_) ?_ ?_ k) rfl) ?_ ?_ q)
  · show V c main_v119 (((cfg4.win 0).blk t).view.emb (ix2 p j)) = V c main_v119 (ix2 (⟨t.val * 5000 + p.val, hrow⟩ : Fin 50000) j)
    refine congrArg (V c main_v119) (funext fun a => Fin.ext ?_)
    match a with
    | ⟨0, _⟩ => show win4_0.index t (0 : Fin 2) * 5000 + 1 * p.val = t.val * 5000 + p.val; omega
    | ⟨1, _⟩ => show win4_0.index t (1 : Fin 2) * 100 + 1 * j.val = j.val; omega
  · funext i
    show V c main_v121 (((cfg4.win 1).blk t).view.emb i) = V c main_v121 i
    refine congrArg (V c main_v121) (funext fun a => Fin.ext ?_)
    match a with
    | ⟨0, _⟩ => show win4_1.index t (0 : Fin 2) * 100 + 1 * (i 0).val = (i 0).val; omega
    | ⟨1, _⟩ => show win4_1.index t (1 : Fin 2) * 200 + 1 * (i 1).val = (i 1).val; omega
  · funext i
    show V c main_v123 (((cfg4.win 2).blk t).view.emb i) = V c main_v123 i
    refine congrArg (V c main_v123) (funext fun a => Fin.ext ?_)
    match a with
    | ⟨0, _⟩ => show win4_2.index t (0 : Fin 1) * 200 + 1 * (i 0).val = (i 0).val; omega
  · funext i
    show V c main_v125 (((cfg4.win 3).blk t).view.emb i) = V c main_v125 i
    refine congrArg (V c main_v125) (funext fun a => Fin.ext ?_)
    match a with
    | ⟨0, _⟩ => show win4_3.index t (0 : Fin 2) * 200 + 1 * (i 0).val = (i 0).val; omega
    | ⟨1, _⟩ => show win4_3.index t (1 : Fin 2) * 100 + 1 * (i 1).val = (i 1).val; omega
  · funext i
    show V c main_v127 (((cfg4.win 4).blk t).view.emb i) = V c main_v127 i
    refine congrArg (V c main_v127) (funext fun a => Fin.ext ?_)
    match a with
    | ⟨0, _⟩ => show win4_4.index t (0 : Fin 1) * 100 + 1 * (i 0).val = (i 0).val; omega

/-- An index of the output array is in point t's block iff its row is among the block's rows. -/
theorem mem_blk (t : Fin cfg4.N) (i : S50000x100.Idx) :
    i ∈ ((cfg4.win 5).blk t).view.set ↔ ∀ a : Fin 2, win4_5.index t a * S5000x100.size a ≤ (i a).val ∧ (i a).val < win4_5.index t a * S5000x100.size a + S5000x100.size a := by
  show i ∈ ((View.whole main_v128).slice (win4_5.rect t)).set ↔ _
  rw [View.set_slice_whole, Rect.mem_set_unit]
  exact Iff.rfl

/-- The ten blocks tile the rows: row r is in the block of point r / 5000. -/
theorem cover (i : S50000x100.Idx) : ∃ t : Fin cfg4.N, (cfg4.win 5).flush t = true ∧ i ∈ ((cfg4.win 5).blk t).view.set := by
  have hi0 : (i 0).val < 50000 := (i 0).isLt
  have hi1 : (i 1).val < 100 := (i 1).isLt
  have hN : cfg4.N = 10 := N_4
  let t : Fin cfg4.N := ⟨(i 0).val / 5000, by rw [hN]; omega⟩
  have htv : t.val = (i 0).val / 5000 := rfl
  obtain ⟨-, -, -, -, -, -, -, -, e8, e9⟩ := idx_facts t
  refine ⟨t, flush4_5 t, ?_⟩
  rw [mem_blk]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 100 ≤ (i 1).val ∧ (i 1).val < win4_5.index t (1 : Fin 2) * 100 + 100; omega

/-- THE OUTPUT ARRAY after the grid: the layer of the arrays the region was entered with. -/
theorem value (c : Dev nD) :
    (dat4 V c).arrAt 5 cfg4.N = Model.mlp (V c main_v119) (V c main_v121) (V c main_v123) (V c main_v125) (V c main_v127) :=
  (dat4 V c).arrAt_eq_of_cover 5 _ (fun t _ => flushed_eq V c t) cover

end Cert.KernelIdeal.Region4

end
-- ==== Proof.Region5.lean ====
/-
  Region 5 (the two node heads): the output arrays after the grid.

  Each output row is a linear layer of the same input row, so the block a grid point writes is the restriction to its
  rows of the head applied to the whole input, and the blocks tile the rows.
-/
import proofs.«148857_j62225486184607_1_alg».proof.Proof.Gen.KernelIdeal.Frame
import proofs.«148857_j62225486184607_1_alg».proof.Proof.PayAt
import proofs.«148857_j62225486184607_1_alg».proof.Proof.ModelAt

set_option maxRecDepth 16384

noncomputable section

namespace Cert.KernelIdeal.Region5

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibPlainDot

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the row-block windows move with the point, the weight and bias windows stay. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 1) = 0
    ∧ win5_3.index t (0 : Fin 2) = 0 ∧ win5_3.index t (1 : Fin 2) = 0
    ∧ win5_4.index t (0 : Fin 1) = 0
    ∧ win5_5.index t (0 : Fin 2) = t.val ∧ win5_5.index t (1 : Fin 2) = 0
    ∧ win5_6.index t (0 : Fin 2) = t.val ∧ win5_6.index t (1 : Fin 2) = 0 :=
  (by decide +kernel : ∀ t : Fin grid5.N, _)

/-! ## Output window 5 -/

/-- Point t's block of output window 5 sits at rows 5000·t + p. -/
theorem emb_out5 (t : Fin cfg5.N) (p : Fin 5000) (q : Fin 100) (h : t.val * 5000 + p.val < 50000) :
    ((cfg5.win 5).blk t).view.emb (ix2 p q) = ix2 (⟨t.val * 5000 + p.val, h⟩ : Fin 50000) q := by
  have e := idx_facts t
  funext a; apply Fin.ext
  match a with
  | ⟨0, _⟩ => show win5_5.index t (0 : Fin 2) * 5000 + 1 * p.val = t.val * 5000 + p.val; omega
  | ⟨1, _⟩ => show win5_5.index t (1 : Fin 2) * 100 + 1 * q.val = q.val; omega

/-- WHAT POINT t WRITES BACK through window 5: its rows of the head of the arrays the region finds. -/
theorem flushed_eq5 (c : Dev nD) (t : Fin cfg5.N) :
    (dat5 V c).flushed 5 t = ((cfg5.win 5).blk t).view.read (Elt Ideal) (Model.head (V c main_v128) (V c main_arg8) (V c main_arg9)) := by
  show (cfg5.win 5).cut (grid5.coords t) ((dat5 V c).after 5 t) = _
  rw [after5_5]
  unfold out5_5
  rw [View.canon_unit_zero hz2]
  simp only [View.ld_unit_zero (S := S5000x100) hz2, View.ld_unit_zero (S := S100x100) hz2, View.ld_unit_zero (S := S100) hz1]
  have e := idx_facts t
  have ht : t.val < 10 := by have h1 : t.val < cfg5.N := t.isLt; have h2 : cfg5.N = 10 := N_5; omega
  funext y
  obtain ⟨p, q, rfl⟩ : ∃ (p : Fin 5000) (q : Fin 100), y = ix2 p q := ⟨y 0, y 1, eq_ix2 y⟩
  have hp : p.val < 5000 := p.isLt
  have hrow : t.val * 5000 + p.val < 50000 := by omega
  show k5_pay2 (iblk5 V c 0 t) (iblk5 V c 1 t) (iblk5 V c 2 t) (ix2 p q)
      = (Model.head (V c main_v128) (V c main_arg8) (V c main_arg9)) (((cfg5.win 5).blk t).view.emb (ix2 p q))
  rw [emb_out5 t p q hrow]
  refine (PayAt.pay5a_at (iblk5 V c 0 t) (iblk5 V c 1 t) (iblk5 V c 2 t) p q).trans ?_
  rw [ModelAt.head_at]
  refine linRow_congr (fun j => ?_) ?_ ?_ q
  · show V c main_v128 (((cfg5.win 0).blk t).view.emb (ix2 p j)) = V c main_v128 (ix2 (⟨t.val * 5000 + p.val, hrow⟩ : Fin 50000) j)
    refine congrArg (V c main_v128) (funext fun a => Fin.ext ?_)
    match a with
    | ⟨0, _⟩ => show win5_0.index t (0 : Fin 2) * 5000 + 1 * p.val = t.val * 5000 + p.val; omega
    | ⟨1, _⟩ => show win5_0.index t (1 : Fin 2) * 100 + 1 * j.val = j.val; omega
  · funext i
    show V c main_arg8 (((cfg5.win 1).blk t).view.emb i) = V c main_arg8 i
    refine congrArg (V c main_arg8) (funext fun a => Fin.ext ?_)
    match a with
    | ⟨0, _⟩ => show win5_1.index t (0 : Fin 2) * 100 + 1 * (i 0).val = (i 0).val; omega
    | ⟨1, _⟩ => show win5_1.index t (1 : Fin 2) * 100 + 1 * (i 1).val = (i 1).val; omega
  · funext i
    show V c main_arg9 (((cfg5.win 2).blk t).view.emb i) = V c main_arg9 i
    refine congrArg (V c main_arg9) (funext fun a => Fin.ext ?_)
    match a with
    | ⟨0, _⟩ => show win5_2.index t (0 : Fin 1) * 100 + 1 * (i 0).val = (i 0).val; omega

/-- An index of output array 5 is in point t's block iff its row is among the block's rows. -/
theorem mem_blk5 (t : Fin cfg5.N) (i : S50000x100.Idx) :
    i ∈ ((cfg5.win 5).blk t).view.set ↔ ∀ a : Fin 2, win5_5.index t a * S5000x100.size a ≤ (i a).val ∧ (i a).val < win5_5.index t a * S5000x100.size a + S5000x100.size a := by
  show i ∈ ((View.whole main_v129_0).slice (win5_5.rect t)).set ↔ _
  rw [View.set_slice_whole, Rect.mem_set_unit]
  exact Iff.rfl

/-- The blocks of output window 5 tile the rows. -/
theorem cover5 (i : S50000x100.Idx) : ∃ t : Fin cfg5.N, (cfg5.win 5).flush t = true ∧ i ∈ ((cfg5.win 5).blk t).view.set := by
  have hi0 : (i 0).val < 50000 := (i 0).isLt
  have hi1 : (i 1).val < 100 := (i 1).isLt
  have hN : cfg5.N = 10 := N_5
  let t : Fin cfg5.N := ⟨(i 0).val / 5000, by rw [hN]; omega⟩
  have htv : t.val = (i 0).val / 5000 := rfl
  have e := idx_facts t
  refine ⟨t, flush5_5 t, ?_⟩
  rw [mem_blk5]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 100 ≤ (i 1).val ∧ (i 1).val < win5_5.index t (1 : Fin 2) * 100 + 100; omega

/-- OUTPUT ARRAY 5 after the grid: the head of the arrays the region was entered with. -/
theorem value5 (c : Dev nD) :
    (dat5 V c).arrAt 5 cfg5.N = Model.head (V c main_v128) (V c main_arg8) (V c main_arg9) :=
  (dat5 V c).arrAt_eq_of_cover 5 _ (fun t _ => flushed_eq5 V c t) cover5

/-! ## Output window 6 -/

/-- Point t's block of output window 6 sits at rows 5000·t + p. -/
theorem emb_out6 (t : Fin cfg5.N) (p : Fin 5000) (q : Fin 100) (h : t.val * 5000 + p.val < 50000) :
    ((cfg5.win 6).blk t).view.emb (ix2 p q) = ix2 (⟨t.val * 5000 + p.val, h⟩ : Fin 50000) q := by
  have e := idx_facts t
  funext a; apply Fin.ext
  match a with
  | ⟨0, _⟩ => show win5_6.index t (0 : Fin 2) * 5000 + 1 * p.val = t.val * 5000 + p.val; omega
  | ⟨1, _⟩ => show win5_6.index t (1 : Fin 2) * 100 + 1 * q.val = q.val; omega

/-- WHAT POINT t WRITES BACK through window 6: its rows of the head of the arrays the region finds. -/
theorem flushed_eq6 (c : Dev nD) (t : Fin cfg5.N) :
    (dat5 V c).flushed 6 t = ((cfg5.win 6).blk t).view.read (Elt Ideal) (Model.head (V c main_v128) (V c main_arg10) (V c main_arg11)) := by
  show (cfg5.win 6).cut (grid5.coords t) ((dat5 V c).after 6 t) = _
  rw [after5_6]
  unfold out5_6
  rw [View.canon_unit_zero hz2]
  simp only [View.ld_unit_zero (S := S5000x100) hz2, View.ld_unit_zero (S := S100x100) hz2, View.ld_unit_zero (S := S100) hz1]
  have e := idx_facts t
  have ht : t.val < 10 := by have h1 : t.val < cfg5.N := t.isLt; have h2 : cfg5.N = 10 := N_5; omega
  funext y
  obtain ⟨p, q, rfl⟩ : ∃ (p : Fin 5000) (q : Fin 100), y = ix2 p q := ⟨y 0, y 1, eq_ix2 y⟩
  have hp : p.val < 5000 := p.isLt
  have hrow : t.val * 5000 + p.val < 50000 := by omega
  show k5_pay3 (iblk5 V c 0 t) (iblk5 V c 3 t) (iblk5 V c 4 t) (ix2 p q)
      = (Model.head (V c main_v128) (V c main_arg10) (V c main_arg11)) (((cfg5.win 6).blk t).view.emb (ix2 p q))
  rw [emb_out6 t p q hrow]
  refine (PayAt.pay5b_at (iblk5 V c 0 t) (iblk5 V c 3 t) (iblk5 V c 4 t) p q).trans ?_
  rw [ModelAt.head_at]
  refine linRow_congr (fun j => ?_) ?_ ?_ q
  · show V c main_v128 (((cfg5.win 0).blk t).view.emb (ix2 p j)) = V c main_v128 (ix2 (⟨t.val * 5000 + p.val, hrow⟩ : Fin 50000) j)
    refine congrArg (V c main_v128) (funext fun a => Fin.ext ?_)
    match a with
    | ⟨0, _⟩ => show win5_0.index t (0 : Fin 2) * 5000 + 1 * p.val = t.val * 5000 + p.val; omega
    | ⟨1, _⟩ => show win5_0.index t (1 : Fin 2) * 100 + 1 * j.val = j.val; omega
  · funext i
    show V c main_arg10 (((cfg5.win 3).blk t).view.emb i) = V c main_arg10 i
    refine congrArg (V c main_arg10) (funext fun a => Fin.ext ?_)
    match a with
    | ⟨0, _⟩ => show win5_3.index t (0 : Fin 2) * 100 + 1 * (i 0).val = (i 0).val; omega
    | ⟨1, _⟩ => show win5_3.index t (1 : Fin 2) * 100 + 1 * (i 1).val = (i 1).val; omega
  · funext i
    show V c main_arg11 (((cfg5.win 4).blk t).view.emb i) = V c main_arg11 i
    refine congrArg (V c main_arg11) (funext fun a => Fin.ext ?_)
    match a with
    | ⟨0, _⟩ => show win5_4.index t (0 : Fin 1) * 100 + 1 * (i 0).val = (i 0).val; omega

/-- An index of output array 6 is in point t's block iff its row is among the block's rows. -/
theorem mem_blk6 (t : Fin cfg5.N) (i : S50000x100.Idx) :
    i ∈ ((cfg5.win 6).blk t).view.set ↔ ∀ a : Fin 2, win5_6.index t a * S5000x100.size a ≤ (i a).val ∧ (i a).val < win5_6.index t a * S5000x100.size a + S5000x100.size a := by
  show i ∈ ((View.whole main_v129_1).slice (win5_6.rect t)).set ↔ _
  rw [View.set_slice_whole, Rect.mem_set_unit]
  exact Iff.rfl

/-- The blocks of output window 6 tile the rows. -/
theorem cover6 (i : S50000x100.Idx) : ∃ t : Fin cfg5.N, (cfg5.win 6).flush t = true ∧ i ∈ ((cfg5.win 6).blk t).view.set := by
  have hi0 : (i 0).val < 50000 := (i 0).isLt
  have hi1 : (i 1).val < 100 := (i 1).isLt
  have hN : cfg5.N = 10 := N_5
  let t : Fin cfg5.N := ⟨(i 0).val / 5000, by rw [hN]; omega⟩
  have htv : t.val = (i 0).val / 5000 := rfl
  have e := idx_facts t
  refine ⟨t, flush5_6 t, ?_⟩
  rw [mem_blk6]
  intro a
  match a with
  | ⟨0, _⟩ => show win5_6.index t (0 : Fin 2) * 5000 ≤ (i 0).val ∧ (i 0).val < win5_6.index t (0 : Fin 2) * 5000 + 5000; omega
  | ⟨1, _⟩ => show win5_6.index t (1 : Fin 2) * 100 ≤ (i 1).val ∧ (i 1).val < win5_6.index t (1 : Fin 2) * 100 + 100; omega

/-- OUTPUT ARRAY 6 after the grid: the head of the arrays the region was entered with. -/
theorem value6 (c : Dev nD) :
    (dat5 V c).arrAt 6 cfg5.N = Model.head (V c main_v128) (V c main_arg10) (V c main_arg11) :=
  (dat5 V c).arrAt_eq_of_cover 6 _ (fun t _ => flushed_eq6 V c t) cover6

end Cert.KernelIdeal.Region5

end
-- ==== Proof.Region6.lean ====
/-
  Region 6 (the two graph heads): the output arrays after the grid.

  Each output row is a linear layer of the same input row, so the block a grid point writes is the restriction to its
  rows of the head applied to the whole input, and the blocks tile the rows.
-/
import proofs.«148857_j62225486184607_1_alg».proof.Proof.Gen.KernelIdeal.Frame
import proofs.«148857_j62225486184607_1_alg».proof.Proof.PayAt
import proofs.«148857_j62225486184607_1_alg».proof.Proof.ModelAt

set_option maxRecDepth 16384

noncomputable section

namespace Cert.KernelIdeal.Region6

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibPlainDot

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the row-block windows move with the point, the weight and bias windows stay. -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 1) = 0
    ∧ win6_3.index t (0 : Fin 2) = t.val ∧ win6_3.index t (1 : Fin 2) = 0
    ∧ win6_4.index t (0 : Fin 2) = 0 ∧ win6_4.index t (1 : Fin 2) = 0
    ∧ win6_5.index t (0 : Fin 1) = 0
    ∧ win6_6.index t (0 : Fin 2) = t.val ∧ win6_6.index t (1 : Fin 2) = 0
    ∧ win6_7.index t (0 : Fin 2) = t.val ∧ win6_7.index t (1 : Fin 2) = 0 :=
  (by decide +kernel : ∀ t : Fin grid6.N, _)

/-! ## Output window 6 -/

/-- Point t's block of output window 6 sits at rows 512·t + p. -/
theorem emb_out6 (t : Fin cfg6.N) (p : Fin 512) (q : Fin 100) (h : t.val * 512 + p.val < 512) :
    ((cfg6.win 6).blk t).view.emb (ix2 p q) = ix2 (⟨t.val * 512 + p.val, h⟩ : Fin 512) q := by
  have e := idx_facts t
  funext a; apply Fin.ext
  match a with
  | ⟨0, _⟩ => show win6_6.index t (0 : Fin 2) * 512 + 1 * p.val = t.val * 512 + p.val; omega
  | ⟨1, _⟩ => show win6_6.index t (1 : Fin 2) * 100 + 1 * q.val = q.val; omega

/-- WHAT POINT t WRITES BACK through window 6: its rows of the head of the arrays the region finds. -/
theorem flushed_eq6 (c : Dev nD) (t : Fin cfg6.N) :
    (dat6 V c).flushed 6 t = ((cfg6.win 6).blk t).view.read (Elt Ideal) (Model.glin (V c main_v132) (V c main_arg12) (V c main_arg13)) := by
  show (cfg6.win 6).cut (grid6.coords t) ((dat6 V c).after 6 t) = _
  rw [after6_6]
  unfold out6_6
  rw [View.canon_unit_zero hz2]
  simp only [View.ld_unit_zero (S := S512x100) hz2, View.ld_unit_zero (S := S100x100) hz2, View.ld_unit_zero (S := S100) hz1]
  have e := idx_facts t
  have ht : t.val < 1 := by have h1 : t.val < cfg6.N := t.isLt; have h2 : cfg6.N = 1 := N_6; omega
  funext y
  obtain ⟨p, q, rfl⟩ : ∃ (p : Fin 512) (q : Fin 100), y = ix2 p q := ⟨y 0, y 1, eq_ix2 y⟩
  have hp : p.val < 512 := p.isLt
  have hrow : t.val * 512 + p.val < 512 := by omega
  show k6_pay1 (iblk6 V c 0 t) (iblk6 V c 1 t) (iblk6 V c 2 t) (ix2 p q)
      = (Model.glin (V c main_v132) (V c main_arg12) (V c main_arg13)) (((cfg6.win 6).blk t).view.emb (ix2 p q))
  rw [emb_out6 t p q hrow]
  refine (PayAt.pay6a_at (iblk6 V c 0 t) (iblk6 V c 1 t) (iblk6 V c 2 t) p q).trans ?_
  rw [ModelAt.glin_at]
  refine linRow_congr (fun j => ?_) ?_ ?_ q
  · show V c main_v132 (((cfg6.win 0).blk t).view.emb (ix2 p j)) = V c main_v132 (ix2 (⟨t.val * 512 + p.val, hrow⟩ : Fin 512) j)
    refine congrArg (V c main_v132) (funext fun a => Fin.ext ?_)
    match a with
    | ⟨0, _⟩ => show win6_0.index t (0 : Fin 2) * 512 + 1 * p.val = t.val * 512 + p.val; omega
    | ⟨1, _⟩ => show win6_0.index t (1 : Fin 2) * 100 + 1 * j.val = j.val; omega
  · funext i
    show V c main_arg12 (((cfg6.win 1).blk t).view.emb i) = V c main_arg12 i
    refine congrArg (V c main_arg12) (funext fun a => Fin.ext ?_)
    match a with
    | ⟨0, _⟩ => show win6_1.index t (0 : Fin 2) * 100 + 1 * (i 0).val = (i 0).val; omega
    | ⟨1, _⟩ => show win6_1.index t (1 : Fin 2) * 100 + 1 * (i 1).val = (i 1).val; omega
  · funext i
    show V c main_arg13 (((cfg6.win 2).blk t).view.emb i) = V c main_arg13 i
    refine congrArg (V c main_arg13) (funext fun a => Fin.ext ?_)
    match a with
    | ⟨0, _⟩ => show win6_2.index t (0 : Fin 1) * 100 + 1 * (i 0).val = (i 0).val; omega

/-- An index of output array 6 is in point t's block iff its row is among the block's rows. -/
theorem mem_blk6 (t : Fin cfg6.N) (i : S512x100.Idx) :
    i ∈ ((cfg6.win 6).blk t).view.set ↔ ∀ a : Fin 2, win6_6.index t a * S512x100.size a ≤ (i a).val ∧ (i a).val < win6_6.index t a * S512x100.size a + S512x100.size a := by
  show i ∈ ((View.whole main_v136_0).slice (win6_6.rect t)).set ↔ _
  rw [View.set_slice_whole, Rect.mem_set_unit]
  exact Iff.rfl

/-- The blocks of output window 6 tile the rows. -/
theorem cover6 (i : S512x100.Idx) : ∃ t : Fin cfg6.N, (cfg6.win 6).flush t = true ∧ i ∈ ((cfg6.win 6).blk t).view.set := by
  have hi0 : (i 0).val < 512 := (i 0).isLt
  have hi1 : (i 1).val < 100 := (i 1).isLt
  have hN : cfg6.N = 1 := N_6
  let t : Fin cfg6.N := ⟨(i 0).val / 512, by rw [hN]; omega⟩
  have htv : t.val = (i 0).val / 512 := rfl
  have e := idx_facts t
  refine ⟨t, flush6_6 t, ?_⟩
  rw [mem_blk6]
  intro a
  match a with
  | ⟨0, _⟩ => show win6_6.index t (0 : Fin 2) * 512 ≤ (i 0).val ∧ (i 0).val < win6_6.index t (0 : Fin 2) * 512 + 512; omega
  | ⟨1, _⟩ => show win6_6.index t (1 : Fin 2) * 100 ≤ (i 1).val ∧ (i 1).val < win6_6.index t (1 : Fin 2) * 100 + 100; omega

/-- OUTPUT ARRAY 6 after the grid: the head of the arrays the region was entered with. -/
theorem value6 (c : Dev nD) :
    (dat6 V c).arrAt 6 cfg6.N = Model.glin (V c main_v132) (V c main_arg12) (V c main_arg13) :=
  (dat6 V c).arrAt_eq_of_cover 6 _ (fun t _ => flushed_eq6 V c t) cover6

/-! ## Output window 7 -/

/-- Point t's block of output window 7 sits at rows 512·t + p. -/
theorem emb_out7 (t : Fin cfg6.N) (p : Fin 512) (q : Fin 100) (h : t.val * 512 + p.val < 512) :
    ((cfg6.win 7).blk t).view.emb (ix2 p q) = ix2 (⟨t.val * 512 + p.val, h⟩ : Fin 512) q := by
  have e := idx_facts t
  funext a; apply Fin.ext
  match a with
  | ⟨0, _⟩ => show win6_7.index t (0 : Fin 2) * 512 + 1 * p.val = t.val * 512 + p.val; omega
  | ⟨1, _⟩ => show win6_7.index t (1 : Fin 2) * 100 + 1 * q.val = q.val; omega

/-- WHAT POINT t WRITES BACK through window 7: its rows of the head of the arrays the region finds. -/
theorem flushed_eq7 (c : Dev nD) (t : Fin cfg6.N) :
    (dat6 V c).flushed 7 t = ((cfg6.win 7).blk t).view.read (Elt Ideal) (Model.glin (V c main_v135) (V c main_arg14) (V c main_arg15)) := by
  show (cfg6.win 7).cut (grid6.coords t) ((dat6 V c).after 7 t) = _
  rw [after6_7]
  unfold out6_7
  rw [View.canon_unit_zero hz2]
  simp only [View.ld_unit_zero (S := S512x100) hz2, View.ld_unit_zero (S := S100x100) hz2, View.ld_unit_zero (S := S100) hz1]
  have e := idx_facts t
  have ht : t.val < 1 := by have h1 : t.val < cfg6.N := t.isLt; have h2 : cfg6.N = 1 := N_6; omega
  funext y
  obtain ⟨p, q, rfl⟩ : ∃ (p : Fin 512) (q : Fin 100), y = ix2 p q := ⟨y 0, y 1, eq_ix2 y⟩
  have hp : p.val < 512 := p.isLt
  have hrow : t.val * 512 + p.val < 512 := by omega
  show k6_pay2 (iblk6 V c 3 t) (iblk6 V c 4 t) (iblk6 V c 5 t) (ix2 p q)
      = (Model.glin (V c main_v135) (V c main_arg14) (V c main_arg15)) (((cfg6.win 7).blk t).view.emb (ix2 p q))
  rw [emb_out7 t p q hrow]
  refine (PayAt.pay6b_at (iblk6 V c 3 t) (iblk6 V c 4 t) (iblk6 V c 5 t) p q).trans ?_
  rw [ModelAt.glin_at]
  refine linRow_congr (fun j => ?_) ?_ ?_ q
  · show V c main_v135 (((cfg6.win 3).blk t).view.emb (ix2 p j)) = V c main_v135 (ix2 (⟨t.val * 512 + p.val, hrow⟩ : Fin 512) j)
    refine congrArg (V c main_v135) (funext fun a => Fin.ext ?_)
    match a with
    | ⟨0, _⟩ => show win6_3.index t (0 : Fin 2) * 512 + 1 * p.val = t.val * 512 + p.val; omega
    | ⟨1, _⟩ => show win6_3.index t (1 : Fin 2) * 100 + 1 * j.val = j.val; omega
  · funext i
    show V c main_arg14 (((cfg6.win 4).blk t).view.emb i) = V c main_arg14 i
    refine congrArg (V c main_arg14) (funext fun a => Fin.ext ?_)
    match a with
    | ⟨0, _⟩ => show win6_4.index t (0 : Fin 2) * 100 + 1 * (i 0).val = (i 0).val; omega
    | ⟨1, _⟩ => show win6_4.index t (1 : Fin 2) * 100 + 1 * (i 1).val = (i 1).val; omega
  · funext i
    show V c main_arg15 (((cfg6.win 5).blk t).view.emb i) = V c main_arg15 i
    refine congrArg (V c main_arg15) (funext fun a => Fin.ext ?_)
    match a with
    | ⟨0, _⟩ => show win6_5.index t (0 : Fin 1) * 100 + 1 * (i 0).val = (i 0).val; omega

/-- An index of output array 7 is in point t's block iff its row is among the block's rows. -/
theorem mem_blk7 (t : Fin cfg6.N) (i : S512x100.Idx) :
    i ∈ ((cfg6.win 7).blk t).view.set ↔ ∀ a : Fin 2, win6_7.index t a * S512x100.size a ≤ (i a).val ∧ (i a).val < win6_7.index t a * S512x100.size a + S512x100.size a := by
  show i ∈ ((View.whole main_v136_1).slice (win6_7.rect t)).set ↔ _
  rw [View.set_slice_whole, Rect.mem_set_unit]
  exact Iff.rfl

/-- The blocks of output window 7 tile the rows. -/
theorem cover7 (i : S512x100.Idx) : ∃ t : Fin cfg6.N, (cfg6.win 7).flush t = true ∧ i ∈ ((cfg6.win 7).blk t).view.set := by
  have hi0 : (i 0).val < 512 := (i 0).isLt
  have hi1 : (i 1).val < 100 := (i 1).isLt
  have hN : cfg6.N = 1 := N_6
  let t : Fin cfg6.N := ⟨(i 0).val / 512, by rw [hN]; omega⟩
  have htv : t.val = (i 0).val / 512 := rfl
  have e := idx_facts t
  refine ⟨t, flush6_7 t, ?_⟩
  rw [mem_blk7]
  intro a
  match a with
  | ⟨0, _⟩ => show win6_7.index t (0 : Fin 2) * 512 ≤ (i 0).val ∧ (i 0).val < win6_7.index t (0 : Fin 2) * 512 + 512; omega
  | ⟨1, _⟩ => show win6_7.index t (1 : Fin 2) * 100 ≤ (i 1).val ∧ (i 1).val < win6_7.index t (1 : Fin 2) * 100 + 100; omega

/-- OUTPUT ARRAY 7 after the grid: the head of the arrays the region was entered with. -/
theorem value7 (c : Dev nD) :
    (dat6 V c).arrAt 7 cfg6.N = Model.glin (V c main_v135) (V c main_arg14) (V c main_arg15) :=
  (dat6 V c).arrAt_eq_of_cover 7 _ (fun t _ => flushed_eq7 V c t) cover7

end Cert.KernelIdeal.Region6

end
-- ==== Proof.Chain.lean ====
/-
  The kernel program's two results as the model's composed term.

  The program is thirteen segments: a stretch of host operations, then a kernel, alternately. Reading the buffer
  contents at each boundary in turn: after stretch 0 the first kernel's operands are the model's layer-0 input and
  parameters; a kernel leaves its output array at the layer (or head) of its operands; the next stretch builds the next
  layer's input from that array and from buffers that no segment in between writes (the two edge lists and the
  argument arrays). At the last boundary the two result buffers hold the model's two results of the argument arrays.
-/
import proofs.«148857_j62225486184607_1_alg».proof.Proof.Host
import proofs.«148857_j62225486184607_1_alg».proof.Proof.Region0
import proofs.«148857_j62225486184607_1_alg».proof.Proof.Region1
import proofs.«148857_j62225486184607_1_alg».proof.Proof.Region2
import proofs.«148857_j62225486184607_1_alg».proof.Proof.Region3
import proofs.«148857_j62225486184607_1_alg».proof.Proof.Region4
import proofs.«148857_j62225486184607_1_alg».proof.Proof.Region5
import proofs.«148857_j62225486184607_1_alg».proof.Proof.Region6

set_option maxRecDepth 16384

noncomputable section

namespace Cert.KernelIdeal.Chain

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-! ## The buffers carried along unchanged -/

/-- Written by stretch 0 or never: the two edge lists and the argument arrays the later segments read. -/
abbrev carriedA : List (Ref sig .tc) := [main_v1, main_v3, main_arg2, main_arg3, main_arg4, main_arg5, main_arg6, main_arg7, main_arg8, main_arg9, main_arg10, main_arg11, main_arg12, main_arg13, main_arg14, main_arg15]
/-- What is still read after the node heads: the graph ids and the graph heads' parameters. -/
abbrev carriedB : List (Ref sig .tc) := [main_arg2, main_arg12, main_arg13, main_arg14, main_arg15]

/-- A boundary's contents agree with those after stretch 0 on a list of buffers. -/
def Keeps (L : List (Ref sig .tc)) (W : Valuation τ sig (Elt Ideal)) : Prop :=
  ∀ r ∈ L, W (Proc.devRef .tc r) = W1 m ρ c (Proc.devRef .tc r)

theorem unwritten1 : ∀ r ∈ carriedA, r ∉ Host.written1 := by decide
theorem keeps_host1 {W : Valuation τ sig (Elt Ideal)} (h : Keeps m ρ c carriedA W) : Keeps m ρ c carriedA (StableHlo.after hostOps1 W) :=
  fun r hr => (Host.keep1 W r (unwritten1 r hr)).trans (h r hr)

theorem unwritten2 : ∀ r ∈ carriedA, r ∉ Host.written2 := by decide
theorem keeps_host2 {W : Valuation τ sig (Elt Ideal)} (h : Keeps m ρ c carriedA W) : Keeps m ρ c carriedA (StableHlo.after hostOps2 W) :=
  fun r hr => (Host.keep2 W r (unwritten2 r hr)).trans (h r hr)

theorem unwritten3 : ∀ r ∈ carriedA, r ∉ Host.written3 := by decide
theorem keeps_host3 {W : Valuation τ sig (Elt Ideal)} (h : Keeps m ρ c carriedA W) : Keeps m ρ c carriedA (StableHlo.after hostOps3 W) :=
  fun r hr => (Host.keep3 W r (unwritten3 r hr)).trans (h r hr)

theorem unwritten4 : ∀ r ∈ carriedA, r ∉ Host.written4 := by decide
theorem keeps_host4 {W : Valuation τ sig (Elt Ideal)} (h : Keeps m ρ c carriedA W) : Keeps m ρ c carriedA (StableHlo.after hostOps4 W) :=
  fun r hr => (Host.keep4 W r (unwritten4 r hr)).trans (h r hr)

theorem unwritten6 : ∀ r ∈ carriedB, r ∉ Host.written6 := by decide
theorem keeps_host6 {W : Valuation τ sig (Elt Ideal)} (h : Keeps m ρ c carriedB W) : Keeps m ρ c carriedB (StableHlo.after hostOps6 W) :=
  fun r hr => (Host.keep6 W r (unwritten6 r hr)).trans (h r hr)

theorem notArr0 : ∀ r ∈ carriedA, ∀ w : Fin cfg0.W, Pipeline.arrRef spec0 w ≠ r := by decide

theorem notArr1 : ∀ r ∈ carriedA, ∀ w : Fin cfg1.W, Pipeline.arrRef spec1 w ≠ r := by decide

theorem notArr2 : ∀ r ∈ carriedA, ∀ w : Fin cfg2.W, Pipeline.arrRef spec2 w ≠ r := by decide

theorem notArr3 : ∀ r ∈ carriedA, ∀ w : Fin cfg3.W, Pipeline.arrRef spec3 w ≠ r := by decide

theorem notArr4 : ∀ r ∈ carriedA, ∀ w : Fin cfg4.W, Pipeline.arrRef spec4 w ≠ r := by decide

theorem notArr5 : ∀ r ∈ carriedB, ∀ w : Fin cfg5.W, Pipeline.arrRef spec5 w ≠ r := by decide
theorem subBA : ∀ r ∈ carriedB, r ∈ carriedA := by decide

theorem keeps1 : Keeps m ρ c carriedA (W1 m ρ c) := fun _ _ => rfl
theorem keeps2 : Keeps m ρ c carriedA (W2 m ρ c) := fun r hr => (W2_of_ne m ρ c r (notArr0 r hr)).trans (keeps1 m ρ c r hr)
theorem keeps3 : Keeps m ρ c carriedA (W3 m ρ c) := keeps_host1 m ρ c (keeps2 m ρ c)
theorem keeps4 : Keeps m ρ c carriedA (W4 m ρ c) := fun r hr => (W4_of_ne m ρ c r (notArr1 r hr)).trans (keeps3 m ρ c r hr)
theorem keeps5 : Keeps m ρ c carriedA (W5 m ρ c) := keeps_host2 m ρ c (keeps4 m ρ c)
theorem keeps6 : Keeps m ρ c carriedA (W6 m ρ c) := fun r hr => (W6_of_ne m ρ c r (notArr2 r hr)).trans (keeps5 m ρ c r hr)
theorem keeps7 : Keeps m ρ c carriedA (W7 m ρ c) := keeps_host3 m ρ c (keeps6 m ρ c)
theorem keeps8 : Keeps m ρ c carriedA (W8 m ρ c) := fun r hr => (W8_of_ne m ρ c r (notArr3 r hr)).trans (keeps7 m ρ c r hr)
theorem keeps9 : Keeps m ρ c carriedA (W9 m ρ c) := keeps_host4 m ρ c (keeps8 m ρ c)
theorem keeps10 : Keeps m ρ c carriedA (W10 m ρ c) := fun r hr => (W10_of_ne m ρ c r (notArr4 r hr)).trans (keeps9 m ρ c r hr)
theorem keeps11 : Keeps m ρ c carriedB (W11 m ρ c) := fun r hr => (W11_of_ne m ρ c r (notArr5 r hr)).trans (keeps10 m ρ c r (subBA r hr))
theorem keeps12 : Keeps m ρ c carriedB (W12 m ρ c) := keeps_host6 m ρ c (keeps11 m ρ c)

/-! ## After stretch 0 -/

theorem at1_main_arg2 : W1 m ρ c (Proc.devRef .tc main_arg2) = (m ((c : Thread nD τ).loc main_arg2)) :=
  Host.keep0 (W0 m ρ c) main_arg2 (by decide)
theorem at1_main_arg3 : W1 m ρ c (Proc.devRef .tc main_arg3) = (m ((c : Thread nD τ).loc main_arg3)) :=
  Host.keep0 (W0 m ρ c) main_arg3 (by decide)
theorem at1_main_arg4 : W1 m ρ c (Proc.devRef .tc main_arg4) = (m ((c : Thread nD τ).loc main_arg4)) :=
  Host.keep0 (W0 m ρ c) main_arg4 (by decide)
theorem at1_main_arg5 : W1 m ρ c (Proc.devRef .tc main_arg5) = (m ((c : Thread nD τ).loc main_arg5)) :=
  Host.keep0 (W0 m ρ c) main_arg5 (by decide)
theorem at1_main_arg6 : W1 m ρ c (Proc.devRef .tc main_arg6) = (m ((c : Thread nD τ).loc main_arg6)) :=
  Host.keep0 (W0 m ρ c) main_arg6 (by decide)
theorem at1_main_arg7 : W1 m ρ c (Proc.devRef .tc main_arg7) = (m ((c : Thread nD τ).loc main_arg7)) :=
  Host.keep0 (W0 m ρ c) main_arg7 (by decide)
theorem at1_main_arg8 : W1 m ρ c (Proc.devRef .tc main_arg8) = (m ((c : Thread nD τ).loc main_arg8)) :=
  Host.keep0 (W0 m ρ c) main_arg8 (by decide)
theorem at1_main_arg9 : W1 m ρ c (Proc.devRef .tc main_arg9) = (m ((c : Thread nD τ).loc main_arg9)) :=
  Host.keep0 (W0 m ρ c) main_arg9 (by decide)
theorem at1_main_arg10 : W1 m ρ c (Proc.devRef .tc main_arg10) = (m ((c : Thread nD τ).loc main_arg10)) :=
  Host.keep0 (W0 m ρ c) main_arg10 (by decide)
theorem at1_main_arg11 : W1 m ρ c (Proc.devRef .tc main_arg11) = (m ((c : Thread nD τ).loc main_arg11)) :=
  Host.keep0 (W0 m ρ c) main_arg11 (by decide)
theorem at1_main_arg12 : W1 m ρ c (Proc.devRef .tc main_arg12) = (m ((c : Thread nD τ).loc main_arg12)) :=
  Host.keep0 (W0 m ρ c) main_arg12 (by decide)
theorem at1_main_arg13 : W1 m ρ c (Proc.devRef .tc main_arg13) = (m ((c : Thread nD τ).loc main_arg13)) :=
  Host.keep0 (W0 m ρ c) main_arg13 (by decide)
theorem at1_main_arg14 : W1 m ρ c (Proc.devRef .tc main_arg14) = (m ((c : Thread nD τ).loc main_arg14)) :=
  Host.keep0 (W0 m ρ c) main_arg14 (by decide)
theorem at1_main_arg15 : W1 m ρ c (Proc.devRef .tc main_arg15) = (m ((c : Thread nD τ).loc main_arg15)) :=
  Host.keep0 (W0 m ρ c) main_arg15 (by decide)
theorem at1_main_v1 : W1 m ρ c (Proc.devRef .tc main_v1) = Model.v1Of (m ((c : Thread nD τ).loc main_arg1)) := Host.s0_v1 (W0 m ρ c)
theorem at1_main_v3 : W1 m ρ c (Proc.devRef .tc main_v3) = Model.v3Of (m ((c : Thread nD τ).loc main_arg1)) := Host.s0_v3 (W0 m ρ c)
theorem at1_main_v19 : W1 m ρ c (Proc.devRef .tc main_v19) = Model.pre (Model.eps0 (m ((c : Thread nD τ).loc main_arg7))) (m ((c : Thread nD τ).loc main_arg0)) (Model.v1Of (m ((c : Thread nD τ).loc main_arg1))) (Model.v3Of (m ((c : Thread nD τ).loc main_arg1))) := Host.s0_v19 (W0 m ρ c)
theorem at1_main_v21 : W1 m ρ c (Proc.devRef .tc main_v21) = Model.w1_0 (m ((c : Thread nD τ).loc main_arg3)) := Host.s0_v21 (W0 m ρ c)
theorem at1_main_v23 : W1 m ρ c (Proc.devRef .tc main_v23) = Model.b1_0 (m ((c : Thread nD τ).loc main_arg4)) := Host.s0_v23 (W0 m ρ c)
theorem at1_main_v25 : W1 m ρ c (Proc.devRef .tc main_v25) = Model.w2_0 (m ((c : Thread nD τ).loc main_arg5)) := Host.s0_v25 (W0 m ρ c)
theorem at1_main_v27 : W1 m ρ c (Proc.devRef .tc main_v27) = Model.b2_0 (m ((c : Thread nD τ).loc main_arg6)) := Host.s0_v27 (W0 m ρ c)

/-! ## The carried buffers at the later boundaries -/

theorem at2_main_v1 : W2 m ρ c (Proc.devRef .tc main_v1) = Model.v1Of (m ((c : Thread nD τ).loc main_arg1)) :=
  (keeps2 m ρ c main_v1 (by decide)).trans (at1_main_v1 m ρ c)
theorem at2_main_v3 : W2 m ρ c (Proc.devRef .tc main_v3) = Model.v3Of (m ((c : Thread nD τ).loc main_arg1)) :=
  (keeps2 m ρ c main_v3 (by decide)).trans (at1_main_v3 m ρ c)
theorem at2_main_arg3 : W2 m ρ c (Proc.devRef .tc main_arg3) = (m ((c : Thread nD τ).loc main_arg3)) :=
  (keeps2 m ρ c main_arg3 (by decide)).trans (at1_main_arg3 m ρ c)
theorem at2_main_arg4 : W2 m ρ c (Proc.devRef .tc main_arg4) = (m ((c : Thread nD τ).loc main_arg4)) :=
  (keeps2 m ρ c main_arg4 (by decide)).trans (at1_main_arg4 m ρ c)
theorem at2_main_arg5 : W2 m ρ c (Proc.devRef .tc main_arg5) = (m ((c : Thread nD τ).loc main_arg5)) :=
  (keeps2 m ρ c main_arg5 (by decide)).trans (at1_main_arg5 m ρ c)
theorem at2_main_arg6 : W2 m ρ c (Proc.devRef .tc main_arg6) = (m ((c : Thread nD τ).loc main_arg6)) :=
  (keeps2 m ρ c main_arg6 (by decide)).trans (at1_main_arg6 m ρ c)
theorem at2_main_arg7 : W2 m ρ c (Proc.devRef .tc main_arg7) = (m ((c : Thread nD τ).loc main_arg7)) :=
  (keeps2 m ρ c main_arg7 (by decide)).trans (at1_main_arg7 m ρ c)
theorem at4_main_v1 : W4 m ρ c (Proc.devRef .tc main_v1) = Model.v1Of (m ((c : Thread nD τ).loc main_arg1)) :=
  (keeps4 m ρ c main_v1 (by decide)).trans (at1_main_v1 m ρ c)
theorem at4_main_v3 : W4 m ρ c (Proc.devRef .tc main_v3) = Model.v3Of (m ((c : Thread nD τ).loc main_arg1)) :=
  (keeps4 m ρ c main_v3 (by decide)).trans (at1_main_v3 m ρ c)
theorem at4_main_arg3 : W4 m ρ c (Proc.devRef .tc main_arg3) = (m ((c : Thread nD τ).loc main_arg3)) :=
  (keeps4 m ρ c main_arg3 (by decide)).trans (at1_main_arg3 m ρ c)
theorem at4_main_arg4 : W4 m ρ c (Proc.devRef .tc main_arg4) = (m ((c : Thread nD τ).loc main_arg4)) :=
  (keeps4 m ρ c main_arg4 (by decide)).trans (at1_main_arg4 m ρ c)
theorem at4_main_arg5 : W4 m ρ c (Proc.devRef .tc main_arg5) = (m ((c : Thread nD τ).loc main_arg5)) :=
  (keeps4 m ρ c main_arg5 (by decide)).trans (at1_main_arg5 m ρ c)
theorem at4_main_arg6 : W4 m ρ c (Proc.devRef .tc main_arg6) = (m ((c : Thread nD τ).loc main_arg6)) :=
  (keeps4 m ρ c main_arg6 (by decide)).trans (at1_main_arg6 m ρ c)
theorem at4_main_arg7 : W4 m ρ c (Proc.devRef .tc main_arg7) = (m ((c : Thread nD τ).loc main_arg7)) :=
  (keeps4 m ρ c main_arg7 (by decide)).trans (at1_main_arg7 m ρ c)
theorem at6_main_v1 : W6 m ρ c (Proc.devRef .tc main_v1) = Model.v1Of (m ((c : Thread nD τ).loc main_arg1)) :=
  (keeps6 m ρ c main_v1 (by decide)).trans (at1_main_v1 m ρ c)
theorem at6_main_v3 : W6 m ρ c (Proc.devRef .tc main_v3) = Model.v3Of (m ((c : Thread nD τ).loc main_arg1)) :=
  (keeps6 m ρ c main_v3 (by decide)).trans (at1_main_v3 m ρ c)
theorem at6_main_arg3 : W6 m ρ c (Proc.devRef .tc main_arg3) = (m ((c : Thread nD τ).loc main_arg3)) :=
  (keeps6 m ρ c main_arg3 (by decide)).trans (at1_main_arg3 m ρ c)
theorem at6_main_arg4 : W6 m ρ c (Proc.devRef .tc main_arg4) = (m ((c : Thread nD τ).loc main_arg4)) :=
  (keeps6 m ρ c main_arg4 (by decide)).trans (at1_main_arg4 m ρ c)
theorem at6_main_arg5 : W6 m ρ c (Proc.devRef .tc main_arg5) = (m ((c : Thread nD τ).loc main_arg5)) :=
  (keeps6 m ρ c main_arg5 (by decide)).trans (at1_main_arg5 m ρ c)
theorem at6_main_arg6 : W6 m ρ c (Proc.devRef .tc main_arg6) = (m ((c : Thread nD τ).loc main_arg6)) :=
  (keeps6 m ρ c main_arg6 (by decide)).trans (at1_main_arg6 m ρ c)
theorem at6_main_arg7 : W6 m ρ c (Proc.devRef .tc main_arg7) = (m ((c : Thread nD τ).loc main_arg7)) :=
  (keeps6 m ρ c main_arg7 (by decide)).trans (at1_main_arg7 m ρ c)
theorem at8_main_v1 : W8 m ρ c (Proc.devRef .tc main_v1) = Model.v1Of (m ((c : Thread nD τ).loc main_arg1)) :=
  (keeps8 m ρ c main_v1 (by decide)).trans (at1_main_v1 m ρ c)
theorem at8_main_v3 : W8 m ρ c (Proc.devRef .tc main_v3) = Model.v3Of (m ((c : Thread nD τ).loc main_arg1)) :=
  (keeps8 m ρ c main_v3 (by decide)).trans (at1_main_v3 m ρ c)
theorem at8_main_arg3 : W8 m ρ c (Proc.devRef .tc main_arg3) = (m ((c : Thread nD τ).loc main_arg3)) :=
  (keeps8 m ρ c main_arg3 (by decide)).trans (at1_main_arg3 m ρ c)
theorem at8_main_arg4 : W8 m ρ c (Proc.devRef .tc main_arg4) = (m ((c : Thread nD τ).loc main_arg4)) :=
  (keeps8 m ρ c main_arg4 (by decide)).trans (at1_main_arg4 m ρ c)
theorem at8_main_arg5 : W8 m ρ c (Proc.devRef .tc main_arg5) = (m ((c : Thread nD τ).loc main_arg5)) :=
  (keeps8 m ρ c main_arg5 (by decide)).trans (at1_main_arg5 m ρ c)
theorem at8_main_arg6 : W8 m ρ c (Proc.devRef .tc main_arg6) = (m ((c : Thread nD τ).loc main_arg6)) :=
  (keeps8 m ρ c main_arg6 (by decide)).trans (at1_main_arg6 m ρ c)
theorem at8_main_arg7 : W8 m ρ c (Proc.devRef .tc main_arg7) = (m ((c : Thread nD τ).loc main_arg7)) :=
  (keeps8 m ρ c main_arg7 (by decide)).trans (at1_main_arg7 m ρ c)
theorem at10_main_arg8 : W10 m ρ c (Proc.devRef .tc main_arg8) = (m ((c : Thread nD τ).loc main_arg8)) :=
  (keeps10 m ρ c main_arg8 (by decide)).trans (at1_main_arg8 m ρ c)
theorem at10_main_arg9 : W10 m ρ c (Proc.devRef .tc main_arg9) = (m ((c : Thread nD τ).loc main_arg9)) :=
  (keeps10 m ρ c main_arg9 (by decide)).trans (at1_main_arg9 m ρ c)
theorem at10_main_arg10 : W10 m ρ c (Proc.devRef .tc main_arg10) = (m ((c : Thread nD τ).loc main_arg10)) :=
  (keeps10 m ρ c main_arg10 (by decide)).trans (at1_main_arg10 m ρ c)
theorem at10_main_arg11 : W10 m ρ c (Proc.devRef .tc main_arg11) = (m ((c : Thread nD τ).loc main_arg11)) :=
  (keeps10 m ρ c main_arg11 (by decide)).trans (at1_main_arg11 m ρ c)
theorem at11_main_arg2 : W11 m ρ c (Proc.devRef .tc main_arg2) = (m ((c : Thread nD τ).loc main_arg2)) :=
  (keeps11 m ρ c main_arg2 (by decide)).trans (at1_main_arg2 m ρ c)
theorem at12_main_arg12 : W12 m ρ c (Proc.devRef .tc main_arg12) = (m ((c : Thread nD τ).loc main_arg12)) :=
  (keeps12 m ρ c main_arg12 (by decide)).trans (at1_main_arg12 m ρ c)
theorem at12_main_arg13 : W12 m ρ c (Proc.devRef .tc main_arg13) = (m ((c : Thread nD τ).loc main_arg13)) :=
  (keeps12 m ρ c main_arg13 (by decide)).trans (at1_main_arg13 m ρ c)
theorem at12_main_arg14 : W12 m ρ c (Proc.devRef .tc main_arg14) = (m ((c : Thread nD τ).loc main_arg14)) :=
  (keeps12 m ρ c main_arg14 (by decide)).trans (at1_main_arg14 m ρ c)
theorem at12_main_arg15 : W12 m ρ c (Proc.devRef .tc main_arg15) = (m ((c : Thread nD τ).loc main_arg15)) :=
  (keeps12 m ρ c main_arg15 (by decide)).trans (at1_main_arg15 m ρ c)

/-! ## The layers -/

/-- After kernel 0: the rows after layer 0. -/
theorem rows1 : W2 m ρ c (Proc.devRef .tc main_v28) = Model.h1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W2_arr m ρ c 5).trans ?_
  rw [Region0.value (V1 m ρ) c]
  show Model.relu (Model.mlp (W1 m ρ c (Proc.devRef .tc main_v19)) (W1 m ρ c (Proc.devRef .tc main_v21)) (W1 m ρ c (Proc.devRef .tc main_v23)) (W1 m ρ c (Proc.devRef .tc main_v25)) (W1 m ρ c (Proc.devRef .tc main_v27))) = _
  rw [at1_main_v19, at1_main_v21, at1_main_v23, at1_main_v25, at1_main_v27]
  rfl

/-- Stretch 1 builds layer 1's input from the rows after layer 0. -/
theorem in1_z : W3 m ρ c (Proc.devRef .tc main_v44) = Model.pre (Model.eps1 (m ((c : Thread nD τ).loc main_arg7))) (Model.h1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (Model.v1Of (m ((c : Thread nD τ).loc main_arg1))) (Model.v3Of (m ((c : Thread nD τ).loc main_arg1))) := by
  show StableHlo.after hostOps1 (W2 m ρ c) (Proc.devRef .tc main_v44) = _
  rw [Host.s1_v44, at2_main_arg7, rows1, at2_main_v1, at2_main_v3]
theorem in1_w1 : W3 m ρ c (Proc.devRef .tc main_v46) = Model.w1_1 (m ((c : Thread nD τ).loc main_arg3)) := by
  show StableHlo.after hostOps1 (W2 m ρ c) (Proc.devRef .tc main_v46) = _
  rw [Host.s1_v46, at2_main_arg3]
theorem in1_b1 : W3 m ρ c (Proc.devRef .tc main_v48) = Model.b1_1 (m ((c : Thread nD τ).loc main_arg4)) := by
  show StableHlo.after hostOps1 (W2 m ρ c) (Proc.devRef .tc main_v48) = _
  rw [Host.s1_v48, at2_main_arg4]
theorem in1_w2 : W3 m ρ c (Proc.devRef .tc main_v50) = Model.w2_1 (m ((c : Thread nD τ).loc main_arg5)) := by
  show StableHlo.after hostOps1 (W2 m ρ c) (Proc.devRef .tc main_v50) = _
  rw [Host.s1_v50, at2_main_arg5]
theorem in1_b2 : W3 m ρ c (Proc.devRef .tc main_v52) = Model.b2_1 (m ((c : Thread nD τ).loc main_arg6)) := by
  show StableHlo.after hostOps1 (W2 m ρ c) (Proc.devRef .tc main_v52) = _
  rw [Host.s1_v52, at2_main_arg6]

/-- After kernel 1: the rows after layer 1. -/
theorem rows2 : W4 m ρ c (Proc.devRef .tc main_v53) = Model.h2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ?_
  rw [Region1.value (V3 m ρ) c]
  show Model.relu (Model.mlp (W3 m ρ c (Proc.devRef .tc main_v44)) (W3 m ρ c (Proc.devRef .tc main_v46)) (W3 m ρ c (Proc.devRef .tc main_v48)) (W3 m ρ c (Proc.devRef .tc main_v50)) (W3 m ρ c (Proc.devRef .tc main_v52))) = _
  rw [in1_z, in1_w1, in1_b1, in1_w2, in1_b2]
  rfl

/-- Stretch 2 builds layer 2's input from the rows after layer 1. -/
theorem in2_z : W5 m ρ c (Proc.devRef .tc main_v69) = Model.pre (Model.eps2 (m ((c : Thread nD τ).loc main_arg7))) (Model.h2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (Model.v1Of (m ((c : Thread nD τ).loc main_arg1))) (Model.v3Of (m ((c : Thread nD τ).loc main_arg1))) := by
  show StableHlo.after hostOps2 (W4 m ρ c) (Proc.devRef .tc main_v69) = _
  rw [Host.s2_v69, at4_main_arg7, rows2, at4_main_v1, at4_main_v3]
theorem in2_w1 : W5 m ρ c (Proc.devRef .tc main_v71) = Model.w1_2 (m ((c : Thread nD τ).loc main_arg3)) := by
  show StableHlo.after hostOps2 (W4 m ρ c) (Proc.devRef .tc main_v71) = _
  rw [Host.s2_v71, at4_main_arg3]
theorem in2_b1 : W5 m ρ c (Proc.devRef .tc main_v73) = Model.b1_2 (m ((c : Thread nD τ).loc main_arg4)) := by
  show StableHlo.after hostOps2 (W4 m ρ c) (Proc.devRef .tc main_v73) = _
  rw [Host.s2_v73, at4_main_arg4]
theorem in2_w2 : W5 m ρ c (Proc.devRef .tc main_v75) = Model.w2_2 (m ((c : Thread nD τ).loc main_arg5)) := by
  show StableHlo.after hostOps2 (W4 m ρ c) (Proc.devRef .tc main_v75) = _
  rw [Host.s2_v75, at4_main_arg5]
theorem in2_b2 : W5 m ρ c (Proc.devRef .tc main_v77) = Model.b2_2 (m ((c : Thread nD τ).loc main_arg6)) := by
  show StableHlo.after hostOps2 (W4 m ρ c) (Proc.devRef .tc main_v77) = _
  rw [Host.s2_v77, at4_main_arg6]

/-- After kernel 2: the rows after layer 2. -/
theorem rows3 : W6 m ρ c (Proc.devRef .tc main_v78) = Model.h3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W6_arr m ρ c 5).trans ?_
  rw [Region2.value (V5 m ρ) c]
  show Model.relu (Model.mlp (W5 m ρ c (Proc.devRef .tc main_v69)) (W5 m ρ c (Proc.devRef .tc main_v71)) (W5 m ρ c (Proc.devRef .tc main_v73)) (W5 m ρ c (Proc.devRef .tc main_v75)) (W5 m ρ c (Proc.devRef .tc main_v77))) = _
  rw [in2_z, in2_w1, in2_b1, in2_w2, in2_b2]
  rfl

/-- Stretch 3 builds layer 3's input from the rows after layer 2. -/
theorem in3_z : W7 m ρ c (Proc.devRef .tc main_v94) = Model.pre (Model.eps3 (m ((c : Thread nD τ).loc main_arg7))) (Model.h3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (Model.v1Of (m ((c : Thread nD τ).loc main_arg1))) (Model.v3Of (m ((c : Thread nD τ).loc main_arg1))) := by
  show StableHlo.after hostOps3 (W6 m ρ c) (Proc.devRef .tc main_v94) = _
  rw [Host.s3_v94, at6_main_arg7, rows3, at6_main_v1, at6_main_v3]
theorem in3_w1 : W7 m ρ c (Proc.devRef .tc main_v96) = Model.w1_3 (m ((c : Thread nD τ).loc main_arg3)) := by
  show StableHlo.after hostOps3 (W6 m ρ c) (Proc.devRef .tc main_v96) = _
  rw [Host.s3_v96, at6_main_arg3]
theorem in3_b1 : W7 m ρ c (Proc.devRef .tc main_v98) = Model.b1_3 (m ((c : Thread nD τ).loc main_arg4)) := by
  show StableHlo.after hostOps3 (W6 m ρ c) (Proc.devRef .tc main_v98) = _
  rw [Host.s3_v98, at6_main_arg4]
theorem in3_w2 : W7 m ρ c (Proc.devRef .tc main_v100) = Model.w2_3 (m ((c : Thread nD τ).loc main_arg5)) := by
  show StableHlo.after hostOps3 (W6 m ρ c) (Proc.devRef .tc main_v100) = _
  rw [Host.s3_v100, at6_main_arg5]
theorem in3_b2 : W7 m ρ c (Proc.devRef .tc main_v102) = Model.b2_3 (m ((c : Thread nD τ).loc main_arg6)) := by
  show StableHlo.after hostOps3 (W6 m ρ c) (Proc.devRef .tc main_v102) = _
  rw [Host.s3_v102, at6_main_arg6]

/-- After kernel 3: the rows after layer 3. -/
theorem rows4 : W8 m ρ c (Proc.devRef .tc main_v103) = Model.h4 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 5).trans ?_
  rw [Region3.value (V7 m ρ) c]
  show Model.relu (Model.mlp (W7 m ρ c (Proc.devRef .tc main_v94)) (W7 m ρ c (Proc.devRef .tc main_v96)) (W7 m ρ c (Proc.devRef .tc main_v98)) (W7 m ρ c (Proc.devRef .tc main_v100)) (W7 m ρ c (Proc.devRef .tc main_v102))) = _
  rw [in3_z, in3_w1, in3_b1, in3_w2, in3_b2]
  rfl

/-- Stretch 4 builds layer 4's input from the rows after layer 3. -/
theorem in4_z : W9 m ρ c (Proc.devRef .tc main_v119) = Model.pre (Model.eps4 (m ((c : Thread nD τ).loc main_arg7))) (Model.h4 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (Model.v1Of (m ((c : Thread nD τ).loc main_arg1))) (Model.v3Of (m ((c : Thread nD τ).loc main_arg1))) := by
  show StableHlo.after hostOps4 (W8 m ρ c) (Proc.devRef .tc main_v119) = _
  rw [Host.s4_v119, at8_main_arg7, rows4, at8_main_v1, at8_main_v3]
theorem in4_w1 : W9 m ρ c (Proc.devRef .tc main_v121) = Model.w1_4 (m ((c : Thread nD τ).loc main_arg3)) := by
  show StableHlo.after hostOps4 (W8 m ρ c) (Proc.devRef .tc main_v121) = _
  rw [Host.s4_v121, at8_main_arg3]
theorem in4_b1 : W9 m ρ c (Proc.devRef .tc main_v123) = Model.b1_4 (m ((c : Thread nD τ).loc main_arg4)) := by
  show StableHlo.after hostOps4 (W8 m ρ c) (Proc.devRef .tc main_v123) = _
  rw [Host.s4_v123, at8_main_arg4]
theorem in4_w2 : W9 m ρ c (Proc.devRef .tc main_v125) = Model.w2_4 (m ((c : Thread nD τ).loc main_arg5)) := by
  show StableHlo.after hostOps4 (W8 m ρ c) (Proc.devRef .tc main_v125) = _
  rw [Host.s4_v125, at8_main_arg5]
theorem in4_b2 : W9 m ρ c (Proc.devRef .tc main_v127) = Model.b2_4 (m ((c : Thread nD τ).loc main_arg6)) := by
  show StableHlo.after hostOps4 (W8 m ρ c) (Proc.devRef .tc main_v127) = _
  rw [Host.s4_v127, at8_main_arg6]

/-- After kernel 4: the rows after layer 4. -/
theorem rows5 : W10 m ρ c (Proc.devRef .tc main_v128) = Model.h5 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 5).trans ?_
  rw [Region4.value (V9 m ρ) c]
  show (Model.mlp (W9 m ρ c (Proc.devRef .tc main_v119)) (W9 m ρ c (Proc.devRef .tc main_v121)) (W9 m ρ c (Proc.devRef .tc main_v123)) (W9 m ρ c (Proc.devRef .tc main_v125)) (W9 m ρ c (Proc.devRef .tc main_v127))) = _
  rw [in4_z, in4_w1, in4_b1, in4_w2, in4_b2]
  rfl

/-! ## The heads -/

/-- After kernel 5: the first node head of the last rows. -/
theorem node1 : W11 m ρ c (Proc.devRef .tc main_v129_0) = Model.head (Model.h5 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) (m ((c : Thread nD τ).loc main_arg9)) := by
  refine (W11_arr m ρ c 5).trans ?_
  rw [Region5.value5 (V10 m ρ) c]
  show Model.head (W10 m ρ c (Proc.devRef .tc main_v128)) (W10 m ρ c (Proc.devRef .tc main_arg8)) (W10 m ρ c (Proc.devRef .tc main_arg9)) = _
  rw [rows5, at10_main_arg8, at10_main_arg9]

/-- After kernel 5: the second node head of the last rows. -/
theorem node2 : W11 m ρ c (Proc.devRef .tc main_v129_1) = Model.head (Model.h5 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg10)) (m ((c : Thread nD τ).loc main_arg11)) := by
  refine (W11_arr m ρ c 6).trans ?_
  rw [Region5.value6 (V10 m ρ) c]
  show Model.head (W10 m ρ c (Proc.devRef .tc main_v128)) (W10 m ρ c (Proc.devRef .tc main_arg10)) (W10 m ρ c (Proc.devRef .tc main_arg11)) = _
  rw [rows5, at10_main_arg10, at10_main_arg11]

/-- Stretch 6 sums the first head's rows per graph. -/
theorem graph1 : W12 m ρ c (Proc.devRef .tc main_v132) = Model.pool (m ((c : Thread nD τ).loc main_arg2)) (Model.head (Model.h5 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) (m ((c : Thread nD τ).loc main_arg9))) := by
  show StableHlo.after hostOps6 (W11 m ρ c) (Proc.devRef .tc main_v132) = _
  rw [Host.s6_v132, at11_main_arg2, node1]

/-- Stretch 6 sums the second head's rows per graph. -/
theorem graph2 : W12 m ρ c (Proc.devRef .tc main_v135) = Model.pool (m ((c : Thread nD τ).loc main_arg2)) (Model.head (Model.h5 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg10)) (m ((c : Thread nD τ).loc main_arg11))) := by
  show StableHlo.after hostOps6 (W11 m ρ c) (Proc.devRef .tc main_v135) = _
  rw [Host.s6_v135, at11_main_arg2, node2]

/-- THE FIRST RESULT at the last boundary. -/
theorem result1 : W13 m ρ c (Proc.devRef .tc main_v136_0) = Model.result (Model.h5 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg2)) (m ((c : Thread nD τ).loc main_arg8)) (m ((c : Thread nD τ).loc main_arg9)) (m ((c : Thread nD τ).loc main_arg12)) (m ((c : Thread nD τ).loc main_arg13)) := by
  refine (W13_arr m ρ c 6).trans ?_
  rw [Region6.value6 (V12 m ρ) c]
  show Model.glin (W12 m ρ c (Proc.devRef .tc main_v132)) (W12 m ρ c (Proc.devRef .tc main_arg12)) (W12 m ρ c (Proc.devRef .tc main_arg13)) = _
  rw [graph1, at12_main_arg12, at12_main_arg13]
  rfl

/-- THE SECOND RESULT at the last boundary. -/
theorem result2 : W13 m ρ c (Proc.devRef .tc main_v136_1) = Model.result (Model.h5 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg2)) (m ((c : Thread nD τ).loc main_arg10)) (m ((c : Thread nD τ).loc main_arg11)) (m ((c : Thread nD τ).loc main_arg14)) (m ((c : Thread nD τ).loc main_arg15)) := by
  refine (W13_arr m ρ c 7).trans ?_
  rw [Region6.value7 (V12 m ρ) c]
  show Model.glin (W12 m ρ c (Proc.devRef .tc main_v135)) (W12 m ρ c (Proc.devRef .tc main_arg14)) (W12 m ρ c (Proc.devRef .tc main_arg15)) = _
  rw [graph2, at12_main_arg14, at12_main_arg15]
  rfl

end Cert.KernelIdeal.Chain

end
-- ==== Proof.RefSide.lean ====
/-
  The reference program's two results as the model's composed term.

  The reference's run ends with each result at the composed term of its host operations. Those operations are the
  model's stages in order — layer by layer, the node heads, the sums per graph, the graph heads — so the term is the
  model's result of the argument arrays.
-/
import proofs.«148857_j62225486184607_1_alg».proof.Proof.Gen.ReferenceIdeal.Run
import proofs.«148857_j62225486184607_1_alg».proof.Proof.Model

set_option maxRecDepth 16384

noncomputable section

namespace Cert.ReferenceIdeal.RefValue

open Idealize.ShloMosaic Idealize.ShloMosaic.TcCoe Idealize.SL.Sem Idealize.ShloMosaic.StableHlo
open Cert.ReferenceIdeal Cert.ReferenceIdeal.Value

variable {F : FTy → Type} [FloatOps F]

/-- The rows after layer 0. -/
theorem rows1 (V0 : Valuation τ sig (Elt F)) : res_main_v39 V0 = Model.h1 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) := rfl

/-- The rows after layer 1. -/
theorem rows2 (V0 : Valuation τ sig (Elt F)) : res_main_v75 V0 = Model.h2 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) := by
  unfold res_main_v75; rw [rows1 V0]; rfl

/-- The rows after layer 2. -/
theorem rows3 (V0 : Valuation τ sig (Elt F)) : res_main_v111 V0 = Model.h3 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) := by
  unfold res_main_v111; rw [rows2 V0]; rfl

/-- The rows after layer 3. -/
theorem rows4 (V0 : Valuation τ sig (Elt F)) : res_main_v147 V0 = Model.h4 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) := by
  unfold res_main_v147; rw [rows3 V0]; rfl

/-- The rows after the last layer. -/
theorem rows5 (V0 : Valuation τ sig (Elt F)) : res_main_v181 V0 = Model.h5 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) := by
  unfold res_main_v181; rw [rows4 V0]; rfl

/-- THE REFERENCE'S RUN with both results at the model's term of the launch contents. -/
theorem run_model (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v199) = Model.result (Model.h5 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg12)) (m ((c.tc : Thread nD τ).loc main_arg13))
      ∧ r.2.mem ((c.tc : Thread nD τ).loc main_v203) = Model.result (Model.h5 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg2)) (m ((c.tc : Thread nD τ).loc main_arg10)) (m ((c.tc : Thread nD τ).loc main_arg11)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun r h c => ⟨(h c).1.trans (by rw [rows5]; rfl), (h c).2.1.trans (by rw [rows5]; rfl), (h c).2.2⟩)
    (Value.run (F := F) m ρ)

end Cert.ReferenceIdeal.RefValue

end
-- ==== Proof.lean ====
/-
  The certificate: the kernel program and its reference compute the same two results at the ideal values.

  Both programs are the same five-layer graph network (Proof/Model.lean). The reference applies each dense stage to all
  50000 node rows at once on the host; the kernel program applies it on the accelerator to blocks of 5000 rows (the two
  graph heads to all 512 rows in one block), with the host doing only the gathers and sums along the edges. Since an
  output row of a dense stage depends on the same input row alone (Proof/LibPlainDot.lean), a stage computed block by
  block is the stage computed at once (Proof/Region0.lean … Region6.lean); chaining the thirteen segments of the kernel
  program gives the model's results of the arguments (Proof/Chain.lean), and the reference's run gives the same term
  (Proof/RefSide.lean). No operation was rewritten between the kernel program and its idealization, and no law used
  here needs the inputs to be finite.
-/
import proofs.«148857_j62225486184607_1_alg».proof.Defs
import proofs.«148857_j62225486184607_1_alg».proof.Proof.Gen.Kernel
import proofs.«148857_j62225486184607_1_alg».proof.Proof.Gen.Kernel.Frame
import proofs.«148857_j62225486184607_1_alg».proof.Proof.Gen.KernelIdeal
import proofs.«148857_j62225486184607_1_alg».proof.Proof.Gen.KernelIdeal.Frame
import proofs.«148857_j62225486184607_1_alg».proof.Proof.Gen.ReferenceIdeal
import proofs.«148857_j62225486184607_1_alg».proof.Proof.Gen.Pre_finite_inputs
import proofs.«148857_j62225486184607_1_alg».proof.Proof.Gen.ReferenceIdeal.Run
import proofs.«148857_j62225486184607_1_alg».proof.Proof.FrameResults
import proofs.«148857_j62225486184607_1_alg».proof.Proof.Chain
import proofs.«148857_j62225486184607_1_alg».proof.Proof.RefSide
import Idealize.ShloMosaic.Adequacy
import Idealize.ShloMosaic.Init

set_option maxRecDepth 16384

noncomputable section

namespace Cert.Proof

open Idealize.ShloMosaic Idealize.SL.Sem

/-- The kernel program runs and leaves its arguments unchanged. -/
theorem frame_kernel : @Cert.frame_Kernel Cert.Kernel.Gen.facts Cert.Pre_finite_inputs.Gen.facts :=
  fun m ρ _ => Cert.Kernel.Gen.frame m ρ

/-- So does its idealization. -/
theorem frame_kernelIdeal : @Cert.frame_KernelIdeal Cert.KernelIdeal.Gen.facts Cert.Pre_finite_inputs.Gen.facts :=
  fun m ρ _ => Cert.KernelIdeal.Gen.frame m ρ

/-- The reference's frame is its run with the results dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2.2) (Cert.ReferenceIdeal.Value.run (F := Ideal) m ρ)

/-- From memories agreeing on the arguments both programs end with the model's two results of those arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Model.result (Model.h5 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg2)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Model.result (Model.h5 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg2)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · refine (θ_run Cert.KernelIdeal.defs _ _).mono (fun r h c => ?_) (Cert.KernelIdeal.GenP.frame_results m ρ)
    obtain ⟨h0, h1, hargs⟩ := h c
    exact ⟨h0.trans (Cert.KernelIdeal.Chain.result1 m ρ c), h1.trans (Cert.KernelIdeal.Chain.result2 m ρ c), hargs⟩
  · refine (θ_run Cert.ReferenceIdeal.defs _ _).mono (fun r h c => ?_) (Cert.ReferenceIdeal.RefValue.run_model (F := Ideal) m' ρ')
    obtain ⟨h0, h1, hargs⟩ := h c
    obtain ⟨e0, e1, e2, e3, e4, e5, e6, e7, e8, e9, e10, e11, e12, e13, e14, e15⟩ := hagree c
    refine ⟨h0.trans ?_, h1.trans ?_, hargs⟩
    · rw [e0, e1, e2, e3, e4, e5, e6, e7, e8, e9, e12, e13]
    · rw [e0, e1, e2, e3, e4, e5, e6, e7, e10, e11, e14, e15]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
